-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩
abbrev S65x128 : Shape := ⟨2, ![65, 128]⟩
abbrev S128 : Shape := ⟨1, ![128]⟩
abbrev S16513x128 : Shape := ⟨2, ![16513, 128]⟩
abbrev S16641x128 : Shape := ⟨2, ![16641, 128]⟩
abbrev S769x1 : Shape := ⟨2, ![769, 1]⟩
abbrev S1 : Shape := ⟨1, ![1]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  reducesTo_S_S_d : S_.ReducesTo [] S_
  bcast_S_S65x128 : S_.BroadcastsInDim S65x128 (![] : Fin 0 → Fin S65x128.rank)
  reducesTo_S65x128_S_d0_1 : S65x128.ReducesTo [0, 1] S_
  bcast_S_S128 : S_.BroadcastsInDim S128 (![] : Fin 0 → Fin S128.rank)
  reducesTo_S128_S_d0 : S128.ReducesTo [0] S_
  bcast_S_S16513x128 : S_.BroadcastsInDim S16513x128 (![] : Fin 0 → Fin S16513x128.rank)
  reducesTo_S16513x128_S_d0_1 : S16513x128.ReducesTo [0, 1] S_
  bcast_S_S16641x128 : S_.BroadcastsInDim S16641x128 (![] : Fin 0 → Fin S16641x128.rank)
  reducesTo_S16641x128_S_d0_1 : S16641x128.ReducesTo [0, 1] S_
  bcast_S_S769x1 : S_.BroadcastsInDim S769x1 (![] : Fin 0 → Fin S769x1.rank)
  reducesTo_S769x1_S_d0_1 : S769x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S769x1 .f32) (main_arg15 : FVec F S1 .f32) (main_v67 : IVec S_ 1) : IVec S_ 1 :=
  let main_v68 : FVec F S769x1 .f32 := Host.absf main_arg14
  let main_cst_26 : FVec F S_ .f32 := constant S_ .f32 0x7F800000#32
  let main_v69 : FVec F S769x1 .f32 := broadcastInDim S769x1 ![] bcast_S_S769x1 main_cst_26
  let main_v70 : IVec S769x1 1 := cmpf .olt main_v68 main_v69
  let main_c_27 : IVec S_ 1 := constantI S_ 1 1#1
  let main_v71 : IVec S_ 1 := (fun x v => Host.reduce IntOp.andi x v reducesTo_S769x1_S_d0_1 h_S_) main_v70 main_c_27
  let main_v72 : IVec S_ 1 := andi main_v67 main_v71
  let main_v73 : FVec F S1 .f32 := Host.absf main_arg15
  let main_cst_28 : FVec F S_ .f32 := constant S_ .f32 0x7F800000#32
  let main_v74 : FVec F S1 .f32 := broadcastInDim S1 ![] bcast_S_S1 main_cst_28
  let main_v75 : IVec S1 1 := cmpf .olt main_v73 main_v74
  let main_c_29 : IVec S_ 1 := constantI S_ 1 1#1
  let main_v76 : IVec S_ 1 := (fun x v => Host.reduce IntOp.andi x v reducesTo_S1_S_d0 h_S_) main_v75 main_c_29
  let main_v77 : IVec S_ 1 := andi main_v72 main_v76
  main_v77

def fn_part3 {F : FTy → Type} [FloatOps F] (main_arg11 : FVec F S128 .f32) (main_arg12 : FVec F S16641x128 .f32) (main_arg13 : FVec F S128 .f32) (main_arg14 : FVec F S769x1 .f32) (main_arg15 : FVec F S1 .f32) (main_v47 : IVec S_ 1) (main_v50 : IVec S16641x128 1) : IVec S_ 1 :=
  let main_c_19 : IVec S_ 1 := constantI S_ 1 1#1
  let main_v51 : IVec S_ 1 := (fun x v => Host.reduce IntOp.andi x v reducesTo_S16641x128_S_d0_1 h_S_) main_v50 main_c_19
  let main_v52 : IVec S_ 1 := andi main_v47 main_v51
  let main_v53 : FVec F S128 .f32 := Host.absf main_arg11
  let main_cst_20 : FVec F S_ .f32 := constant S_ .f32 0x7F800000#32
  let main_v54 : FVec F S128 .f32 := broadcastInDim S128 ![] bcast_S_S128 main_cst_20
  let main_v55 : IVec S128 1 := cmpf .olt main_v53 main_v54
  let main_c_21 : IVec S_ 1 := constantI S_ 1 1#1
  let main_v56 : IVec S_ 1 := (fun x v => Host.reduce IntOp.andi x v reducesTo_S128_S_d0 h_S_) main_v55 main_c_21
  let main_v57 : IVec S_ 1 := andi main_v52 main_v56
  let main_v58 : FVec F S16641x128 .f32 := Host.absf main_arg12
  let main_cst_22 : FVec F S_ .f32 := constant S_ .f32 0x7F800000#32
  let main_v59 : FVec F S16641x128 .f32 := broadcastInDim S16641x128 ![] bcast_S_S16641x128 main_cst_22
  let main_v60 : IVec S16641x128 1 := cmpf .olt main_v58 main_v59
  let main_c_23 : IVec S_ 1 := constantI S_ 1 1#1
  let main_v61 : IVec S_ 1 := (fun x v => Host.reduce IntOp.andi x v reducesTo_S16641x128_S_d0_1 h_S_) main_v60 main_c_23
  let main_v62 : IVec S_ 1 := andi main_v57 main_v61
  let main_v63 : FVec F S128 .f32 := Host.absf main_arg13
  let main_cst_24 : FVec F S_ .f32 := constant S_ .f32 0x7F800000#32
  let main_v64 : FVec F S128 .f32 := broadcastInDim S128 ![] bcast_S_S128 main_cst_24
  let main_v65 : IVec S128 1 := cmpf .olt main_v63 main_v64
  let main_c_25 : IVec S_ 1 := constantI S_ 1 1#1
  let main_v66 : IVec S_ 1 := (fun x v => Host.reduce IntOp.andi x v reducesTo_S128_S_d0 h_S_) main_v65 main_c_25
  let main_v67 : IVec S_ 1 := andi main_v62 main_v66
  fn_part4 (F := F) main_arg14 main_arg15 main_v67

def fn_part2 {F : FTy → Type} [FloatOps F] (main_arg8 : FVec F S16513x128 .f32) (main_arg9 : FVec F S128 .f32) (main_arg10 : FVec F S16641x128 .f32) (main_arg11 : FVec F S128 .f32) (main_arg12 : FVec F S16641x128 .f32) (main_arg13 : FVec F S128 .f32) (main_arg14 : FVec F S769x1 .f32) (main_arg15 : FVec F S1 .f32) (main_v32 : IVec S_ 1) (main_v33 : FVec F S128 .f32) : IVec S_ 1 :=
  let main_cst_12 : FVec F S_ .f32 := constant S_ .f32 0x7F800000#32
  let main_v34 : FVec F S128 .f32 := broadcastInDim S128 ![] bcast_S_S128 main_cst_12
  let main_v35 : IVec S128 1 := cmpf .olt main_v33 main_v34
  let main_c_13 : IVec S_ 1 := constantI S_ 1 1#1
  let main_v36 : IVec S_ 1 := (fun x v => Host.reduce IntOp.andi x v reducesTo_S128_S_d0 h_S_) main_v35 main_c_13
  let main_v37 : IVec S_ 1 := andi main_v32 main_v36
  let main_v38 : FVec F S16513x128 .f32 := Host.absf main_arg8
  let main_cst_14 : FVec F S_ .f32 := constant S_ .f32 0x7F800000#32
  let main_v39 : FVec F S16513x128 .f32 := broadcastInDim S16513x128 ![] bcast_S_S16513x128 main_cst_14
  let main_v40 : IVec S16513x128 1 := cmpf .olt main_v38 main_v39
  let main_c_15 : IVec S_ 1 := constantI S_ 1 1#1
  let main_v41 : IVec S_ 1 := (fun x v => Host.reduce IntOp.andi x v reducesTo_S16513x128_S_d0_1 h_S_) main_v40 main_c_15
  let main_v42 : IVec S_ 1 := andi main_v37 main_v41
  let main_v43 : FVec F S128 .f32 := Host.absf main_arg9
  let main_cst_16 : FVec F S_ .f32 := constant S_ .f32 0x7F800000#32
  let main_v44 : FVec F S128 .f32 := broadcastInDim S128 ![] bcast_S_S128 main_cst_16
  let main_v45 : IVec S128 1 := cmpf .olt main_v43 main_v44
  let main_c_17 : IVec S_ 1 := constantI S_ 1 1#1
  let main_v46 : IVec S_ 1 := (fun x v => Host.reduce IntOp.andi x v reducesTo_S128_S_d0 h_S_) main_v45 main_c_17
  let main_v47 : IVec S_ 1 := andi main_v42 main_v46
  let main_v48 : FVec F S16641x128 .f32 := Host.absf main_arg10
  let main_cst_18 : FVec F S_ .f32 := constant S_ .f32 0x7F800000#32
  let main_v49 : FVec F S16641x128 .f32 := broadcastInDim S16641x128 ![] bcast_S_S16641x128 main_cst_18
  let main_v50 : IVec S16641x128 1 := cmpf .olt main_v48 main_v49
  fn_part3 (F := F) main_arg11 main_arg12 main_arg13 main_arg14 main_arg15 main_v47 main_v50

def fn_part1 {F : FTy → Type} [FloatOps F] (main_arg4 : FVec F S65x128 .f32) (main_arg5 : FVec F S128 .f32) (main_arg6 : FVec F S16513x128 .f32) (main_arg7 : FVec F S128 .f32) (main_arg8 : FVec F S16513x128 .f32) (main_arg9 : FVec F S128 .f32) (main_arg10 : FVec F S16641x128 .f32) (main_arg11 : FVec F S128 .f32) (main_arg12 : FVec F S16641x128 .f32) (main_arg13 : FVec F S128 .f32) (main_arg14 : FVec F S769x1 .f32) (main_arg15 : FVec F S1 .f32) (main_v12 : IVec S_ 1) (main_v15 : IVec S128 1) (main_c_5 : IVec S_ 1) : IVec S_ 1 :=
  let main_v16 : IVec S_ 1 := (fun x v => Host.reduce IntOp.andi x v reducesTo_S128_S_d0 h_S_) main_v15 main_c_5
  let main_v17 : IVec S_ 1 := andi main_v12 main_v16
  let main_v18 : FVec F S65x128 .f32 := Host.absf main_arg4
  let main_cst_6 : FVec F S_ .f32 := constant S_ .f32 0x7F800000#32
  let main_v19 : FVec F S65x128 .f32 := broadcastInDim S65x128 ![] bcast_S_S65x128 main_cst_6
  let main_v20 : IVec S65x128 1 := cmpf .olt main_v18 main_v19
  let main_c_7 : IVec S_ 1 := constantI S_ 1 1#1
  let main_v21 : IVec S_ 1 := (fun x v => Host.reduce IntOp.andi x v reducesTo_S65x128_S_d0_1 h_S_) main_v20 main_c_7
  let main_v22 : IVec S_ 1 := andi main_v17 main_v21
  let main_v23 : FVec F S128 .f32 := Host.absf main_arg5
  let main_cst_8 : FVec F S_ .f32 := constant S_ .f32 0x7F800000#32
  let main_v24 : FVec F S128 .f32 := broadcastInDim S128 ![] bcast_S_S128 main_cst_8
  let main_v25 : IVec S128 1 := cmpf .olt main_v23 main_v24
  let main_c_9 : IVec S_ 1 := constantI S_ 1 1#1
  let main_v26 : IVec S_ 1 := (fun x v => Host.reduce IntOp.andi x v reducesTo_S128_S_d0 h_S_) main_v25 main_c_9
  let main_v27 : IVec S_ 1 := andi main_v22 main_v26
  let main_v28 : FVec F S16513x128 .f32 := Host.absf main_arg6
  let main_cst_10 : FVec F S_ .f32 := constant S_ .f32 0x7F800000#32
  let main_v29 : FVec F S16513x128 .f32 := broadcastInDim S16513x128 ![] bcast_S_S16513x128 main_cst_10
  let main_v30 : IVec S16513x128 1 := cmpf .olt main_v28 main_v29
  let main_c_11 : IVec S_ 1 := constantI S_ 1 1#1
  let main_v31 : IVec S_ 1 := (fun x v => Host.reduce IntOp.andi x v reducesTo_S16513x128_S_d0_1 h_S_) main_v30 main_c_11
  let main_v32 : IVec S_ 1 := andi main_v27 main_v31
  let main_v33 : FVec F S128 .f32 := Host.absf main_arg7
  fn_part2 (F := F) main_arg8 main_arg9 main_arg10 main_arg11 main_arg12 main_arg13 main_arg14 main_arg15 main_v32 main_v33

def fn {F : FTy → Type} [FloatOps F] (main_arg0 : FVec F S8192x64 .f32) (main_arg1 : FVec F S_ .f32) (main_arg2 : FVec F S65x128 .f32) (main_arg3 : FVec F S128 .f32) (main_arg4 : FVec F S65x128 .f32) (main_arg5 : FVec F S128 .f32) (main_arg6 : FVec F S16513x128 .f32) (main_arg7 : FVec F S128 .f32) (main_arg8 : FVec F S16513x128 .f32) (main_arg9 : FVec F S128 .f32) (main_arg10 : FVec F S16641x128 .f32) (main_arg11 : FVec F S128 .f32) (main_arg12 : FVec F S16641x128 .f32) (main_arg13 : FVec F S128 .f32) (main_arg14 : FVec F S769x1 .f32) (main_arg15 : FVec F S1 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S_ .f32 := Host.absf main_arg1
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S65x128 .f32 := Host.absf main_arg2
  let main_cst_2 : FVec F S_ .f32 := constant S_ .f32 0x7F800000#32
  let main_v9 : FVec F S65x128 .f32 := broadcastInDim S65x128 ![] bcast_S_S65x128 main_cst_2
  let main_v10 : IVec S65x128 1 := cmpf .olt main_v8 main_v9
  let main_c_3 : IVec S_ 1 := constantI S_ 1 1#1
  let main_v11 : IVec S_ 1 := (fun x v => Host.reduce IntOp.andi x v reducesTo_S65x128_S_d0_1 h_S_) main_v10 main_c_3
  let main_v12 : IVec S_ 1 := andi main_v7 main_v11
  let main_v13 : FVec F S128 .f32 := Host.absf main_arg3
  let main_cst_4 : FVec F S_ .f32 := constant S_ .f32 0x7F800000#32
  let main_v14 : FVec F S128 .f32 := broadcastInDim S128 ![] bcast_S_S128 main_cst_4
  let main_v15 : IVec S128 1 := cmpf .olt main_v13 main_v14
  let main_c_5 : IVec S_ 1 := constantI S_ 1 1#1
  fn_part1 (F := F) main_arg4 main_arg5 main_arg6 main_arg7 main_arg8 main_arg9 main_arg10 main_arg11 main_arg12 main_arg13 main_arg14 main_arg15 main_v12 main_v15 main_c_5
-- ==== Kernel.lean ====
abbrev S8192x64 : Shape := ⟨2, ![8192, 64]⟩
abbrev S_ : Shape := ⟨0, ![]⟩
abbrev S65x128 : Shape := ⟨2, ![65, 128]⟩
abbrev S128 : Shape := ⟨1, ![128]⟩
abbrev S16513x128 : Shape := ⟨2, ![16513, 128]⟩
abbrev S16641x128 : Shape := ⟨2, ![16641, 128]⟩
abbrev S769x1 : Shape := ⟨2, ![769, 1]⟩
abbrev S1 : Shape := ⟨1, ![1]⟩
abbrev S64x128 : Shape := ⟨2, ![64, 128]⟩
abbrev S1x128 : Shape := ⟨2, ![1, 128]⟩
abbrev S64x256 : Shape := ⟨2, ![64, 256]⟩
abbrev S256 : Shape := ⟨1, ![256]⟩
abbrev S1x256 : Shape := ⟨2, ![1, 256]⟩
abbrev S16512x128 : Shape := ⟨2, ![16512, 128]⟩
abbrev S128x128 : Shape := ⟨2, ![128, 128]⟩
abbrev S16384x128 : Shape := ⟨2, ![16384, 128]⟩
abbrev S128x256 : Shape := ⟨2, ![128, 256]⟩
abbrev S16384x256 : Shape := ⟨2, ![16384, 256]⟩
abbrev S16640x128 : Shape := ⟨2, ![16640, 128]⟩
abbrev S768x1 : Shape := ⟨2, ![768, 1]⟩
abbrev S1x1 : Shape := ⟨2, ![1, 1]⟩
abbrev S8192x1 : Shape := ⟨2, ![8192, 1]⟩
abbrev S256x64 : Shape := ⟨2, ![256, 64]⟩
abbrev S256x1 : Shape := ⟨2, ![256, 1]⟩
abbrev S256x256 : Shape := ⟨2, ![256, 256]⟩
abbrev S256x128 : Shape := ⟨2, ![256, 128]⟩
abbrev S256x128x1 : Shape := ⟨3, ![256, 128, 1]⟩
abbrev S256x1x128 : Shape := ⟨3, ![256, 1, 128]⟩
abbrev S256x128x128 : Shape := ⟨3, ![256, 128, 128]⟩
abbrev S256x16384 : Shape := ⟨2, ![256, 16384]⟩
abbrev S256x768 : Shape := ⟨2, ![256, 768]⟩

abbrev nBuf : Space → Nat
  | .hbm => 89
  | .vmem => 15
  | .smem => 0
  | _ => 0

abbrev bufTy : (tb : Table) → Fin (tcTables nBuf tb) → BufTy
  | .hbm, ⟨0, _⟩ => ⟨S8192x64, .f32⟩
  | .hbm, ⟨1, _⟩ => ⟨S_, .f32⟩
  | .hbm, ⟨2, _⟩ => ⟨S65x128, .f32⟩
  | .hbm, ⟨3, _⟩ => ⟨S128, .f32⟩
  | .hbm, ⟨4, _⟩ => ⟨S65x128, .f32⟩
  | .hbm, ⟨5, _⟩ => ⟨S128, .f32⟩
  | .hbm, ⟨6, _⟩ => ⟨S16513x128, .f32⟩
  | .hbm, ⟨7, _⟩ => ⟨S128, .f32⟩
  | .hbm, ⟨8, _⟩ => ⟨S16513x128, .f32⟩
  | .hbm, ⟨9, _⟩ => ⟨S128, .f32⟩
  | .hbm, ⟨10, _⟩ => ⟨S16641x128, .f32⟩
  | .hbm, ⟨11, _⟩ => ⟨S128, .f32⟩
  | .hbm, ⟨12, _⟩ => ⟨S16641x128, .f32⟩
  | .hbm, ⟨13, _⟩ => ⟨S128, .f32⟩
  | .hbm, ⟨14, _⟩ => ⟨S769x1, .f32⟩
  | .hbm, ⟨15, _⟩ => ⟨S1, .f32⟩
  | .hbm, ⟨16, _⟩ => ⟨S64x128, .f32⟩
  | .hbm, ⟨17, _⟩ => ⟨S64x128, .f32⟩
  | .hbm, ⟨18, _⟩ => ⟨S1x128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S1x128, .f32⟩
  | .hbm, ⟨24, _⟩ => ⟨S128, .f32⟩
  | .hbm, ⟨25, _⟩ => ⟨S128, .f32⟩
  | .hbm, ⟨26, _⟩ => ⟨S128, .f32⟩
  | .hbm, ⟨27, _⟩ => ⟨S128, .f32⟩
  | .hbm, ⟨28, _⟩ => ⟨S64x256, .f32⟩
  | .hbm, ⟨29, _⟩ => ⟨S64x256, .bf16⟩
  | .hbm, ⟨30, _⟩ => ⟨S256, .f32⟩
  | .hbm, ⟨31, _⟩ => ⟨S1x256, .f32⟩
  | .hbm, ⟨32, _⟩ => ⟨S16512x128, .f32⟩
  | .hbm, ⟨33, _⟩ => ⟨S16512x128, .f32⟩
  | .hbm, ⟨34, _⟩ => ⟨S1x128, .f32⟩
  | .hbm, ⟨35, _⟩ => ⟨S128, .f32⟩
  | .hbm, ⟨36, _⟩ => ⟨S128, .f32⟩
  | .hbm, ⟨37, _⟩ => ⟨S128, .f32⟩
  | .hbm, ⟨38, _⟩ => ⟨S128, .f32⟩
  | .hbm, ⟨39, _⟩ => ⟨S1x128, .f32⟩
  | .hbm, ⟨40, _⟩ => ⟨S128, .f32⟩
  | .hbm, ⟨41, _⟩ => ⟨S128, .f32⟩
  | .hbm, ⟨42, _⟩ => ⟨S128, .f32⟩
  | .hbm, ⟨43, _⟩ => ⟨S128, .f32⟩
  | .hbm, ⟨44, _⟩ => ⟨S128x128, .f32⟩
  | .hbm, ⟨45, _⟩ => ⟨S16384x128, .f32⟩
  | .hbm, ⟨46, _⟩ => ⟨S128x128, .f32⟩
  | .hbm, ⟨47, _⟩ => ⟨S16384x128, .f32⟩
  | .hbm, ⟨48, _⟩ => ⟨S128x256, .f32⟩
  | .hbm, ⟨49, _⟩ => ⟨S128x256, .bf16⟩
  | .hbm, ⟨50, _⟩ => ⟨S16384x256, .f32⟩
  | .hbm, ⟨51, _⟩ => ⟨S16384x256, .bf16⟩
  | .hbm, ⟨52, _⟩ => ⟨S256, .f32⟩
  | .hbm, ⟨53, _⟩ => ⟨S1x256, .f32⟩
  | .hbm, ⟨54, _⟩ => ⟨S16640x128, .f32⟩
  | .hbm, ⟨55, _⟩ => ⟨S16640x128, .f32⟩
  | .hbm, ⟨56, _⟩ => ⟨S1x128, .f32⟩
  | .hbm, ⟨57, _⟩ => ⟨S128, .f32⟩
  | .hbm, ⟨58, _⟩ => ⟨S128, .f32⟩
  | .hbm, ⟨59, _⟩ => ⟨S128, .f32⟩
  | .hbm, ⟨60, _⟩ => ⟨S128, .f32⟩
  | .hbm, ⟨61, _⟩ => ⟨S1x128, .f32⟩
  | .hbm, ⟨62, _⟩ => ⟨S128, .f32⟩
  | .hbm, ⟨63, _⟩ => ⟨S128, .f32⟩
  | .hbm, ⟨64, _⟩ => ⟨S128, .f32⟩
  | .hbm, ⟨65, _⟩ => ⟨S128, .f32⟩
  | .hbm, ⟨66, _⟩ => ⟨S128x128, .f32⟩
  | .hbm, ⟨67, _⟩ => ⟨S128x128, .f32⟩
  | .hbm, ⟨68, _⟩ => ⟨S16384x128, .f32⟩
  | .hbm, ⟨69, _⟩ => ⟨S128x128, .f32⟩
  | .hbm, ⟨70, _⟩ => ⟨S128x128, .f32⟩
  | .hbm, ⟨71, _⟩ => ⟨S16384x128, .f32⟩
  | .hbm, ⟨72, _⟩ => ⟨S128x256, .f32⟩
  | .hbm, ⟨73, _⟩ => ⟨S128x256, .bf16⟩
  | .hbm, ⟨74, _⟩ => ⟨S128x256, .f32⟩
  | .hbm, ⟨75, _⟩ => ⟨S128x256, .bf16⟩
  | .hbm, ⟨76, _⟩ => ⟨S16384x256, .f32⟩
  | .hbm, ⟨77, _⟩ => ⟨S16384x256, .bf16⟩
  | .hbm, ⟨78, _⟩ => ⟨S256, .f32⟩
  | .hbm, ⟨79, _⟩ => ⟨S1x256, .f32⟩
  | .hbm, ⟨80, _⟩ => ⟨S768x1, .f32⟩
  | .hbm, ⟨81, _⟩ => ⟨S768x1, .bf16⟩
  | .hbm, ⟨82, _⟩ => ⟨S1x1, .f32⟩
  | .hbm, ⟨83, _⟩ => ⟨S1, .f32⟩
  | .hbm, ⟨84, _⟩ => ⟨S1, .f32⟩
  | .hbm, ⟨85, _⟩ => ⟨S1, .f32⟩
  | .hbm, ⟨86, _⟩ => ⟨S1, .f32⟩
  | .hbm, ⟨87, _⟩ => ⟨S1x1, .f32⟩
  | .hbm, ⟨88, _⟩ => ⟨S8192x1, .f32⟩
  | .local _ .vmem, ⟨0, _⟩ => ⟨S256x64, .f32⟩
  | .local _ .vmem, ⟨1, _⟩ => ⟨S256x64, .f32⟩
  | .local _ .vmem, ⟨2, _⟩ => ⟨S64x256, .bf16⟩
  | .local _ .vmem, ⟨3, _⟩ => ⟨S1x256, .f32⟩
  | .local _ .vmem, ⟨4, _⟩ => ⟨S128x256, .bf16⟩
  | .local _ .vmem, ⟨5, _⟩ => ⟨S16384x256, .bf16⟩
  | .local _ .vmem, ⟨6, _⟩ => ⟨S1x256, .f32⟩
  | .local _ .vmem, ⟨7, _⟩ => ⟨S128x256, .bf16⟩
  | .local _ .vmem, ⟨8, _⟩ => ⟨S128x256, .bf16⟩
  | .local _ .vmem, ⟨9, _⟩ => ⟨S16384x256, .bf16⟩
  | .local _ .vmem, ⟨10, _⟩ => ⟨S1x256, .f32⟩
  | .local _ .vmem, ⟨11, _⟩ => ⟨S768x1, .bf16⟩
  | .local _ .vmem, ⟨12, _⟩ => ⟨S1x1, .f32⟩
  | .local _ .vmem, ⟨13, _⟩ => ⟨S256x1, .f32⟩
  | .local _ .vmem, ⟨14, _⟩ => ⟨S256x1, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16384x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16384x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S768x1 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  slices_S65x128_S64x128_1_0 : S65x128.Slices ![1, 0] S64x128
  slices_S65x128_S1x128_0_0 : S65x128.Slices ![0, 0] S1x128
  shapeCasts_S1x128_S128 : S1x128.ShapeCasts S128
  bcast_S_S128 : S_.BroadcastsInDim S128 (![] : Fin 0 → Fin S128.rank)
  concatenates_S64x128_S64x128_S64x256_d1 : Shape.Concatenates [S64x128, S64x128] S64x256 1
  bitsLt_bf16_f32 : FTy.bits .bf16 < FTy.bits .f32
  concatenates_S128_S128_S256_d0 : Shape.Concatenates [S128, S128] S256 0
  shapeCasts_S256_S1x256 : S256.ShapeCasts S1x256
  slices_S16513x128_S16512x128_1_0 : S16513x128.Slices ![1, 0] S16512x128
  slices_S16513x128_S1x128_0_0 : S16513x128.Slices ![0, 0] S1x128
  slices_S16512x128_S128x128_0_0 : S16512x128.Slices ![0, 0] S128x128
  slices_S16512x128_S16384x128_128_0 : S16512x128.Slices ![128, 0] S16384x128
  concatenates_S128x128_S128x128_S128x256_d1 : Shape.Concatenates [S128x128, S128x128] S128x256 1
  concatenates_S16384x128_S16384x128_S16384x256_d1 : Shape.Concatenates [S16384x128, S16384x128] S16384x256 1
  slices_S16641x128_S16640x128_1_0 : S16641x128.Slices ![1, 0] S16640x128
  slices_S16641x128_S1x128_0_0 : S16641x128.Slices ![0, 0] S1x128
  slices_S16640x128_S128x128_0_0 : S16640x128.Slices ![0, 0] S128x128
  slices_S16640x128_S128x128_128_0 : S16640x128.Slices ![128, 0] S128x128
  slices_S16640x128_S16384x128_256_0 : S16640x128.Slices ![256, 0] S16384x128
  slices_S769x1_S768x1_1_0 : S769x1.Slices ![1, 0] S768x1
  slices_S769x1_S1x1_0_0 : S769x1.Slices ![0, 0] S1x1
  shapeCasts_S1x1_S1 : S1x1.ShapeCasts S1
  bcast_S_S1 : S_.BroadcastsInDim S1 (![] : Fin 0 → Fin S1.rank)
  shapeCasts_S1_S1x1 : S1.ShapeCasts S1x1
  inb_S256x64_S256x64_0_0 : ∀ a, (![0, 0] : Fin 2 → Nat) a + S256x64.size a ≤ S256x64.size a
  h_S256x64 : 0 < S256x64.numel
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  slices_S256x256_o0_0_S256x128 : S256x256.Slices ![0, 0] S256x128
  slices_S256x256_o0_128_S256x128 : S256x256.Slices ![0, 128] S256x128
  shapeCasts_S256x128_S256x128x1 : S256x128.ShapeCasts S256x128x1
  shapeCasts_S256x128_S256x1x128 : S256x128.ShapeCasts S256x1x128
  broadcasts_S256x128x1_S256x128x128 : S256x128x1.Broadcasts S256x128x128
  broadcasts_S256x1x128_S256x128x128 : S256x1x128.Broadcasts S256x128x128
  shapeCasts_S256x128x128_S256x16384 : S256x128x128.ShapeCasts S256x16384
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S16384x256_S16384x256_0_0 : ∀ a, (![0, 0] : Fin 2 → Nat) a + S16384x256.size a ≤ S16384x256.size a
  h_S16384x256 : 0 < S16384x256.numel
  shapeCasts_S16384x256_S16384x256 : S16384x256.ShapeCasts S16384x256
  concatenates_S256x128_S256x128_S256x128_S256x128_S256x128_S256x128_S256x768_d1 : Shape.Concatenates [S256x128, S256x128, S256x128, S256x128, S256x128, S256x128] S256x768 1
  inb_S768x1_S768x1_0_0 : ∀ a, (![0, 0] : Fin 2 → Nat) a + S768x1.size a ≤ S768x1.size a
  h_S768x1 : 0 < S768x1.numel
  shapeCasts_S768x1_S768x1 : S768x1.ShapeCasts S768x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  dot_S256x64_S64x256_S256x256_1_0_0_1_n_n_wf : DotDims.WF S256x64 S64x256 S256x256 [1] [0] [0] [1] [] []
  dot_S256x128_S128x256_S256x256_1_0_0_1_n_n_wf : DotDims.WF S256x128 S128x256 S256x256 [1] [0] [0] [1] [] []
  dot_S256x16384_S16384x256_S256x256_1_0_0_1_n_n_wf : DotDims.WF S256x16384 S16384x256 S256x256 [1] [0] [0] [1] [] []
  dot_S256x768_S768x1_S256x1_1_0_0_1_n_n_wf : DotDims.WF S256x768 S768x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S8192x64.size a
  hwx0_0 : ∀ i : grid0.Coords, EltTy.bits .f32 = 32 ∨ (Rect.block (s := S8192x64) S256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .bf16 = 32 ∨ (Rect.block (s := S64x256) S64x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16384x256.size a ≤ S16384x256.size a
  hwx0_4 : ∀ i : grid0.Coords, EltTy.bits .bf16 = 32 ∨ (Rect.block (s := S16384x256) S16384x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x256.size a ≤ S128x256.size a
  hwx0_6 : ∀ i : grid0.Coords, EltTy.bits .bf16 = 32 ∨ (Rect.block (s := S128x256) S128x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x256.size a ≤ S128x256.size a
  hwx0_7 : ∀ i : grid0.Coords, EltTy.bits .bf16 = 32 ∨ (Rect.block (s := S128x256) S128x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16384x256.size a ≤ S16384x256.size a
  hwx0_8 : ∀ i : grid0.Coords, EltTy.bits .bf16 = 32 ∨ (Rect.block (s := S16384x256) S16384x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S768x1.size a ≤ S768x1.size a
  hwx0_10 : ∀ i : grid0.Coords, EltTy.bits .bf16 = 32 ∨ (Rect.block (s := S768x1) S768x1.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x1.size a ≤ S8192x1.size a
  hwx0_12 : ∀ i : grid0.Coords, EltTy.bits .f32 = 32 ∨ (Rect.block (s := S8192x1) S256x1.size (cc0_transform_12 i) (hinb0_12 i)).WholeWords (EltTy.packing .f32)

variable [Facts₀]

def dot_S256x64_S64x256_S256x256_1_0_0_1_n_n : DotDims S256x64 S64x256 S256x256 where
  lhsContracting := [1]
  rhsContracting := [0]
  lhsNonContracting := [0]
  rhsNonContracting := [1]
  lhsBatch := []
  rhsBatch := []
  wf := dot_S256x64_S64x256_S256x256_1_0_0_1_n_n_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf
def dot_S256x16384_S16384x256_S256x256_1_0_0_1_n_n : DotDims S256x16384 S16384x256 S256x256 where
  lhsContracting := [1]
  rhsContracting := [0]
  lhsNonContracting := [0]
  rhsNonContracting := [1]
  lhsBatch := []
  rhsBatch := []
  wf := dot_S256x16384_S16384x256_S256x256_1_0_0_1_n_n_wf
def dot_S256x768_S768x1_S256x1_1_0_0_1_n_n : DotDims S256x768 S768x1 S256x1 where
  lhsContracting := [1]
  rhsContracting := [0]
  lhsNonContracting := [0]
  rhsNonContracting := [1]
  lhsBatch := []
  rhsBatch := []
  wf := dot_S256x768_S768x1_S256x1_1_0_0_1_n_n_wf

abbrev win0_0 : Pipeline.Window sig grid0 :=
  Pipeline.Window.ofSpec (Memref.whole main_arg0) S256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S16384x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v57) S128x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v59) S128x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v61) S16384x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v63) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v65) S768x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v71) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v72) S256x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S8192x64 : Shape := ⟨2, ![8192, 64]⟩
abbrev S_ : Shape := ⟨0, ![]⟩
abbrev S65x128 : Shape := ⟨2, ![65, 128]⟩
abbrev S128 : Shape := ⟨1, ![128]⟩
abbrev S16513x128 : Shape := ⟨2, ![16513, 128]⟩
abbrev S16641x128 : Shape := ⟨2, ![16641, 128]⟩
abbrev S769x1 : Shape := ⟨2, ![769, 1]⟩
abbrev S1 : Shape := ⟨1, ![1]⟩
abbrev S8192x1 : Shape := ⟨2, ![8192, 1]⟩
abbrev S8192x65 : Shape := ⟨2, ![8192, 65]⟩
abbrev S8192x128 : Shape := ⟨2, ![8192, 128]⟩
abbrev S1x128 : Shape := ⟨2, ![1, 128]⟩
abbrev S8192x129 : Shape := ⟨2, ![8192, 129]⟩
abbrev S8192x128x1 : Shape := ⟨3, ![8192, 128, 1]⟩
abbrev S8192x1x128 : Shape := ⟨3, ![8192, 1, 128]⟩
abbrev S8192x128x128 : Shape := ⟨3, ![8192, 128, 128]⟩
abbrev S8192x16384 : Shape := ⟨2, ![8192, 16384]⟩
abbrev S8192x16513 : Shape := ⟨2, ![8192, 16513]⟩
abbrev S8192x257 : Shape := ⟨2, ![8192, 257]⟩
abbrev S8192x256 : Shape := ⟨2, ![8192, 256]⟩
abbrev S8192x16641 : Shape := ⟨2, ![8192, 16641]⟩
abbrev S8192x385 : Shape := ⟨2, ![8192, 385]⟩
abbrev S8192x384 : Shape := ⟨2, ![8192, 384]⟩
abbrev S8192x769 : Shape := ⟨2, ![8192, 769]⟩
abbrev S1x1 : Shape := ⟨2, ![1, 1]⟩

abbrev nBuf : Space → Nat
  | .hbm => 69
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S_, .f32⟩
  | .hbm, ⟨2, _⟩ => ⟨S65x128, .f32⟩
  | .hbm, ⟨3, _⟩ => ⟨S128, .f32⟩
  | .hbm, ⟨4, _⟩ => ⟨S65x128, .f32⟩
  | .hbm, ⟨5, _⟩ => ⟨S128, .f32⟩
  | .hbm, ⟨6, _⟩ => ⟨S16513x128, .f32⟩
  | .hbm, ⟨7, _⟩ => ⟨S128, .f32⟩
  | .hbm, ⟨8, _⟩ => ⟨S16513x128, .f32⟩
  | .hbm, ⟨9, _⟩ => ⟨S128, .f32⟩
  | .hbm, ⟨10, _⟩ => ⟨S16641x128, .f32⟩
  | .hbm, ⟨11, _⟩ => ⟨S128, .f32⟩
  | .hbm, ⟨12, _⟩ => ⟨S16641x128, .f32⟩
  | .hbm, ⟨13, _⟩ => ⟨S128, .f32⟩
  | .hbm, ⟨14, _⟩ => ⟨S769x1, .f32⟩
  | .hbm, ⟨15, _⟩ => ⟨S1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x65, .f32⟩
  | .hbm, ⟨21, _⟩ => ⟨S8192x128, .f32⟩
  | .hbm, ⟨22, _⟩ => ⟨S1x128, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S1x128, .f32⟩
  | .hbm, ⟨27, _⟩ => ⟨S8192x128, .f32⟩
  | .hbm, ⟨28, _⟩ => ⟨S8192x128, .f32⟩
  | .hbm, ⟨29, _⟩ => ⟨S8192x129, .f32⟩
  | .hbm, ⟨30, _⟩ => ⟨S8192x128x1, .f32⟩
  | .hbm, ⟨31, _⟩ => ⟨S8192x1x128, .f32⟩
  | .hbm, ⟨32, _⟩ => ⟨S8192x128x128, .f32⟩
  | .hbm, ⟨33, _⟩ => ⟨S8192x128x128, .f32⟩
  | .hbm, ⟨34, _⟩ => ⟨S8192x128x128, .f32⟩
  | .hbm, ⟨35, _⟩ => ⟨S8192x16384, .f32⟩
  | .hbm, ⟨36, _⟩ => ⟨S8192x16513, .f32⟩
  | .hbm, ⟨37, _⟩ => ⟨S8192x128, .f32⟩
  | .hbm, ⟨38, _⟩ => ⟨S1x128, .f32⟩
  | .hbm, ⟨39, _⟩ => ⟨S8192x128, .f32⟩
  | .hbm, ⟨40, _⟩ => ⟨S8192x128, .f32⟩
  | .hbm, ⟨41, _⟩ => ⟨S8192x128, .f32⟩
  | .hbm, ⟨42, _⟩ => ⟨S1x128, .f32⟩
  | .hbm, ⟨43, _⟩ => ⟨S8192x128, .f32⟩
  | .hbm, ⟨44, _⟩ => ⟨S8192x128, .f32⟩
  | .hbm, ⟨45, _⟩ => ⟨S8192x257, .f32⟩
  | .hbm, ⟨46, _⟩ => ⟨S8192x256, .f32⟩
  | .hbm, ⟨47, _⟩ => ⟨S8192x128x1, .f32⟩
  | .hbm, ⟨48, _⟩ => ⟨S8192x1x128, .f32⟩
  | .hbm, ⟨49, _⟩ => ⟨S8192x128x128, .f32⟩
  | .hbm, ⟨50, _⟩ => ⟨S8192x128x128, .f32⟩
  | .hbm, ⟨51, _⟩ => ⟨S8192x128x128, .f32⟩
  | .hbm, ⟨52, _⟩ => ⟨S8192x16384, .f32⟩
  | .hbm, ⟨53, _⟩ => ⟨S8192x16641, .f32⟩
  | .hbm, ⟨54, _⟩ => ⟨S8192x128, .f32⟩
  | .hbm, ⟨55, _⟩ => ⟨S1x128, .f32⟩
  | .hbm, ⟨56, _⟩ => ⟨S8192x128, .f32⟩
  | .hbm, ⟨57, _⟩ => ⟨S8192x128, .f32⟩
  | .hbm, ⟨58, _⟩ => ⟨S8192x128, .f32⟩
  | .hbm, ⟨59, _⟩ => ⟨S1x128, .f32⟩
  | .hbm, ⟨60, _⟩ => ⟨S8192x128, .f32⟩
  | .hbm, ⟨61, _⟩ => ⟨S8192x128, .f32⟩
  | .hbm, ⟨62, _⟩ => ⟨S8192x385, .f32⟩
  | .hbm, ⟨63, _⟩ => ⟨S8192x384, .f32⟩
  | .hbm, ⟨64, _⟩ => ⟨S8192x769, .f32⟩
  | .hbm, ⟨65, _⟩ => ⟨S8192x1, .f32⟩
  | .hbm, ⟨66, _⟩ => ⟨S1x1, .f32⟩
  | .hbm, ⟨67, _⟩ => ⟨S8192x1, .f32⟩
  | .hbm, ⟨68, _⟩ => ⟨S8192x1, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]

class Facts₀ : Prop where
  bcast_S_S8192x1 : S_.BroadcastsInDim S8192x1 (![] : Fin 0 → Fin S8192x1.rank)
  concatenates_S8192x1_S8192x64_S8192x65_d1 : Shape.Concatenates [S8192x1, S8192x64] S8192x65 1
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  concatenates_S8192x1_S8192x128_S8192x129_d1 : Shape.Concatenates [S8192x1, S8192x128] S8192x129 1
  bcast_S8192x128_S8192x128x1_0_1 : S8192x128.BroadcastsInDim S8192x128x1 (![0, 1] : Fin 2 → Fin S8192x128x1.rank)
  bcast_S8192x128_S8192x1x128_0_2 : S8192x128.BroadcastsInDim S8192x1x128 (![0, 2] : Fin 2 → Fin S8192x1x128.rank)
  bcast_S8192x128x1_S8192x128x128_0_1_2 : S8192x128x1.BroadcastsInDim S8192x128x128 (![0, 1, 2] : Fin 3 → Fin S8192x128x128.rank)
  bcast_S8192x1x128_S8192x128x128_0_1_2 : S8192x1x128.BroadcastsInDim S8192x128x128 (![0, 1, 2] : Fin 3 → Fin S8192x128x128.rank)
  shapeCasts_S8192x128x128_S8192x16384 : S8192x128x128.ShapeCasts S8192x16384
  concatenates_S8192x129_S8192x16384_S8192x16513_d1 : Shape.Concatenates [S8192x129, S8192x16384] S8192x16513 1
  concatenates_S8192x129_S8192x128_S8192x257_d1 : Shape.Concatenates [S8192x129, S8192x128] S8192x257 1
  concatenates_S8192x128_S8192x128_S8192x256_d1 : Shape.Concatenates [S8192x128, S8192x128] S8192x256 1
  concatenates_S8192x257_S8192x16384_S8192x16641_d1 : Shape.Concatenates [S8192x257, S8192x16384] S8192x16641 1
  concatenates_S8192x257_S8192x128_S8192x385_d1 : Shape.Concatenates [S8192x257, S8192x128] S8192x385 1
  concatenates_S8192x256_S8192x128_S8192x384_d1 : Shape.Concatenates [S8192x256, S8192x128] S8192x384 1
  concatenates_S8192x385_S8192x384_S8192x769_d1 : Shape.Concatenates [S8192x385, S8192x384] S8192x769 1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  dot_S8192x65_S65x128_S8192x128_1_0_0_1_n_n_wf : DotDims.WF S8192x65 S65x128 S8192x128 [1] [0] [0] [1] [] []
  dot_S8192x16513_S16513x128_S8192x128_1_0_0_1_n_n_wf : DotDims.WF S8192x16513 S16513x128 S8192x128 [1] [0] [0] [1] [] []
  dot_S8192x16641_S16641x128_S8192x128_1_0_0_1_n_n_wf : DotDims.WF S8192x16641 S16641x128 S8192x128 [1] [0] [0] [1] [] []
  dot_S8192x769_S769x1_S8192x1_1_0_0_1_n_n_wf : DotDims.WF S8192x769 S769x1 S8192x1 [1] [0] [0] [1] [] []

variable [Facts₀]

def dot_S8192x65_S65x128_S8192x128_1_0_0_1_n_n : DotDims S8192x65 S65x128 S8192x128 where
  lhsContracting := [1]
  rhsContracting := [0]
  lhsNonContracting := [0]
  rhsNonContracting := [1]
  lhsBatch := []
  rhsBatch := []
  wf := dot_S8192x65_S65x128_S8192x128_1_0_0_1_n_n_wf
def dot_S8192x16513_S16513x128_S8192x128_1_0_0_1_n_n : DotDims S8192x16513 S16513x128 S8192x128 where
  lhsContracting := [1]
  rhsContracting := [0]
  lhsNonContracting := [0]
  rhsNonContracting := [1]
  lhsBatch := []
  rhsBatch := []
  wf := dot_S8192x16513_S16513x128_S8192x128_1_0_0_1_n_n_wf
def dot_S8192x16641_S16641x128_S8192x128_1_0_0_1_n_n : DotDims S8192x16641 S16641x128 S8192x128 where
  lhsContracting := [1]
  rhsContracting := [0]
  lhsNonContracting := [0]
  rhsNonContracting := [1]
  lhsBatch := []
  rhsBatch := []
  wf := dot_S8192x16641_S16641x128_S8192x128_1_0_0_1_n_n_wf
def dot_S8192x769_S769x1_S8192x1_1_0_0_1_n_n : DotDims S8192x769 S769x1 S8192x1 where
  lhsContracting := [1]
  rhsContracting := [0]
  lhsNonContracting := [0]
  rhsNonContracting := [1]
  lhsBatch := []
  rhsBatch := []
  wf := dot_S8192x769_S769x1_S8192x1_1_0_0_1_n_n_wf

class Facts : Prop extends Facts₀ where

variable [Facts]
-- ==== Proof.KerWin0.lean ====
/-
  The host's operations before the call, cut in two: what an argument array holds after any first stretch of them is
  what it held at launch (none of them writes an argument), so the operations of a later stretch can be read from an
  arbitrary state of the buffers that agrees with the launch on the arguments.
-/
import proofs.«150659_j90297392431134_2_alg».proof.Proof.Gen.KernelIdeal.Frame
import Idealize.ShloMosaic.Lib.StableHlo.Run
import Idealize.ShloMosaic.PureOps.Ideal

noncomputable section

namespace Cert.KernelIdeal.WinValue

open Cert.KernelIdeal Cert.KernelIdeal.Gen Idealize.ShloMosaic Idealize.ShloMosaic.TcCoe Idealize.SL.Sem Idealize.ShloMosaic.StableHlo

/-- Running two stretches of operations one after the other is running their concatenation. -/
theorem after_app {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

set_option maxRecDepth 8192 in
/-- No operation before the call writes argument 1. -/
theorem nw1 : (hostOps0 : List (HloOp τ sig (Elt Ideal))).Forall fun op => Proc.devRef (τ := τ) .tc main_arg1 ∉ op.writes := by
  simp only [hostOps0, List.Forall, StableHlo.unary_writes, StableHlo.binary_writes, StableHlo.reshape_writes, Finset.mem_singleton]
  repeat' apply And.intro
  all_goals exact StableHlo.devRef_ne_of_ne (by decide)

set_option maxRecDepth 8192 in
/-- No operation before the call writes argument 6. -/
theorem nw6 : (hostOps0 : List (HloOp τ sig (Elt Ideal))).Forall fun op => Proc.devRef (τ := τ) .tc main_arg6 ∉ op.writes := by
  simp only [hostOps0, List.Forall, StableHlo.unary_writes, StableHlo.binary_writes, StableHlo.reshape_writes, Finset.mem_singleton]
  repeat' apply And.intro
  all_goals exact StableHlo.devRef_ne_of_ne (by decide)

set_option maxRecDepth 8192 in
/-- No operation before the call writes argument 7. -/
theorem nw7 : (hostOps0 : List (HloOp τ sig (Elt Ideal))).Forall fun op => Proc.devRef (τ := τ) .tc main_arg7 ∉ op.writes := by
  simp only [hostOps0, List.Forall, StableHlo.unary_writes, StableHlo.binary_writes, StableHlo.reshape_writes, Finset.mem_singleton]
  repeat' apply And.intro
  all_goals exact StableHlo.devRef_ne_of_ne (by decide)

set_option maxRecDepth 8192 in
/-- No operation before the call writes argument 8. -/
theorem nw8 : (hostOps0 : List (HloOp τ sig (Elt Ideal))).Forall fun op => Proc.devRef (τ := τ) .tc main_arg8 ∉ op.writes := by
  simp only [hostOps0, List.Forall, StableHlo.unary_writes, StableHlo.binary_writes, StableHlo.reshape_writes, Finset.mem_singleton]
  repeat' apply And.intro
  all_goals exact StableHlo.devRef_ne_of_ne (by decide)

set_option maxRecDepth 8192 in
/-- No operation before the call writes argument 9. -/
theorem nw9 : (hostOps0 : List (HloOp τ sig (Elt Ideal))).Forall fun op => Proc.devRef (τ := τ) .tc main_arg9 ∉ op.writes := by
  simp only [hostOps0, List.Forall, StableHlo.unary_writes, StableHlo.binary_writes, StableHlo.reshape_writes, Finset.mem_singleton]
  repeat' apply And.intro
  all_goals exact StableHlo.devRef_ne_of_ne (by decide)

set_option maxRecDepth 8192 in
/-- No operation before the call writes argument 10. -/
theorem nw10 : (hostOps0 : List (HloOp τ sig (Elt Ideal))).Forall fun op => Proc.devRef (τ := τ) .tc main_arg10 ∉ op.writes := by
  simp only [hostOps0, List.Forall, StableHlo.unary_writes, StableHlo.binary_writes, StableHlo.reshape_writes, Finset.mem_singleton]
  repeat' apply And.intro
  all_goals exact StableHlo.devRef_ne_of_ne (by decide)

set_option maxRecDepth 8192 in
/-- No operation before the call writes argument 11. -/
theorem nw11 : (hostOps0 : List (HloOp τ sig (Elt Ideal))).Forall fun op => Proc.devRef (τ := τ) .tc main_arg11 ∉ op.writes := by
  simp only [hostOps0, List.Forall, StableHlo.unary_writes, StableHlo.binary_writes, StableHlo.reshape_writes, Finset.mem_singleton]
  repeat' apply And.intro
  all_goals exact StableHlo.devRef_ne_of_ne (by decide)

set_option maxRecDepth 8192 in
/-- No operation before the call writes argument 12. -/
theorem nw12 : (hostOps0 : List (HloOp τ sig (Elt Ideal))).Forall fun op => Proc.devRef (τ := τ) .tc main_arg12 ∉ op.writes := by
  simp only [hostOps0, List.Forall, StableHlo.unary_writes, StableHlo.binary_writes, StableHlo.reshape_writes, Finset.mem_singleton]
  repeat' apply And.intro
  all_goals exact StableHlo.devRef_ne_of_ne (by decide)

set_option maxRecDepth 8192 in
/-- No operation before the call writes argument 13. -/
theorem nw13 : (hostOps0 : List (HloOp τ sig (Elt Ideal))).Forall fun op => Proc.devRef (τ := τ) .tc main_arg13 ∉ op.writes := by
  simp only [hostOps0, List.Forall, StableHlo.unary_writes, StableHlo.binary_writes, StableHlo.reshape_writes, Finset.mem_singleton]
  repeat' apply And.intro
  all_goals exact StableHlo.devRef_ne_of_ne (by decide)

set_option maxRecDepth 8192 in
/-- No operation before the call writes argument 14. -/
theorem nw14 : (hostOps0 : List (HloOp τ sig (Elt Ideal))).Forall fun op => Proc.devRef (τ := τ) .tc main_arg14 ∉ op.writes := by
  simp only [hostOps0, List.Forall, StableHlo.unary_writes, StableHlo.binary_writes, StableHlo.reshape_writes, Finset.mem_singleton]
  repeat' apply And.intro
  all_goals exact StableHlo.devRef_ne_of_ne (by decide)

set_option maxRecDepth 8192 in
/-- No operation before the call writes argument 15. -/
theorem nw15 : (hostOps0 : List (HloOp τ sig (Elt Ideal))).Forall fun op => Proc.devRef (τ := τ) .tc main_arg15 ∉ op.writes := by
  simp only [hostOps0, List.Forall, StableHlo.unary_writes, StableHlo.binary_writes, StableHlo.reshape_writes, Finset.mem_singleton]
  repeat' apply And.intro
  all_goals exact StableHlo.devRef_ne_of_ne (by decide)

variable (m : (ℓ : Loc nD τ sig) → Buf (Elt Ideal) ℓ) (c : Dev nD)

/-- After the first `a` operations an array none of them writes is as launched. -/
theorem pre_arg (a : ℕ) (r : Ref sig .tc)
    (h : (hostOps0 : List (HloOp τ sig (Elt Ideal))).Forall fun op => Proc.devRef (τ := τ) .tc r ∉ op.writes) :
    after (hostOps0.take a) (fun b => m (c, b)) (Proc.devRef .tc r) = m (c, Proc.devRef .tc r) :=
  after_of_forall_not_mem _ _ (fun op hop => List.forall_iff_forall_mem.mp h op (List.mem_of_mem_take hop))

end Cert.KernelIdeal.WinValue

end
-- ==== Proof.Spec.lean ====
/-
  The polynomial network's forward pass for ONE batch row, over the extended reals, as both programs compute it.

  A row x of 64 inputs and the scalar bias input b0 give the degree-one features
      f1 n = Σ_d x d · Wf1[1+d, n] + (bf1 n + b0 · Wf1[0, n])          (and g1 with Wg1, bg1),
  the second layer reads the row [b0, f1, f1 ⊗ f1] (the outer product flattened row-major, entry i·128+j = f1 i · f1 j)
      f2 n = Σ_j f1 j · Wf2[1+j, n] + Σ_k (f1 ⊗ f1) k · Wf2[129+k, n] + (bf2 n + b0 · Wf2[0, n]),
  the third the row [b0, f1, f2, f1 ⊗ f2]
      f3 n = Σ_j f1 j · Wf3[1+j, n] + Σ_j f2 j · Wf3[129+j, n] + Σ_k (f1 ⊗ f2) k · Wf3[257+k, n] + (bf3 n + b0 · Wf3[0, n]),
  and the result is the projection of [b0, f1, f2, f3, g1, g2, g3] by the one column of Wfc plus bfc.
  Each weight matrix's row 0 multiplies the bias column; it is kept apart as the "folded bias".
  The only laws used downstream are those of a commutative additive monoid and 1 · a = a: nothing here needs finiteness.
-/
import Idealize.ShloMosaic.Lib.ValueIdx
import Idealize.ShloMosaic.PureOps.Ideal

noncomputable section

namespace Cert.PolySpec

open Idealize.ShloMosaic Idealize.ShloMosaic.ValueIdx

/-- A matrix of extended reals over a literal shape. -/
abbrev Mat (m n : ℕ) := (⟨2, ![m, n]⟩ : Shape).Idx → EReal
/-- A vector of extended reals over a literal shape. -/
abbrev Vct (n : ℕ) := (⟨1, ![n]⟩ : Shape).Idx → EReal

/-- A sum over `Fin (a + b)` is the sum over the first `a` positions plus the sum over the last `b`. -/
theorem sum_fin_split {M : Type*} [AddCommMonoid M] (a b n : ℕ) (h : n = a + b) (F : Fin n → M) :
    ∑ k : Fin n, F k = (∑ k : Fin a, F ⟨k.val, by omega⟩) + ∑ k : Fin b, F ⟨a + k.val, by omega⟩ := by
  subst h
  rw [Fin.sum_univ_add]
  rfl

/-- The folded bias of output column `n`: the layer's bias plus the bias input times row 0 of the weights. -/
def bias {K N : ℕ} (hK : 0 < K) (b0 : EReal) (W : Mat K N) (b : Vct N) (n : Fin N) : EReal :=
  b (ix1 n) + b0 * W (ix2 ⟨0, hK⟩ n)

/-- One stretch of a layer's product: the `J` features `u` against rows `o, …, o+J-1` of the weights, column `n`. -/
def seg {K N J : ℕ} (o : ℕ) (hJ : o + J ≤ K) (W : Mat K N) (u : Fin J → EReal) (n : Fin N) : EReal :=
  ∑ j : Fin J, u j * W (ix2 ⟨o + j.val, by have := j.isLt; omega⟩ n)

/-- The stretch depends on the features pointwise. -/
theorem seg_congr {K N J : ℕ} (o : ℕ) (hJ : o + J ≤ K) (W : Mat K N) {u v : Fin J → EReal} (h : ∀ j, u j = v j)
    (n : Fin N) : seg o hJ W u n = seg o hJ W v n := by
  rw [show u = v from funext h]

/-- A stretch over `a + b` features is the stretch of the first `a` plus, `a` rows further down, that of the last `b`. -/
theorem seg_split {K N : ℕ} (a b J : ℕ) (hab : J = a + b) (o : ℕ) (hJ : o + J ≤ K) (W : Mat K N) (u : Fin J → EReal)
    (n : Fin N) :
    seg o hJ W u n = seg o (by omega) W (fun j : Fin a => u ⟨j.val, by have := j.isLt; omega⟩) n
      + seg (o + a) (by omega) W (fun j : Fin b => u ⟨a + j.val, by have := j.isLt; omega⟩) n := by
  unfold seg
  rw [sum_fin_split a b J hab]
  refine congrArg₂ (· + ·) rfl (Finset.sum_congr rfl fun j _ => ?_)
  refine congrArg (u _ * ·) (congrArg W (congrArg (ix2 · n) (Fin.ext ?_)))
  show o + (a + j.val) = o + a + j.val
  omega

/-- A stretch of ONE feature is that feature times its weight row. -/
theorem seg_one {K N : ℕ} (o : ℕ) (hJ : o + 1 ≤ K) (W : Mat K N) (u : Fin 1 → EReal) (n : Fin N) :
    seg o hJ W u n = u 0 * W (ix2 ⟨o, by omega⟩ n) := by
  unfold seg
  rw [Fin.sum_univ_one]
  rfl

/-- The outer product of two feature rows, flattened row-major: entry `i·128 + j` is `u i · v j`. -/
def outer (u v : Fin 128 → EReal) (k : Fin 16384) : EReal :=
  u ⟨k.val / 128, by have := k.isLt; omega⟩ * v ⟨k.val % 128, Nat.mod_lt _ (by decide)⟩

/-- First layer, one branch: the row `x` against rows 1… of the weights, plus the folded bias. -/
def lay1 (b0 : EReal) (W : Mat 65 128) (b : Vct 128) (x : Fin 64 → EReal) (n : Fin 128) : EReal :=
  seg 1 (by decide) W x n + bias (by decide) b0 W b n

/-- Second layer, one branch: the features `u` and their outer product with themselves. -/
def lay2 (b0 : EReal) (W : Mat 16513 128) (b : Vct 128) (u : Fin 128 → EReal) (n : Fin 128) : EReal :=
  (seg 1 (by decide) W u n + seg 129 (by decide) W (outer u u) n) + bias (by decide) b0 W b n

/-- Third layer, one branch: the features `u`, `v` and the outer product of `u` with `v`. -/
def lay3 (b0 : EReal) (W : Mat 16641 128) (b : Vct 128) (u v : Fin 128 → EReal) (n : Fin 128) : EReal :=
  ((seg 1 (by decide) W u n + seg 129 (by decide) W v n) + seg 257 (by decide) W (outer u v) n)
    + bias (by decide) b0 W b n

/-- The projection of the six feature rows by the one column of the last weights, plus the folded bias. -/
def proj (b0 : EReal) (W : Mat 769 1) (b : Vct 1) (f1 f2 f3 g1 g2 g3 : Fin 128 → EReal) : EReal :=
  (((seg 1 (by decide) W f1 0 + seg 129 (by decide) W f2 0) + seg 257 (by decide) W f3 0)
    + ((seg 385 (by decide) W g1 0 + seg 513 (by decide) W g2 0) + seg 641 (by decide) W g3 0))
    + bias (by decide) b0 W b 0

/-- The whole forward pass for the batch row `x`. -/
def out (b0 : EReal) (Wf1 : Mat 65 128) (bf1 : Vct 128) (Wg1 : Mat 65 128) (bg1 : Vct 128)
    (Wf2 : Mat 16513 128) (bf2 : Vct 128) (Wg2 : Mat 16513 128) (bg2 : Vct 128)
    (Wf3 : Mat 16641 128) (bf3 : Vct 128) (Wg3 : Mat 16641 128) (bg3 : Vct 128)
    (Wfc : Mat 769 1) (bfc : Vct 1) (x : Fin 64 → EReal) : EReal :=
  proj b0 Wfc bfc
    (lay1 b0 Wf1 bf1 x)
    (lay2 b0 Wf2 bf2 (lay1 b0 Wf1 bf1 x))
    (lay3 b0 Wf3 bf3 (lay1 b0 Wf1 bf1 x) (lay2 b0 Wf2 bf2 (lay1 b0 Wf1 bf1 x)))
    (lay1 b0 Wg1 bg1 x)
    (lay2 b0 Wg2 bg2 (lay1 b0 Wf1 bf1 x))
    (lay3 b0 Wg3 bg3 (lay1 b0 Wf1 bf1 x) (lay2 b0 Wf2 bf2 (lay1 b0 Wf1 bf1 x)))

end Cert.PolySpec

end
-- ==== Proof.LibLayout3.lean ====
/-
  Keep-dimension layout operations of rank-3 arrays read at an index.

  A reduction that keeps its axis is spelled as a cast to a shape with a unit axis followed by a broadcast along that
  axis. Read at coordinates these are the identity on the remaining coordinates:
    * an [a, b] array cast to [a, 1, b] reads, at (p, u, w), the operand at (p, w); cast to [a, b, 1] it reads, at
      (p, n, u), the operand at (p, n);
    * an [a, 1, c] array broadcast to [a, b, c] reads, at (p, j, w), the operand at (p, 0, w); a [1, b, c] array reads
      the operand at (0, j, w); an [a, b, 1] array reads the operand at (p, j, 0).
-/
import Idealize.ShloMosaic.Lib.Pipeline.Value
import Idealize.ShloMosaic.Lib.ValueIdx

noncomputable section

namespace Cert.LibLayout3

open Idealize.ShloMosaic Idealize.ShloMosaic.ValueIdx

variable {α : Type}

/-- An `[a, b]` array cast to `[a, 1, b]` reads, at `(p, u, w)`, the operand at `(p, w)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (w : Fin b) :
    shapeCast ⟨3, ![a, 1, b]⟩ x h (ix3 p u w) = x (ix2 p w) :=
  shapeCast_apply x h _ _ (by
    have hu : u.val = 0 := by omega
    rw [Shape.rowMajor_val_three, Shape.rowMajor_val_two]
    show p.val * b + w.val = (p.val * 1 + u.val) * b + w.val
    rw [hu, Nat.mul_one, Nat.add_zero])

/-- An `[a, b]` array cast to `[a, b, 1]` reads, at `(p, n, u)`, the operand at `(p, n)`. -/
theorem shapeCast_ab_ab1_apply {a b : ℕ} (x : (⟨2, ![a, b]⟩ : Shape).Idx → α)
    (h : (⟨2, ![a, b]⟩ : Shape).ShapeCasts ⟨3, ![a, b, 1]⟩) (p : Fin a) (n : Fin b) (u : Fin 1) :
    shapeCast ⟨3, ![a, b, 1]⟩ x h (ix3 p n u) = x (ix2 p n) :=
  shapeCast_apply x h _ _ (by
    have hu : u.val = 0 := by omega
    rw [Shape.rowMajor_val_three, Shape.rowMajor_val_two]
    show p.val * b + n.val = (p.val * b + n.val) * 1 + u.val
    rw [hu, Nat.mul_one, Nat.add_zero])

/-- An `[a, 1, c]` array broadcast to `[a, b, c]` reads, at `(p, j, w)`, the operand at `(p, 0, w)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (j : Fin b) (w : Fin c) :
    broadcastTo ⟨3, ![a, b, c]⟩ v h (ix3 p j w) = v (ix3 p (0 : Fin 1) w) := by
  refine broadcastTo_apply v h (ix3 p j w) (ix3 p (0 : Fin 1) w) fun ax => ?_
  match ax with
  | ⟨0, _⟩ =>
    show p.val = if a = 1 then 0 else p.val
    split
    · have := p.isLt; omega
    · rfl
  | ⟨1, _⟩ => rfl
  | ⟨2, _⟩ =>
    show w.val = if c = 1 then 0 else w.val
    split
    · have := w.isLt; omega
    · rfl

/-- A `[1, b, c]` array broadcast to `[a, b, c]` reads, at `(p, j, w)`, the operand at `(0, j, w)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (j : Fin b) (w : Fin c) :
    broadcastTo ⟨3, ![a, b, c]⟩ v h (ix3 p j w) = v (ix3 (0 : Fin 1) j w) := by
  refine broadcastTo_apply v h (ix3 p j w) (ix3 (0 : Fin 1) j w) fun ax => ?_
  match ax with
  | ⟨0, _⟩ => rfl
  | ⟨1, _⟩ =>
    show j.val = if b = 1 then 0 else j.val
    split
    · have := j.isLt; omega
    · rfl
  | ⟨2, _⟩ =>
    show w.val = if c = 1 then 0 else w.val
    split
    · have := w.isLt; omega
    · rfl

/-- An `[a, b, 1]` array broadcast to `[a, b, c]` reads, at `(p, j, w)`, the operand at `(p, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (j : Fin b) (w : Fin c) :
    broadcastTo ⟨3, ![a, b, c]⟩ v h (ix3 p j w) = v (ix3 p j (0 : Fin 1)) := by
  refine broadcastTo_apply v h (ix3 p j w) (ix3 p j (0 : Fin 1)) fun ax => ?_
  match ax with
  | ⟨0, _⟩ =>
    show p.val = if a = 1 then 0 else p.val
    split
    · have := p.isLt; omega
    · rfl
  | ⟨1, _⟩ =>
    show j.val = if b = 1 then 0 else j.val
    split
    · have := j.isLt; omega
    · rfl
  | ⟨2, _⟩ => rfl

end Cert.LibLayout3

end
-- ==== Proof.KerOps.lean ====
/-
  The kernel's operations read at an entry, over the extended reals.

  The kernel keeps the two branches of a layer side by side: its weight blocks are the f-branch's columns followed by the
  g-branch's (256 columns), its bias rows likewise, so that one product computes both branches and columns 0…127 /
  128…255 of the result are the f / g features. Here: such fused blocks as functions of the original weights
  (`fuseW`, `fuseB`), a product against a fused block read at a left or right column as a stretch of the layer's
  product, the batched outer product flattened row-major, and a product whose left factor is six feature blocks
  side by side as six stretches.
-/
import proofs.«150659_j90297392431134_2_alg».proof.Proof.Spec
import proofs.«150659_j90297392431134_2_alg».proof.Proof.LibLayout3
import Idealize.ShloMosaic.Lib.ValueLayout
import Idealize.ShloMosaic.Lib.Pipeline.Value
import Idealize.ShloMosaic.Lib.ValueIdx

noncomputable section

namespace Cert.PolyOps

open Idealize.ShloMosaic Idealize.ShloMosaic.ValueIdx Cert.PolySpec

/-- Rows `o, …, o+J-1` of the f-branch's weights beside the same rows of the g-branch's: `J` rows of 256 columns. -/
def fuseW {K J : ℕ} (o : ℕ) (hJ : o + J ≤ K) (Wf Wg : Mat K 128) : Mat J 256 := fun i =>
  if h : (i 1).val < 128 then Wf (ix2 ⟨o + (i 0).val, by have := idx2_lt0 i; omega⟩ ⟨(i 1).val, h⟩)
  else Wg (ix2 ⟨o + (i 0).val, by have := idx2_lt0 i; omega⟩ ⟨(i 1).val - 128, by have := idx2_lt1 i; omega⟩)

theorem fuseW_left {K J : ℕ} (o : ℕ) (hJ : o + J ≤ K) (Wf Wg : Mat K 128) (j : Fin J) (n : Fin 128) :
    fuseW o hJ Wf Wg (ix2 j ⟨n.val, by have := n.isLt; omega⟩) = Wf (ix2 ⟨o + j.val, by have := j.isLt; omega⟩ n) := by
  unfold fuseW
  rw [dif_pos (show ((ix2 j (⟨n.val, by have := n.isLt; omega⟩ : Fin 256)) 1).val < 128 from n.isLt)]
  rfl

theorem fuseW_right {K J : ℕ} (o : ℕ) (hJ : o + J ≤ K) (Wf Wg : Mat K 128) (j : Fin J) (n : Fin 128) :
    fuseW o hJ Wf Wg (ix2 j ⟨128 + n.val, by have := n.isLt; omega⟩) = Wg (ix2 ⟨o + j.val, by have := j.isLt; omega⟩ n) := by
  unfold fuseW
  rw [dif_neg (show ¬ ((ix2 j (⟨128 + n.val, by have := n.isLt; omega⟩ : Fin 256)) 1).val < 128 from by
    show ¬ 128 + n.val < 128; omega)]
  refine congrArg Wg (congrArg (ix2 _) (Fin.ext ?_))
  show 128 + n.val - 128 = n.val
  omega

/-- The two branches' folded biases side by side: one row of 256 columns. -/
def fuseB {K : ℕ} (hK : 0 < K) (b0 : EReal) (Wf Wg : Mat K 128) (bf bg : Vct 128) : Mat 1 256 := fun i =>
  if h : (i 1).val < 128 then bias hK b0 Wf bf ⟨(i 1).val, h⟩
  else bias hK b0 Wg bg ⟨(i 1).val - 128, by have := idx2_lt1 i; omega⟩

theorem fuseB_left {K : ℕ} (hK : 0 < K) (b0 : EReal) (Wf Wg : Mat K 128) (bf bg : Vct 128) (u : Fin 1) (n : Fin 128) :
    fuseB hK b0 Wf Wg bf bg (ix2 u ⟨n.val, by have := n.isLt; omega⟩) = bias hK b0 Wf bf n := by
  unfold fuseB
  rw [dif_pos (show ((ix2 u (⟨n.val, by have := n.isLt; omega⟩ : Fin 256)) 1).val < 128 from n.isLt)]

theorem fuseB_right {K : ℕ} (hK : 0 < K) (b0 : EReal) (Wf Wg : Mat K 128) (bf bg : Vct 128) (u : Fin 1) (n : Fin 128) :
    fuseB hK b0 Wf Wg bf bg (ix2 u ⟨128 + n.val, by have := n.isLt; omega⟩) = bias hK b0 Wg bg n := by
  unfold fuseB
  rw [dif_neg (show ¬ ((ix2 u (⟨128 + n.val, by have := n.isLt; omega⟩ : Fin 256)) 1).val < 128 from by
    show ¬ 128 + n.val < 128; omega)]
  refine congrArg (bias hK b0 Wg bg) (Fin.ext ?_)
  show 128 + n.val - 128 = n.val
  omega

/-- A row of features against a fused block, read at a left column: the f-branch's stretch. -/
theorem fused_col_left {K J : ℕ} (o : ℕ) (hJ : o + J ≤ K) (Wf Wg : Mat K 128) (u : Fin J → EReal) (n : Fin 128) :
    ∑ c : Fin J, u c * fuseW o hJ Wf Wg (ix2 c ⟨n.val, by have := n.isLt; omega⟩) = seg o hJ Wf u n := by
  unfold seg
  exact Finset.sum_congr rfl fun c _ => by rw [fuseW_left]

/-- … at a right column: the g-branch's stretch. -/
theorem fused_col_right {K J : ℕ} (o : ℕ) (hJ : o + J ≤ K) (Wf Wg : Mat K 128) (u : Fin J → EReal) (n : Fin 128) :
    ∑ c : Fin J, u c * fuseW o hJ Wf Wg (ix2 c ⟨128 + n.val, by have := n.isLt; omega⟩) = seg o hJ Wg u n := by
  unfold seg
  exact Finset.sum_congr rfl fun c _ => by rw [fuseW_right]

/-- The batched outer product as the kernel forms it — `a` with a unit last axis and `b` with a unit middle axis, both
    repeated to [B, 128, 128], multiplied, the last two axes merged — at row `p`, position `k`, is `a p (k / 128) · b p (k % 128)`. -/
theorem outer_vec {B : ℕ} (a b : FVec Ideal ⟨2, ![B, 128]⟩ .bf16)
    (h1 : (⟨2, ![B, 128]⟩ : Shape).ShapeCasts ⟨3, ![B, 128, 1]⟩) (h2 : (⟨2, ![B, 128]⟩ : Shape).ShapeCasts ⟨3, ![B, 1, 128]⟩)
    (h3 : (⟨3, ![B, 128, 1]⟩ : Shape).Broadcasts ⟨3, ![B, 128, 128]⟩) (h4 : (⟨3, ![B, 1, 128]⟩ : Shape).Broadcasts ⟨3, ![B, 128, 128]⟩)
    (h5 : (⟨3, ![B, 128, 128]⟩ : Shape).ShapeCasts ⟨2, ![B, 16384]⟩) (p : Fin B) (k : Fin 16384) :
    shapeCast ⟨2, ![B, 16384]⟩ (mulf (F := Ideal) (φ := .bf16) (broadcastTo ⟨3, ![B, 128, 128]⟩ (shapeCast ⟨3, ![B, 128, 1]⟩ a h1) h3)
      (broadcastTo ⟨3, ![B, 128, 128]⟩ (shapeCast ⟨3, ![B, 1, 128]⟩ b h2) h4)) h5 (ix2 p k)
      = outer (fun j => a (ix2 p j)) (fun j => b (ix2 p j)) k := by
  have hk := k.isLt
  rw [shapeCast_apply _ h5 (ix2 p k) (ix3 p (⟨k.val / 128, by omega⟩ : Fin 128) (⟨k.val % 128, Nat.mod_lt _ (by decide)⟩ : Fin 128)) (by
    rw [Shape.rowMajor_val_three, Shape.rowMajor_val_two]
    show (p.val * 128 + k.val / 128) * 128 + k.val % 128 = p.val * 16384 + k.val
    omega)]
  rw [mulf_apply, Cert.LibLayout3.broadcastTo_ab1_abc_apply, Cert.LibLayout3.broadcastTo_a1c_abc_apply,
    Cert.LibLayout3.shapeCast_ab_ab1_apply, Cert.LibLayout3.shapeCast_ab_a1b_apply]
  rfl

/-- Entry `pre + j` of row `p` of six blocks of 128 columns side by side is entry `j` of the block that starts at `pre`. -/
theorem cat6_piece {B : ℕ} (a : Fin 6 → FVec Ideal ⟨2, ![B, 128]⟩ .bf16)
    (h : Shape.Concatenates [⟨2, ![B, 128]⟩, ⟨2, ![B, 128]⟩, ⟨2, ![B, 128]⟩, ⟨2, ![B, 128]⟩, ⟨2, ![B, 128]⟩, ⟨2, ![B, 128]⟩] ⟨2, ![B, 768]⟩ (1 : Fin 2))
    (i : Fin 6) (p : Fin B) (j : Fin 128) (k : Fin 768) (hk : k.val = 128 * i.val + j.val) :
    concatenate ⟨2, ![B, 768]⟩ (1 : Fin 2) [⟨⟨2, ![B, 128]⟩, a 0⟩, ⟨⟨2, ![B, 128]⟩, a 1⟩, ⟨⟨2, ![B, 128]⟩, a 2⟩, ⟨⟨2, ![B, 128]⟩, a 3⟩,
      ⟨⟨2, ![B, 128]⟩, a 4⟩, ⟨⟨2, ![B, 128]⟩, a 5⟩] h (ix2 p k) = a i (ix2 p j) := by
  refine concatenate_apply_piece (t := ⟨2, ![B, 768]⟩) (1 : Fin 2) [⟨⟨2, ![B, 128]⟩, a 0⟩, ⟨⟨2, ![B, 128]⟩, a 1⟩, ⟨⟨2, ![B, 128]⟩, a 2⟩, ⟨⟨2, ![B, 128]⟩, a 3⟩,
      ⟨⟨2, ![B, 128]⟩, a 4⟩, ⟨⟨2, ![B, 128]⟩, a 5⟩] h (ix2 p k) i.val (by simp) ⟨2, ![B, 128]⟩ (a i) ?_ rfl (128 * i.val) ?_ (ix2 p j) ?_ ?_
  · fin_cases i <;> rfl
  · fin_cases i <;> rfl
  · intro b hb
    match b with
    | ⟨0, _⟩ => rfl
    | ⟨1, _⟩ => exact absurd rfl hb
  · show 128 * i.val + j.val = k.val
    omega

end Cert.PolyOps

end
-- ==== Proof.LibSlice2.lean ====
/-
  A unit-stride slice of a rank-2 array read at a pair of coordinates: entry (p, q) of the slice that starts at
  (o₀, o₁) is entry (o₀ + p, o₁ + q) of the array.
-/
import Idealize.ShloMosaic.Lib.Pipeline.Value
import Idealize.ShloMosaic.Lib.ValueIdx

namespace Cert.LibSlice2

open Idealize.ShloMosaic Idealize.ShloMosaic.ValueIdx

/-- Entry `(p, q)` of the slice at offsets `(o₀, o₁)` is entry `(o₀ + p, o₁ + q)` of the array. -/
theorem slice2_apply {α : Type} {m n m' n' : ℕ} (o₀ o₁ : ℕ) (x : (⟨2, ![m, n]⟩ : Shape).Idx → α)
    (h : (⟨2, ![m, n]⟩ : Shape).Slices ![o₀, o₁] ⟨2, ![m', n']⟩) (p : Fin m') (q : Fin n')
    (hp : o₀ + p.val < m) (hq : o₁ + q.val < n) :
    extractStridedSlice ⟨2, ![m', n']⟩ ![o₀, o₁] x h (ix2 p q) = x (ix2 ⟨o₀ + p.val, hp⟩ ⟨o₁ + q.val, hq⟩) :=
  extractStridedSlice_apply _ x h _ _ fun a => by
    match a with
    | ⟨0, _⟩ => rfl
    | ⟨1, _⟩ => rfl

end Cert.LibSlice2
-- ==== Proof.LibKerLayout.lean ====
/-
  Rank-2 layout operations of the host read at a cell: a two-piece concatenation along either axis, a reversal
  along either axis, and zero-or-value padding on the right.
-/
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.HostValue

open Idealize.ShloMosaic Idealize.ShloMosaic.ValueIdx

variable {α : Type}

/-- Two blocks of rows stacked: a row of the first block. -/
theorem concat2_d0_left {a1 a2 n b : ℕ} (x₁ : (⟨2, ![a1, b]⟩ : Shape).Idx → α) (x₂ : (⟨2, ![a2, b]⟩ : Shape).Idx → α)
    (h : Shape.Concatenates [⟨2, ![a1, b]⟩, ⟨2, ![a2, b]⟩] ⟨2, ![n, b]⟩ (0 : Fin 2)) (i : Fin n) (q : Fin b) (hlt : i.val < a1) :
    concatenate ⟨2, ![n, b]⟩ (0 : Fin 2) [⟨⟨2, ![a1, b]⟩, x₁⟩, ⟨⟨2, ![a2, b]⟩, x₂⟩] h (ix2 i q) = x₁ (ix2 ⟨i.val, hlt⟩ q) :=
  concatenate_pair_apply_left (0 : Fin 2) x₁ x₂ h (ix2 i q) rfl (ix2 ⟨i.val, hlt⟩ q) (fun b => by
    match b with
    | ⟨0, _⟩ => rfl
    | ⟨1, _⟩ => rfl)

/-- Two blocks of rows stacked: a row of the second block. -/
theorem concat2_d0_right {a1 a2 n b : ℕ} (x₁ : (⟨2, ![a1, b]⟩ : Shape).Idx → α) (x₂ : (⟨2, ![a2, b]⟩ : Shape).Idx → α)
    (h : Shape.Concatenates [⟨2, ![a1, b]⟩, ⟨2, ![a2, b]⟩] ⟨2, ![n, b]⟩ (0 : Fin 2)) (i : Fin n) (q : Fin b) (hge : a1 ≤ i.val)
    (hlt : i.val - a1 < a2) :
    concatenate ⟨2, ![n, b]⟩ (0 : Fin 2) [⟨⟨2, ![a1, b]⟩, x₁⟩, ⟨⟨2, ![a2, b]⟩, x₂⟩] h (ix2 i q) = x₂ (ix2 ⟨i.val - a1, hlt⟩ q) :=
  concatenate_pair_apply_right (0 : Fin 2) x₁ x₂ h (ix2 i q) rfl rfl (ix2 ⟨i.val - a1, hlt⟩ q) (fun b hb => by
    match b with
    | ⟨0, _⟩ => exact absurd rfl hb
    | ⟨1, _⟩ => rfl) (by show (i.val - a1) + a1 = i.val; omega)

/-- Two blocks of columns side by side: a column of the first block. -/
theorem concat2_d1_left {a b1 b2 n : ℕ} (x₁ : (⟨2, ![a, b1]⟩ : Shape).Idx → α) (x₂ : (⟨2, ![a, b2]⟩ : Shape).Idx → α)
    (h : Shape.Concatenates [⟨2, ![a, b1]⟩, ⟨2, ![a, b2]⟩] ⟨2, ![a, n]⟩ (1 : Fin 2)) (i : Fin a) (q : Fin n) (hlt : q.val < b1) :
    concatenate ⟨2, ![a, n]⟩ (1 : Fin 2) [⟨⟨2, ![a, b1]⟩, x₁⟩, ⟨⟨2, ![a, b2]⟩, x₂⟩] h (ix2 i q) = x₁ (ix2 i ⟨q.val, hlt⟩) :=
  concatenate_pair_apply_left (1 : Fin 2) x₁ x₂ h (ix2 i q) rfl (ix2 i ⟨q.val, hlt⟩) (fun b => by
    match b with
    | ⟨0, _⟩ => rfl
    | ⟨1, _⟩ => rfl)

/-- Two blocks of columns side by side: a column of the second block. -/
theorem concat2_d1_right {a b1 b2 n : ℕ} (x₁ : (⟨2, ![a, b1]⟩ : Shape).Idx → α) (x₂ : (⟨2, ![a, b2]⟩ : Shape).Idx → α)
    (h : Shape.Concatenates [⟨2, ![a, b1]⟩, ⟨2, ![a, b2]⟩] ⟨2, ![a, n]⟩ (1 : Fin 2)) (i : Fin a) (q : Fin n) (hge : b1 ≤ q.val)
    (hlt : q.val - b1 < b2) :
    concatenate ⟨2, ![a, n]⟩ (1 : Fin 2) [⟨⟨2, ![a, b1]⟩, x₁⟩, ⟨⟨2, ![a, b2]⟩, x₂⟩] h (ix2 i q) = x₂ (ix2 i ⟨q.val - b1, hlt⟩) :=
  concatenate_pair_apply_right (1 : Fin 2) x₁ x₂ h (ix2 i q) rfl rfl (ix2 i ⟨q.val - b1, hlt⟩) (fun b hb => by
    match b with
    | ⟨0, _⟩ => rfl
    | ⟨1, _⟩ => exact absurd rfl hb) (by show (q.val - b1) + b1 = q.val; omega)

/-- The rows in reverse order. -/
theorem reverse2_d0 {a b : ℕ} (x : (⟨2, ![a, b]⟩ : Shape).Idx → α) (i : Fin a) (q : Fin b) :
    Host.reverse (s := ⟨2, ![a, b]⟩) [(0 : Fin 2)] x (ix2 i q) = x (ix2 i.rev q) := by
  unfold Host.reverse
  refine congrArg x (funext fun ax => ?_)
  match ax with
  | ⟨0, _⟩ => exact if_pos (List.mem_singleton.mpr (Fin.ext rfl))
  | ⟨1, _⟩ => exact if_neg (fun hm => absurd (congrArg Fin.val (List.mem_singleton.mp hm)) Nat.one_ne_zero)

/-- The columns in reverse order. -/
theorem reverse2_d1 {a b : ℕ} (x : (⟨2, ![a, b]⟩ : Shape).Idx → α) (i : Fin a) (q : Fin b) :
    Host.reverse (s := ⟨2, ![a, b]⟩) [(1 : Fin 2)] x (ix2 i q) = x (ix2 i q.rev) := by
  unfold Host.reverse
  refine congrArg x (funext fun ax => ?_)
  match ax with
  | ⟨0, _⟩ => exact if_neg (fun hm => absurd (congrArg Fin.val (List.mem_singleton.mp hm)) Nat.zero_ne_one)
  | ⟨1, _⟩ => exact if_pos (List.mem_singleton.mpr (Fin.ext rfl))

/-- Padding on the right by `p` columns: a column of the operand. -/
theorem pad2_right_inside {a b n p : ℕ} (x : (⟨2, ![a, b]⟩ : Shape).Idx → α) {u : Shape} (v : u.Idx → α)
    (h : (⟨2, ![a, b]⟩ : Shape).Pads ![0, 0] ![0, p] ![0, 0] ⟨2, ![a, n]⟩) (hu : 0 < u.numel) (i : Fin a) (q : Fin n) (hlt : q.val < b) :
    pad ⟨2, ![a, n]⟩ ![0, 0] ![0, p] ![0, 0] x v h hu (ix2 i q) = x (ix2 i ⟨q.val, hlt⟩) :=
  pad_apply_of_inside _ _ _ x v h hu (ix2 i q) (ix2 i ⟨q.val, hlt⟩) (fun ax => by
    match ax with
    | ⟨0, _⟩ => show i.val = 0 + i.val * (0 + 1); omega
    | ⟨1, _⟩ => show q.val = 0 + q.val * (0 + 1); omega)

/-- Padding on the right by `p` columns: a padding column holds the padding value. -/
theorem pad2_right_outside {a b n p : ℕ} (x : (⟨2, ![a, b]⟩ : Shape).Idx → α) {u : Shape} (v : u.Idx → α)
    (h : (⟨2, ![a, b]⟩ : Shape).Pads ![0, 0] ![0, p] ![0, 0] ⟨2, ![a, n]⟩) (hu : 0 < u.numel) (i : Fin a) (q : Fin n) (hge : b ≤ q.val) :
    pad ⟨2, ![a, n]⟩ ![0, 0] ![0, p] ![0, 0] x v h hu (ix2 i q) = v (Shape.Idx.first hu) :=
  pad_apply_of_not_inside _ _ _ x v h hu (ix2 i q) (1 : Fin 2) (fun hin => by
    have h3 : (q.val - 0) / (0 + 1) < b := hin.2.2
    simp at h3; omega)

end Cert.KernelIdeal.HostValue

end
-- ==== Proof.KerHostOps.lean ====
/-
  The host's preparation of the kernel's weight blocks, read at an entry.

  Before the call the host cuts row 0 (the bias column's weights) off every weight matrix, folds it into the bias
  (b + b0 · W[0, ·]), cuts the remaining rows into the stretches the layer's input is made of, and sets the f- and
  g-branch's pieces side by side. Each such block is the fused form of the original weights.
-/
import proofs.«150659_j90297392431134_2_alg».proof.Proof.KerOps
import proofs.«150659_j90297392431134_2_alg».proof.Proof.LibSlice2
import proofs.«150659_j90297392431134_2_alg».proof.Proof.LibKerLayout
import Idealize.ShloMosaic.Lib.ValueLayout
import Idealize.ShloMosaic.Lib.Pipeline.Value
import Idealize.ShloMosaic.Lib.ValueIdx

noncomputable section

namespace Cert.PolyOps

open Idealize.ShloMosaic Idealize.ShloMosaic.ValueIdx Cert.PolySpec Cert.KernelIdeal.HostValue

/-- Rows `o…` of the two branches' weights, cut once and set side by side, are the fused block. -/
theorem fuse_slice1 {K J : ℕ} (o : ℕ) (hJ : o + J ≤ K) (A B : FVec Ideal ⟨2, ![K, 128]⟩ .f32)
    (hs : (⟨2, ![K, 128]⟩ : Shape).Slices ![o, 0] ⟨2, ![J, 128]⟩)
    (hc : Shape.Concatenates [⟨2, ![J, 128]⟩, ⟨2, ![J, 128]⟩] ⟨2, ![J, 256]⟩ (1 : Fin 2)) (hb : FTy.bf16.bits < FTy.f32.bits) :
    (truncf .bf16 (concatenate ⟨2, ![J, 256]⟩ (1 : Fin 2) [⟨⟨2, ![J, 128]⟩, extractStridedSlice ⟨2, ![J, 128]⟩ ![o, 0] A hs⟩,
      ⟨⟨2, ![J, 128]⟩, extractStridedSlice ⟨2, ![J, 128]⟩ ![o, 0] B hs⟩] hc) hb : FVec Ideal ⟨2, ![J, 256]⟩ .bf16) = fuseW o hJ A B := by
  funext i
  obtain ⟨j, q, rfl⟩ : ∃ (j : Fin J) (q : Fin 256), i = ix2 j q := ⟨i 0, i 1, eq_ix2 i⟩
  rw [truncf_apply]
  have hj := j.isLt
  have hq := q.isLt
  unfold fuseW
  by_cases h : q.val < 128
  · rw [concat2_d1_left _ _ hc j q h, Cert.LibSlice2.slice2_apply o 0 A hs j ⟨q.val, h⟩ (by omega) (by show 0 + q.val < 128; omega),
      dif_pos (show ((ix2 j q) 1).val < 128 from h)]
    exact congrArg A (congrArg₂ ix2 rfl (Fin.ext (Nat.zero_add _)))
  · rw [concat2_d1_right _ _ hc j q (by omega) (by omega), Cert.LibSlice2.slice2_apply o 0 B hs j ⟨q.val - 128, by omega⟩ (by omega) (by show 0 + (q.val - 128) < 128; omega),
      dif_neg (show ¬ ((ix2 j q) 1).val < 128 from h)]
    exact congrArg B (congrArg₂ ix2 rfl (Fin.ext (Nat.zero_add _)))

/-- The same after two cuts (first row 0 off, then the stretch): rows `o₁ + o₂ …` of the original weights. -/
theorem fuse_slice2 {K K' J : ℕ} (o₁ o₂ : ℕ) (hJ : o₁ + o₂ + J ≤ K) (A B : FVec Ideal ⟨2, ![K, 128]⟩ .f32)
    (hs₁ : (⟨2, ![K, 128]⟩ : Shape).Slices ![o₁, 0] ⟨2, ![K', 128]⟩) (hK' : o₂ + J ≤ K') (hKK : o₁ + K' ≤ K)
    (hs₂ : (⟨2, ![K', 128]⟩ : Shape).Slices ![o₂, 0] ⟨2, ![J, 128]⟩)
    (hc : Shape.Concatenates [⟨2, ![J, 128]⟩, ⟨2, ![J, 128]⟩] ⟨2, ![J, 256]⟩ (1 : Fin 2)) (hb : FTy.bf16.bits < FTy.f32.bits) :
    (truncf .bf16 (concatenate ⟨2, ![J, 256]⟩ (1 : Fin 2)
      [⟨⟨2, ![J, 128]⟩, extractStridedSlice ⟨2, ![J, 128]⟩ ![o₂, 0] (extractStridedSlice ⟨2, ![K', 128]⟩ ![o₁, 0] A hs₁) hs₂⟩,
      ⟨⟨2, ![J, 128]⟩, extractStridedSlice ⟨2, ![J, 128]⟩ ![o₂, 0] (extractStridedSlice ⟨2, ![K', 128]⟩ ![o₁, 0] B hs₁) hs₂⟩] hc) hb
        : FVec Ideal ⟨2, ![J, 256]⟩ .bf16) = fuseW (o₁ + o₂) hJ A B := by
  funext i
  obtain ⟨j, q, rfl⟩ : ∃ (j : Fin J) (q : Fin 256), i = ix2 j q := ⟨i 0, i 1, eq_ix2 i⟩
  rw [truncf_apply]
  have hj := j.isLt
  have hq := q.isLt
  unfold fuseW
  by_cases h : q.val < 128
  · rw [concat2_d1_left _ _ hc j q h,
      Cert.LibSlice2.slice2_apply o₂ 0 _ hs₂ j ⟨q.val, h⟩ (by omega) (by show 0 + q.val < 128; omega),
      Cert.LibSlice2.slice2_apply o₁ 0 A hs₁ ⟨o₂ + j.val, by omega⟩ ⟨0 + q.val, by omega⟩ (by show o₁ + (o₂ + j.val) < K; omega) (by show 0 + (0 + q.val) < 128; omega),
      dif_pos (show ((ix2 j q) 1).val < 128 from h)]
    refine congrArg A (congrArg₂ ix2 (Fin.ext ?_) (Fin.ext ?_))
    · show o₁ + (o₂ + j.val) = o₁ + o₂ + j.val
      omega
    · show 0 + (0 + q.val) = q.val
      omega
  · rw [concat2_d1_right _ _ hc j q (by omega) (by omega),
      Cert.LibSlice2.slice2_apply o₂ 0 _ hs₂ j ⟨q.val - 128, by omega⟩ (by omega) (by show 0 + (q.val - 128) < 128; omega),
      Cert.LibSlice2.slice2_apply o₁ 0 B hs₁ ⟨o₂ + j.val, by omega⟩ ⟨0 + (q.val - 128), by omega⟩ (by show o₁ + (o₂ + j.val) < K; omega) (by show 0 + (0 + (q.val - 128)) < 128; omega),
      dif_neg (show ¬ ((ix2 j q) 1).val < 128 from h)]
    refine congrArg B (congrArg₂ ix2 (Fin.ext ?_) (Fin.ext ?_))
    · show o₁ + (o₂ + j.val) = o₁ + o₂ + j.val
      omega
    · show 0 + (0 + (q.val - 128)) = q.val - 128
      omega

/-- One branch's folded bias as the host forms it: the bias plus the bias input (a scalar repeated) times row 0 of the
    weights (cut off and flattened), at entry `n`. -/
theorem fold_bias_apply {K : ℕ} (hK : 0 < K) (b0v : FVec Ideal ⟨0, ![]⟩ .f32) (A : FVec Ideal ⟨2, ![K, 128]⟩ .f32) (bf : FVec Ideal ⟨1, ![128]⟩ .f32)
    (hs : (⟨2, ![K, 128]⟩ : Shape).Slices ![0, 0] ⟨2, ![1, 128]⟩) (hsc : (⟨2, ![1, 128]⟩ : Shape).ShapeCasts ⟨1, ![128]⟩)
    (hbc : (⟨0, ![]⟩ : Shape).BroadcastsInDim ⟨1, ![128]⟩ ![]) (n : Fin 128) :
    addf bf (mulf (broadcastInDim ⟨1, ![128]⟩ ![] hbc b0v) (shapeCast ⟨1, ![128]⟩ (extractStridedSlice ⟨2, ![1, 128]⟩ ![0, 0] A hs) hsc)) (ix1 n)
      = bias hK (b0v ix0) A bf n := by
  rw [addf_apply, mulf_apply, shapeCast_1a_a_apply,
    Cert.LibSlice2.slice2_apply 0 0 A hs (0 : Fin 1) n (by show 0 + 0 < K; omega) (by have := n.isLt; show 0 + n.val < 128; omega),
    broadcastInDim_apply ![] hbc b0v (ix1 n) ix0 (fun a => a.elim0)]
  unfold bias
  exact congrArg (fun w => bf (ix1 n) + b0v ix0 * A w) (congrArg₂ ix2 (Fin.ext rfl) (Fin.ext (Nat.zero_add _)))

/-- The two branches' folded biases joined end to end and laid as one row: the fused bias row. -/
theorem fuse_bias {K : ℕ} (hK : 0 < K) (b0v : FVec Ideal ⟨0, ![]⟩ .f32) (A B : FVec Ideal ⟨2, ![K, 128]⟩ .f32) (bf bg : FVec Ideal ⟨1, ![128]⟩ .f32)
    (hs : (⟨2, ![K, 128]⟩ : Shape).Slices ![0, 0] ⟨2, ![1, 128]⟩) (hsc : (⟨2, ![1, 128]⟩ : Shape).ShapeCasts ⟨1, ![128]⟩)
    (hbc : (⟨0, ![]⟩ : Shape).BroadcastsInDim ⟨1, ![128]⟩ ![])
    (hc : Shape.Concatenates [⟨1, ![128]⟩, ⟨1, ![128]⟩] ⟨1, ![256]⟩ (0 : Fin 1)) (hr : (⟨1, ![256]⟩ : Shape).ShapeCasts ⟨2, ![1, 256]⟩) :
    shapeCast ⟨2, ![1, 256]⟩ (concatenate ⟨1, ![256]⟩ (0 : Fin 1)
      [⟨⟨1, ![128]⟩, addf bf (mulf (broadcastInDim ⟨1, ![128]⟩ ![] hbc b0v) (shapeCast ⟨1, ![128]⟩ (extractStridedSlice ⟨2, ![1, 128]⟩ ![0, 0] A hs) hsc))⟩,
       ⟨⟨1, ![128]⟩, addf bg (mulf (broadcastInDim ⟨1, ![128]⟩ ![] hbc b0v) (shapeCast ⟨1, ![128]⟩ (extractStridedSlice ⟨2, ![1, 128]⟩ ![0, 0] B hs) hsc))⟩] hc) hr
      = fuseB hK (b0v ix0) A B bf bg := by
  funext i
  obtain ⟨u, q, rfl⟩ : ∃ (u : Fin 1) (q : Fin 256), i = ix2 u q := ⟨i 0, i 1, eq_ix2 i⟩
  have hq := q.isLt
  rw [shapeCast_a_1a_apply]
  unfold fuseB
  by_cases h : q.val < 128
  · rw [dif_pos (show ((ix2 u q) 1).val < 128 from h),
      concatenate_pair_apply_left (t := ⟨1, ![256]⟩) (s₁ := ⟨1, ![128]⟩) (s₂ := ⟨1, ![128]⟩) (0 : Fin 1) _ _ hc (ix1 q) rfl (ix1 (⟨q.val, h⟩ : Fin 128)) (fun b => by
        match b with
        | ⟨0, _⟩ => rfl)]
    exact fold_bias_apply hK b0v A bf hs hsc hbc ⟨q.val, h⟩
  · rw [dif_neg (show ¬ ((ix2 u q) 1).val < 128 from h),
      concatenate_pair_apply_right (t := ⟨1, ![256]⟩) (s₁ := ⟨1, ![128]⟩) (s₂ := ⟨1, ![128]⟩) (0 : Fin 1) _ _ hc (ix1 q) rfl rfl (ix1 (⟨q.val - 128, by omega⟩ : Fin 128)) (fun b hb => by
        match b with
        | ⟨0, _⟩ => exact absurd rfl hb) (by show (q.val - 128) + 128 = q.val; omega)]
    exact fold_bias_apply hK b0v B bg hs hsc hbc ⟨q.val - 128, by omega⟩

end Cert.PolyOps

end
-- ==== Proof.LibPlainDot.lean ====
/-
  A plain matrix product M×K by K×N into a zero accumulator, read at an entry over the extended reals: entry (p, q)
  is the sum over c of lhs (p, c) · rhs (c, q). The contraction index, a one-axis multi-index, is re-indexed to its
  one coordinate.
-/
import Idealize.ShloMosaic.Lib.ValueIdx
import Idealize.ShloMosaic.PureOps.Ideal.Laws

namespace Cert.LibPlainDot

open Idealize.ShloMosaic Idealize.ShloMosaic.ValueIdx

/-- The left operand's index at result entry `(p, q)` and contraction coordinate `c` is `(p, c)`. -/
theorem plain_lhsIdx (M K N : ℕ) (p : Fin M) (q : Fin N) (c : Fin K) :
    (DotDims.plain M K N).lhsIdx (ix2 p q) ((contrEquiv1 (DotDims.plain M K N) K rfl rfl).symm c) = ix2 p c := by
  funext a
  refine Fin.ext ?_
  match a with
  | ⟨0, _⟩ => rfl
  | ⟨1, _⟩ =>
    show ((DotDims.plain M K N).lhsIdx (ix2 p q) ((contrEquiv1 (DotDims.plain M K N) K rfl rfl).symm c) 1).val = c.val
    rw [(DotDims.plain M K N).lhsIdx_val_of_single (cl := 1) rfl]
    exact contrEquiv1_symm_val (DotDims.plain M K N) K rfl rfl c

/-- The right operand's index there is `(c, q)`. -/
theorem plain_rhsIdx (M K N : ℕ) (p : Fin M) (q : Fin N) (c : Fin K) :
    (DotDims.plain M K N).rhsIdx (ix2 p q) ((contrEquiv1 (DotDims.plain M K N) K rfl rfl).symm c) = ix2 c q := by
  funext a
  refine Fin.ext ?_
  match a with
  | ⟨0, _⟩ =>
    show ((DotDims.plain M K N).rhsIdx (ix2 p q) ((contrEquiv1 (DotDims.plain M K N) K rfl rfl).symm c) 0).val = c.val
    rw [(DotDims.plain M K N).rhsIdx_val_of_single (cr := 0) rfl]
    exact contrEquiv1_symm_val (DotDims.plain M K N) K rfl rfl c
  | ⟨1, _⟩ => rfl

/-- Entry `(p, q)` of a plain product into the zero accumulator is `∑ c, lhs (p, c) · rhs (c, q)`. -/
theorem matmul_plain_zero_apply {φ₁ φ₂ : FTy} (M K N : ℕ) (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ c : Fin K, lhs (ix2 p c) * rhs (ix2 c q) := by
  rw [Ideal.matmul_constant_zero_apply, ← Equiv.sum_comp (contrEquiv1 (DotDims.plain M K N) K rfl rfl).symm]
  refine Finset.sum_congr rfl fun c _ => ?_
  rw [plain_lhsIdx, plain_rhsIdx]

end Cert.LibPlainDot
-- ==== Proof.KerPay.lean ====
/-
  The kernel body's arithmetic, read at an entry of a block of 256 batch rows.

  The body computes z1 = x·Wz1 + bz1 (256 columns: the f- then the g-branch of the first layer), takes the outer
  product of the f-features with themselves, z2 = f1·Wz2a + (f1 ⊗ f1)·Wz2o + bz2, then z3 likewise with f2, and projects
  [f1, f2, f3, g1, g2, g3] by the last weights. With the weight blocks the fused forms of the original weights, row
  `p` of each stage is the specification's layer of row `p` of the input block.
-/
import proofs.«150659_j90297392431134_2_alg».proof.Proof.Gen.KernelIdeal
import proofs.«150659_j90297392431134_2_alg».proof.Proof.Gen.KernelIdeal.Skeleton
import proofs.«150659_j90297392431134_2_alg».proof.Proof.KerOps
import proofs.«150659_j90297392431134_2_alg».proof.Proof.LibPlainDot
import proofs.«150659_j90297392431134_2_alg».proof.Proof.LibSlice2
import Idealize.ShloMosaic.Lib.ValueLayout
import Idealize.ShloMosaic.Lib.Pipeline.Value
import Idealize.ShloMosaic.Lib.ValueIdx
import Idealize.ShloMosaic.PureOps.Ideal.Laws

noncomputable section

namespace Cert.KernelIdeal.PayValue

open Cert.KernelIdeal Cert.KernelIdeal.Gen Idealize.ShloMosaic Idealize.ShloMosaic.ValueIdx Cert.PolySpec Cert.PolyOps

/-- The first stage at (p, q): row `p` of the input block against column `q` of the weights, plus the bias row. -/
theorem pay2_apply (v0 : Vec Ideal S256x64 .f32) (v2 : Vec Ideal S64x256 .bf16) (v5 : Vec Ideal S1x256 .f32) (p q : Fin 256) :
    k0_pay2 (F := Ideal) v0 v2 v5 (ix2 p q) = (∑ c : Fin 64, v0 (ix2 p c) * v2 (ix2 c q)) + v5 (ix2 (0 : Fin 1) q) := by
  unfold k0_pay2
  rw [addf_apply, shapeCast_self, shapeCast_self, broadcastTo_1b_ab_apply]
  exact congrArg (· + v5 (ix2 (0 : Fin 1) q)) (Cert.LibPlainDot.matmul_plain_zero_apply 256 64 256 none _ _ p q)

section Fused

variable (b0 : EReal) (Wf1 Wg1 : Mat 65 128) (bf1 bg1 : Vct 128)

/-- The left half of the first stage is the f-branch of the first layer. -/
theorem f1_apply (v0 : Vec Ideal S256x64 .f32) (p : Fin 256) (n : Fin 128) :
    k0_pay3 (F := Ideal) v0 (fuseW 1 (by decide) Wf1 Wg1) (fuseB (by decide) b0 Wf1 Wg1 bf1 bg1) (ix2 p n)
      = lay1 b0 Wf1 bf1 (fun d => v0 (ix2 p d)) n := by
  unfold k0_pay3
  rw [truncf_apply, Cert.LibSlice2.slice2_apply 0 0 _ _ p n (by have := p.isLt; omega) (by have := n.isLt; omega), pay2_apply]
  have e1 : (⟨0 + p.val, by have := p.isLt; omega⟩ : Fin 256) = p := Fin.ext (Nat.zero_add _)
  have e2 : (⟨0 + n.val, by have := n.isLt; omega⟩ : Fin 256) = ⟨n.val, by have := n.isLt; omega⟩ := Fin.ext (Nat.zero_add _)
  rw [e1, e2, fused_col_left, fuseB_left]
  rfl

/-- The right half of the first stage is the g-branch of the first layer. -/
theorem g1_apply (v0 : Vec Ideal S256x64 .f32) (p : Fin 256) (n : Fin 128) :
    k0_pay4 (F := Ideal) v0 (fuseW 1 (by decide) Wf1 Wg1) (fuseB (by decide) b0 Wf1 Wg1 bf1 bg1) (ix2 p n)
      = lay1 b0 Wg1 bg1 (fun d => v0 (ix2 p d)) n := by
  unfold k0_pay4
  rw [truncf_apply, Cert.LibSlice2.slice2_apply 0 128 _ _ p n (by have := p.isLt; omega) (by have := n.isLt; omega), pay2_apply]
  have e1 : (⟨0 + p.val, by have := p.isLt; omega⟩ : Fin 256) = p := Fin.ext (Nat.zero_add _)
  rw [e1, fused_col_right, fuseB_right]
  rfl

end Fused

/-- The second stage at (p, q): the f-features of row `p` and their outer product against column `q` of the two weight
    blocks, plus the bias row. -/
theorem pay5_apply (v0 : Vec Ideal S256x64 .f32) (v2 : Vec Ideal S64x256 .bf16) (v5 : Vec Ideal S1x256 .f32)
    (v19 : Vec Ideal S128x256 .bf16) (v22 : Vec Ideal S16384x256 .bf16) (v26 : Vec Ideal S1x256 .f32) (p q : Fin 256) :
    k0_pay5 (F := Ideal) v0 v2 v5 v19 v22 v26 (ix2 p q)
      = ((∑ j : Fin 128, k0_pay3 (F := Ideal) v0 v2 v5 (ix2 p j) * v19 (ix2 j q))
          + ∑ k : Fin 16384, outer (fun j => k0_pay3 (F := Ideal) v0 v2 v5 (ix2 p j))
              (fun j => k0_pay3 (F := Ideal) v0 v2 v5 (ix2 p j)) k * v22 (ix2 k q))
        + v26 (ix2 (0 : Fin 1) q) := by
  unfold k0_pay5
  generalize k0_pay3 (F := Ideal) v0 v2 v5 = a
  rw [addf_apply, addf_apply, shapeCast_self, shapeCast_self, shapeCast_self, broadcastTo_1b_ab_apply]
  refine congrArg₂ (· + ·) (congrArg₂ (· + ·) ?_ ?_) rfl
  · exact Cert.LibPlainDot.matmul_plain_zero_apply (φ₁ := .bf16) (φ₂ := .bf16) 256 128 256 none a v19 p q
  · refine (Cert.LibPlainDot.matmul_plain_zero_apply (φ₁ := .bf16) (φ₂ := .bf16) 256 16384 256 none _ v22 p q).trans
      (Finset.sum_congr rfl fun k _ => congrArg (· * v22 (ix2 k q)) ?_)
    exact outer_vec a a _ _ _ _ _ p k

/-- The outer product of the first and second layers' f-features, flattened. -/
theorem pay8_apply (v0 : Vec Ideal S256x64 .f32) (v2 : Vec Ideal S64x256 .bf16) (v5 : Vec Ideal S1x256 .f32)
    (v19 : Vec Ideal S128x256 .bf16) (v22 : Vec Ideal S16384x256 .bf16) (v26 : Vec Ideal S1x256 .f32) (p : Fin 256) (k : Fin 16384) :
    k0_pay8 (F := Ideal) v0 v2 v5 v19 v22 v26 (ix2 p k)
      = outer (fun j => k0_pay3 (F := Ideal) v0 v2 v5 (ix2 p j)) (fun j => k0_pay6 (F := Ideal) v0 v2 v5 v19 v22 v26 (ix2 p j)) k := by
  unfold k0_pay8
  exact outer_vec _ _ _ _ _ _ _ p k

section Fused2

variable (b0 : EReal) (Wf1 Wg1 : Mat 65 128) (bf1 bg1 : Vct 128) (Wf2 Wg2 : Mat 16513 128) (bf2 bg2 : Vct 128)

/-- The left half of the second stage is the f-branch of the second layer. -/
theorem f2_apply (v0 : Vec Ideal S256x64 .f32) (p : Fin 256) (n : Fin 128) :
    k0_pay6 (F := Ideal) v0 (fuseW 1 (by decide) Wf1 Wg1) (fuseB (by decide) b0 Wf1 Wg1 bf1 bg1)
        (fuseW (J := 128) 1 (by decide) Wf2 Wg2) (fuseW (J := 16384) 129 (by decide) Wf2 Wg2) (fuseB (by decide) b0 Wf2 Wg2 bf2 bg2) (ix2 p n)
      = lay2 b0 Wf2 bf2 (lay1 b0 Wf1 bf1 (fun d => v0 (ix2 p d))) n := by
  unfold k0_pay6
  rw [truncf_apply, Cert.LibSlice2.slice2_apply 0 0 _ _ p n (by have := p.isLt; omega) (by have := n.isLt; omega), pay5_apply]
  have e1 : (⟨0 + p.val, by have := p.isLt; omega⟩ : Fin 256) = p := Fin.ext (Nat.zero_add _)
  have e2 : (⟨0 + n.val, by have := n.isLt; omega⟩ : Fin 256) = ⟨n.val, by have := n.isLt; omega⟩ := Fin.ext (Nat.zero_add _)
  rw [e1, e2]
  simp only [f1_apply]
  rw [fused_col_left, fused_col_left, fuseB_left]
  rfl

/-- The right half of the second stage is the g-branch of the second layer. -/
theorem g2_apply (v0 : Vec Ideal S256x64 .f32) (p : Fin 256) (n : Fin 128) :
    k0_pay7 (F := Ideal) v0 (fuseW 1 (by decide) Wf1 Wg1) (fuseB (by decide) b0 Wf1 Wg1 bf1 bg1)
        (fuseW (J := 128) 1 (by decide) Wf2 Wg2) (fuseW (J := 16384) 129 (by decide) Wf2 Wg2) (fuseB (by decide) b0 Wf2 Wg2 bf2 bg2) (ix2 p n)
      = lay2 b0 Wg2 bg2 (lay1 b0 Wf1 bf1 (fun d => v0 (ix2 p d))) n := by
  unfold k0_pay7
  rw [truncf_apply, Cert.LibSlice2.slice2_apply 0 128 _ _ p n (by have := p.isLt; omega) (by have := n.isLt; omega), pay5_apply]
  have e1 : (⟨0 + p.val, by have := p.isLt; omega⟩ : Fin 256) = p := Fin.ext (Nat.zero_add _)
  rw [e1]
  simp only [f1_apply]
  rw [fused_col_right, fused_col_right, fuseB_right]
  rfl

end Fused2

/-- The third stage as one term of the features it reads and the three weight blocks. -/
def z3 (v11 v32 : FVec Ideal S256x128 .bf16) (v39 : FVec Ideal S256x16384 .bf16) (v41 : FVec Ideal S128x256 .bf16)
    (v43 : Vec Ideal S128x256 .bf16) (v47 : Vec Ideal S16384x256 .bf16) (v51 : Vec Ideal S1x256 .f32) : FVec Ideal S256x256 .f32 :=
  addf (addf (addf (matmul dot_S256x128_S128x256_S256x256_1_0_0_1_n_n none v11 v41 (constant S256x256 .f32 0x00000000#32))
      (matmul dot_S256x128_S128x256_S256x256_1_0_0_1_n_n none v32 (shapeCast S128x256 v43 shapeCasts_S128x256_S128x256 : FVec Ideal S128x256 .bf16) (constant S256x256 .f32 0x00000000#32)))
      (matmul dot_S256x16384_S16384x256_S256x256_1_0_0_1_n_n none v39 (shapeCast S16384x256 v47 shapeCasts_S16384x256_S16384x256 : FVec Ideal S16384x256 .bf16) (constant S256x256 .f32 0x00000000#32)))
    (broadcastTo S256x256 (shapeCast S1x256 v51 shapeCasts_S1x256_S1x256) broadcasts_S1x256_S256x256)

/-- The projection as one term of the six feature blocks (the third layer's cut from `Z`) and the last weights. -/
def proj6 (v11 v12 v32 v33 : FVec Ideal S256x128 .bf16) (Z : FVec Ideal S256x256 .f32) (v60 : Vec Ideal S768x1 .bf16) (v63 : Vec Ideal S1x1 .f32) :
    FVec Ideal S256x1 .f32 :=
  addf (matmul dot_S256x768_S768x1_S256x1_1_0_0_1_n_n none
      (concatenate S256x768 1 [⟨S256x128, v11⟩, ⟨S256x128, v32⟩,
        ⟨S256x128, truncf .bf16 (extractStridedSlice S256x128 ![0, 0] Z slices_S256x256_o0_0_S256x128) bitsLt_bf16_f32⟩,
        ⟨S256x128, v12⟩, ⟨S256x128, v33⟩,
        ⟨S256x128, truncf .bf16 (extractStridedSlice S256x128 ![0, 128] Z slices_S256x256_o0_128_S256x128) bitsLt_bf16_f32⟩]
        concatenates_S256x128_S256x128_S256x128_S256x128_S256x128_S256x128_S256x768_d1)
      (shapeCast S768x1 v60 shapeCasts_S768x1_S768x1 : FVec Ideal S768x1 .bf16) (constant S256x1 .f32 0x00000000#32))
    (broadcastTo S256x1 (shapeCast S1x1 v63 shapeCasts_S1x1_S1x1) broadcasts_S1x1_S256x1)

/-- The body's last payload is the projection over the third stage. -/
theorem pay1_eq (v11 v12 v32 v33 : FVec Ideal S256x128 .bf16) (v39 : FVec Ideal S256x16384 .bf16) (v41 : FVec Ideal S128x256 .bf16)
    (v43 : Vec Ideal S128x256 .bf16) (v47 : Vec Ideal S16384x256 .bf16) (v51 : Vec Ideal S1x256 .f32) (v60 : Vec Ideal S768x1 .bf16)
    (v63 : Vec Ideal S1x1 .f32) :
    k0_pay1 (F := Ideal) v11 v12 v32 v33 v39 v41 v43 v47 v51 v60 v63 = proj6 v11 v12 v32 v33 (z3 v11 v32 v39 v41 v43 v47 v51) v60 v63 := rfl

/-- The third stage at (p, q). -/
theorem z3_apply (v11 v32 : FVec Ideal S256x128 .bf16) (v39 : FVec Ideal S256x16384 .bf16) (v41 : FVec Ideal S128x256 .bf16)
    (v43 : Vec Ideal S128x256 .bf16) (v47 : Vec Ideal S16384x256 .bf16) (v51 : Vec Ideal S1x256 .f32) (p q : Fin 256) :
    z3 v11 v32 v39 v41 v43 v47 v51 (ix2 p q)
      = (((∑ j : Fin 128, v11 (ix2 p j) * v41 (ix2 j q)) + ∑ j : Fin 128, v32 (ix2 p j) * v43 (ix2 j q))
          + ∑ k : Fin 16384, v39 (ix2 p k) * v47 (ix2 k q)) + v51 (ix2 (0 : Fin 1) q) := by
  unfold z3
  rw [addf_apply, addf_apply, addf_apply, shapeCast_self, shapeCast_self, shapeCast_self, broadcastTo_1b_ab_apply]
  refine congrArg₂ (· + ·) (congrArg₂ (· + ·) (congrArg₂ (· + ·) ?_ ?_) ?_) rfl
  · exact Cert.LibPlainDot.matmul_plain_zero_apply (φ₁ := .bf16) (φ₂ := .bf16) 256 128 256 none v11 v41 p q
  · exact Cert.LibPlainDot.matmul_plain_zero_apply (φ₁ := .bf16) (φ₂ := .bf16) 256 128 256 none v32 v43 p q
  · exact Cert.LibPlainDot.matmul_plain_zero_apply (φ₁ := .bf16) (φ₂ := .bf16) 256 16384 256 none v39 v47 p q

/-- The last weights' block: rows 1… of the one column of `Wfc`. -/
def wfcBlock (Wfc : Mat 769 1) : Mat 768 1 := fun i =>
  Wfc (ix2 ⟨1 + (i 0).val, by have := idx2_lt0 i; omega⟩ ⟨(i 1).val, idx2_lt1 i⟩)

/-- The projection at row `p`: six stretches of the last weights' column, plus the bias entry. -/
theorem proj6_apply (Wfc : Mat 769 1) (v11 v12 v32 v33 : FVec Ideal S256x128 .bf16) (Z : FVec Ideal S256x256 .f32) (v63 : Vec Ideal S1x1 .f32) (p : Fin 256) :
    proj6 v11 v12 v32 v33 Z (wfcBlock Wfc) v63 (ix2 p (0 : Fin 1))
      = (((seg 1 (by decide) Wfc (fun j => v11 (ix2 p j)) 0 + seg 129 (by decide) Wfc (fun j => v32 (ix2 p j)) 0)
            + seg 257 (by decide) Wfc (fun j : Fin 128 => Z (ix2 p ⟨j.val, by have := j.isLt; omega⟩)) 0)
          + ((seg 385 (by decide) Wfc (fun j => v12 (ix2 p j)) 0 + seg 513 (by decide) Wfc (fun j => v33 (ix2 p j)) 0)
            + seg 641 (by decide) Wfc (fun j : Fin 128 => Z (ix2 p ⟨128 + j.val, by have := j.isLt; omega⟩)) 0))
        + v63 (ix2 (0 : Fin 1) (0 : Fin 1)) := by
  unfold proj6
  rw [addf_apply, shapeCast_self, shapeCast_self, broadcastTo_1b_ab_apply]
  refine congrArg (· + v63 (ix2 (0 : Fin 1) (0 : Fin 1))) ?_
  refine (Cert.LibPlainDot.matmul_plain_zero_apply (φ₁ := .bf16) (φ₂ := .bf16) 256 768 1 none _ (wfcBlock Wfc) p 0).trans ?_
  -- the third layer's two feature blocks, cut from `Z`
  have hf3 : ∀ j : Fin 128, (truncf .bf16 (extractStridedSlice S256x128 ![0, 0] Z slices_S256x256_o0_0_S256x128) bitsLt_bf16_f32 : FVec Ideal S256x128 .bf16) (ix2 p j)
      = Z (ix2 p ⟨j.val, by have := j.isLt; omega⟩) := fun j => by
    rw [truncf_apply, Cert.LibSlice2.slice2_apply 0 0 _ _ p j (by have := p.isLt; omega) (by have := j.isLt; omega)]
    exact congrArg Z (congrArg₂ ix2 (Fin.ext (Nat.zero_add _)) (Fin.ext (Nat.zero_add _)))
  have hg3 : ∀ j : Fin 128, (truncf .bf16 (extractStridedSlice S256x128 ![0, 128] Z slices_S256x256_o0_128_S256x128) bitsLt_bf16_f32 : FVec Ideal S256x128 .bf16) (ix2 p j)
      = Z (ix2 p ⟨128 + j.val, by have := j.isLt; omega⟩) := fun j => by
    rw [truncf_apply, Cert.LibSlice2.slice2_apply 0 128 _ _ p j (by have := p.isLt; omega) (by have := j.isLt; omega)]
    exact congrArg Z (congrArg₂ ix2 (Fin.ext (Nat.zero_add _)) rfl)
  generalize (truncf .bf16 (extractStridedSlice S256x128 ![0, 0] Z slices_S256x256_o0_0_S256x128) bitsLt_bf16_f32 : FVec Ideal S256x128 .bf16) = f3 at hf3 ⊢
  generalize (truncf .bf16 (extractStridedSlice S256x128 ![0, 128] Z slices_S256x256_o0_128_S256x128) bitsLt_bf16_f32 : FVec Ideal S256x128 .bf16) = g3 at hg3 ⊢
  -- the 768-term sum is one stretch of the last weights from row 1 on; cut it into the six blocks
  have hp : ∀ (i : Fin 6) (j : Fin 128) (k : Fin 768), k.val = 128 * i.val + j.val →
      concatenate S256x768 1 [⟨S256x128, v11⟩, ⟨S256x128, v32⟩, ⟨S256x128, f3⟩, ⟨S256x128, v12⟩, ⟨S256x128, v33⟩, ⟨S256x128, g3⟩]
        concatenates_S256x128_S256x128_S256x128_S256x128_S256x128_S256x128_S256x768_d1 (ix2 p k)
      = (![v11, v32, f3, v12, v33, g3] : Fin 6 → FVec Ideal S256x128 .bf16) i (ix2 p j) :=
    fun i j k hk => cat6_piece (![v11, v32, f3, v12, v33, g3] : Fin 6 → FVec Ideal S256x128 .bf16)
      concatenates_S256x128_S256x128_S256x128_S256x128_S256x128_S256x128_S256x768_d1 i p j k hk
  generalize concatenate S256x768 1 [⟨S256x128, v11⟩, ⟨S256x128, v32⟩, ⟨S256x128, f3⟩, ⟨S256x128, v12⟩, ⟨S256x128, v33⟩, ⟨S256x128, g3⟩]
        concatenates_S256x128_S256x128_S256x128_S256x128_S256x128_S256x128_S256x768_d1 = cat at hp ⊢
  show seg 1 (by decide) Wfc (fun k : Fin 768 => cat (ix2 p k)) 0 = _
  rw [seg_split 384 384 768 rfl, seg_split 256 128 384 rfl, seg_split 128 128 256 rfl, seg_split 256 128 384 rfl, seg_split 128 128 256 rfl]
  refine congrArg₂ (· + ·) (congrArg₂ (· + ·) (congrArg₂ (· + ·) ?_ ?_) ?_) (congrArg₂ (· + ·) (congrArg₂ (· + ·) ?_ ?_) ?_)
  · exact seg_congr _ _ _ (fun j => hp 0 j _ (by simp <;> omega)) _
  · exact seg_congr _ _ _ (fun j => hp 1 j _ (by simp <;> omega)) _
  · exact seg_congr _ _ _ (fun j => (hp 2 j _ (by simp <;> omega)).trans (hf3 j)) _
  · exact seg_congr _ _ _ (fun j => hp 3 j _ (by simp <;> omega)) _
  · exact seg_congr _ _ _ (fun j => hp 4 j _ (by simp <;> omega)) _
  · exact seg_congr _ _ _ (fun j => (hp 5 j _ (by simp <;> omega)).trans (hg3 j)) _

end Cert.KernelIdeal.PayValue

end
-- ==== Proof.KerRow.lean ====
/-
  One batch row through the whole kernel body: with every weight block the fused form of the original weights, entry
  (p, 0) of the body's result is the specification's forward pass of row `p` of the input block.
-/
import proofs.«150659_j90297392431134_2_alg».proof.Proof.KerPay

noncomputable section

namespace Cert.KernelIdeal.PayValue

open Cert.KernelIdeal Cert.KernelIdeal.Gen Idealize.ShloMosaic Idealize.ShloMosaic.ValueIdx Cert.PolySpec Cert.PolyOps

variable (b0 : EReal) (Wf1 Wg1 : Mat 65 128) (bf1 bg1 : Vct 128) (Wf2 Wg2 : Mat 16513 128) (bf2 bg2 : Vct 128)
  (Wf3 Wg3 : Mat 16641 128) (bf3 bg3 : Vct 128) (Wfc : Mat 769 1) (bfc : Vct 1)

/-- The third stage over the first two layers' features, at (p, q), with the features named. -/
theorem z3_row (v0 : Vec Ideal S256x64 .f32) (p q : Fin 256) :
    z3 (k0_pay3 (F := Ideal) v0 (fuseW 1 (by decide) Wf1 Wg1) (fuseB (by decide) b0 Wf1 Wg1 bf1 bg1))
        (k0_pay6 (F := Ideal) v0 (fuseW 1 (by decide) Wf1 Wg1) (fuseB (by decide) b0 Wf1 Wg1 bf1 bg1)
          (fuseW (J := 128) 1 (by decide) Wf2 Wg2) (fuseW (J := 16384) 129 (by decide) Wf2 Wg2) (fuseB (by decide) b0 Wf2 Wg2 bf2 bg2))
        (k0_pay8 (F := Ideal) v0 (fuseW 1 (by decide) Wf1 Wg1) (fuseB (by decide) b0 Wf1 Wg1 bf1 bg1)
          (fuseW (J := 128) 1 (by decide) Wf2 Wg2) (fuseW (J := 16384) 129 (by decide) Wf2 Wg2) (fuseB (by decide) b0 Wf2 Wg2 bf2 bg2))
        (k0_pay9 (F := Ideal) (fuseW (J := 128) 1 (by decide) Wf3 Wg3)) (fuseW (J := 128) 129 (by decide) Wf3 Wg3)
        (fuseW (J := 16384) 257 (by decide) Wf3 Wg3) (fuseB (by decide) b0 Wf3 Wg3 bf3 bg3) (ix2 p q)
      = (((∑ j : Fin 128, lay1 b0 Wf1 bf1 (fun d => v0 (ix2 p d)) j * fuseW (J := 128) 1 (by decide) Wf3 Wg3 (ix2 j q))
          + ∑ j : Fin 128, lay2 b0 Wf2 bf2 (lay1 b0 Wf1 bf1 (fun d => v0 (ix2 p d))) j * fuseW (J := 128) 129 (by decide) Wf3 Wg3 (ix2 j q))
          + ∑ k : Fin 16384, outer (lay1 b0 Wf1 bf1 (fun d => v0 (ix2 p d))) (lay2 b0 Wf2 bf2 (lay1 b0 Wf1 bf1 (fun d => v0 (ix2 p d)))) k
              * fuseW (J := 16384) 257 (by decide) Wf3 Wg3 (ix2 k q))
        + fuseB (by decide) b0 Wf3 Wg3 bf3 bg3 (ix2 (0 : Fin 1) q) := by
  rw [z3_apply]
  simp only [pay8_apply, f1_apply, f2_apply]
  unfold k0_pay9
  rw [shapeCast_self]

/-- The left half of the third stage is the f-branch of the third layer. -/
theorem f3_row (v0 : Vec Ideal S256x64 .f32) (p : Fin 256) (n : Fin 128) :
    z3 (k0_pay3 (F := Ideal) v0 (fuseW 1 (by decide) Wf1 Wg1) (fuseB (by decide) b0 Wf1 Wg1 bf1 bg1))
        (k0_pay6 (F := Ideal) v0 (fuseW 1 (by decide) Wf1 Wg1) (fuseB (by decide) b0 Wf1 Wg1 bf1 bg1)
          (fuseW (J := 128) 1 (by decide) Wf2 Wg2) (fuseW (J := 16384) 129 (by decide) Wf2 Wg2) (fuseB (by decide) b0 Wf2 Wg2 bf2 bg2))
        (k0_pay8 (F := Ideal) v0 (fuseW 1 (by decide) Wf1 Wg1) (fuseB (by decide) b0 Wf1 Wg1 bf1 bg1)
          (fuseW (J := 128) 1 (by decide) Wf2 Wg2) (fuseW (J := 16384) 129 (by decide) Wf2 Wg2) (fuseB (by decide) b0 Wf2 Wg2 bf2 bg2))
        (k0_pay9 (F := Ideal) (fuseW (J := 128) 1 (by decide) Wf3 Wg3)) (fuseW (J := 128) 129 (by decide) Wf3 Wg3)
        (fuseW (J := 16384) 257 (by decide) Wf3 Wg3) (fuseB (by decide) b0 Wf3 Wg3 bf3 bg3) (ix2 p ⟨n.val, by have := n.isLt; omega⟩)
      = lay3 b0 Wf3 bf3 (lay1 b0 Wf1 bf1 (fun d => v0 (ix2 p d))) (lay2 b0 Wf2 bf2 (lay1 b0 Wf1 bf1 (fun d => v0 (ix2 p d)))) n := by
  rw [z3_row, fused_col_left, fused_col_left, fused_col_left, fuseB_left]
  rfl

/-- The right half of the third stage is the g-branch of the third layer. -/
theorem g3_row (v0 : Vec Ideal S256x64 .f32) (p : Fin 256) (n : Fin 128) :
    z3 (k0_pay3 (F := Ideal) v0 (fuseW 1 (by decide) Wf1 Wg1) (fuseB (by decide) b0 Wf1 Wg1 bf1 bg1))
        (k0_pay6 (F := Ideal) v0 (fuseW 1 (by decide) Wf1 Wg1) (fuseB (by decide) b0 Wf1 Wg1 bf1 bg1)
          (fuseW (J := 128) 1 (by decide) Wf2 Wg2) (fuseW (J := 16384) 129 (by decide) Wf2 Wg2) (fuseB (by decide) b0 Wf2 Wg2 bf2 bg2))
        (k0_pay8 (F := Ideal) v0 (fuseW 1 (by decide) Wf1 Wg1) (fuseB (by decide) b0 Wf1 Wg1 bf1 bg1)
          (fuseW (J := 128) 1 (by decide) Wf2 Wg2) (fuseW (J := 16384) 129 (by decide) Wf2 Wg2) (fuseB (by decide) b0 Wf2 Wg2 bf2 bg2))
        (k0_pay9 (F := Ideal) (fuseW (J := 128) 1 (by decide) Wf3 Wg3)) (fuseW (J := 128) 129 (by decide) Wf3 Wg3)
        (fuseW (J := 16384) 257 (by decide) Wf3 Wg3) (fuseB (by decide) b0 Wf3 Wg3 bf3 bg3) (ix2 p ⟨128 + n.val, by have := n.isLt; omega⟩)
      = lay3 b0 Wg3 bg3 (lay1 b0 Wf1 bf1 (fun d => v0 (ix2 p d))) (lay2 b0 Wf2 bf2 (lay1 b0 Wf1 bf1 (fun d => v0 (ix2 p d)))) n := by
  rw [z3_row, fused_col_right, fused_col_right, fused_col_right, fuseB_right]
  rfl

/-- The folded bias of the projection as a one-entry block. -/
def bfcBlock : Mat 1 1 := fun _ => bias (by decide) b0 Wfc bfc 0

/-- THE ROW: entry (p, 0) of the body's result is the forward pass of row `p` of the input block. -/
theorem out_row (v0 : Vec Ideal S256x64 .f32) (p : Fin 256) :
    k0_pay1 (F := Ideal)
        (k0_pay3 (F := Ideal) v0 (fuseW 1 (by decide) Wf1 Wg1) (fuseB (by decide) b0 Wf1 Wg1 bf1 bg1))
        (k0_pay4 (F := Ideal) v0 (fuseW 1 (by decide) Wf1 Wg1) (fuseB (by decide) b0 Wf1 Wg1 bf1 bg1))
        (k0_pay6 (F := Ideal) v0 (fuseW 1 (by decide) Wf1 Wg1) (fuseB (by decide) b0 Wf1 Wg1 bf1 bg1)
          (fuseW (J := 128) 1 (by decide) Wf2 Wg2) (fuseW (J := 16384) 129 (by decide) Wf2 Wg2) (fuseB (by decide) b0 Wf2 Wg2 bf2 bg2))
        (k0_pay7 (F := Ideal) v0 (fuseW 1 (by decide) Wf1 Wg1) (fuseB (by decide) b0 Wf1 Wg1 bf1 bg1)
          (fuseW (J := 128) 1 (by decide) Wf2 Wg2) (fuseW (J := 16384) 129 (by decide) Wf2 Wg2) (fuseB (by decide) b0 Wf2 Wg2 bf2 bg2))
        (k0_pay8 (F := Ideal) v0 (fuseW 1 (by decide) Wf1 Wg1) (fuseB (by decide) b0 Wf1 Wg1 bf1 bg1)
          (fuseW (J := 128) 1 (by decide) Wf2 Wg2) (fuseW (J := 16384) 129 (by decide) Wf2 Wg2) (fuseB (by decide) b0 Wf2 Wg2 bf2 bg2))
        (k0_pay9 (F := Ideal) (fuseW (J := 128) 1 (by decide) Wf3 Wg3)) (fuseW (J := 128) 129 (by decide) Wf3 Wg3)
        (fuseW (J := 16384) 257 (by decide) Wf3 Wg3) (fuseB (by decide) b0 Wf3 Wg3 bf3 bg3) (wfcBlock Wfc) (bfcBlock b0 Wfc bfc)
        (ix2 p (0 : Fin 1))
      = out b0 Wf1 bf1 Wg1 bg1 Wf2 bf2 Wg2 bg2 Wf3 bf3 Wg3 bg3 Wfc bfc (fun d => v0 (ix2 p d)) := by
  rw [pay1_eq, proj6_apply]
  unfold out proj
  refine congrArg₂ (· + ·) (congrArg₂ (· + ·) (congrArg₂ (· + ·) (congrArg₂ (· + ·) ?_ ?_) ?_) (congrArg₂ (· + ·) (congrArg₂ (· + ·) ?_ ?_) ?_)) rfl
  · exact seg_congr 1 _ Wfc (fun j : Fin 128 => f1_apply b0 Wf1 Wg1 bf1 bg1 v0 p j) 0
  · exact seg_congr 129 _ Wfc (fun j : Fin 128 => f2_apply b0 Wf1 Wg1 bf1 bg1 Wf2 Wg2 bf2 bg2 v0 p j) 0
  · exact seg_congr 257 _ Wfc (fun j : Fin 128 => f3_row b0 Wf1 Wg1 bf1 bg1 Wf2 Wg2 bf2 bg2 Wf3 Wg3 bf3 bg3 v0 p j) 0
  · exact seg_congr 385 _ Wfc (fun j : Fin 128 => g1_apply b0 Wf1 Wg1 bf1 bg1 v0 p j) 0
  · exact seg_congr 513 _ Wfc (fun j : Fin 128 => g2_apply b0 Wf1 Wg1 bf1 bg1 Wf2 Wg2 bf2 bg2 v0 p j) 0
  · exact seg_congr 641 _ Wfc (fun j : Fin 128 => g3_row b0 Wf1 Wg1 bf1 bg1 Wf2 Wg2 bf2 bg2 Wf3 Wg3 bf3 bg3 v0 p j) 0

end Cert.KernelIdeal.PayValue

end
-- ==== Proof.KerWinA.lean ====
/-
  The kernel's weight blocks as the region finds them, I: the first layer's fused weights and fused bias row, as functions of the original weights.
-/
import proofs.«150659_j90297392431134_2_alg».proof.Proof.KerWin0
import proofs.«150659_j90297392431134_2_alg».proof.Proof.KerHostOps
import proofs.«150659_j90297392431134_2_alg».proof.Proof.KerRow

noncomputable section

namespace Cert.KernelIdeal.WinValue

open Cert.KernelIdeal Cert.KernelIdeal.Gen Idealize.ShloMosaic Idealize.ShloMosaic.TcCoe Idealize.SL.Sem Idealize.ShloMosaic.StableHlo
open Idealize.ShloMosaic.ValueIdx Cert.PolySpec Cert.PolyOps Cert.KernelIdeal.PayValue

variable (m : (ℓ : Loc nD τ sig) → Buf (Elt Ideal) ℓ) (c : Dev nD)

set_option maxHeartbeats 4000000 in
set_option maxRecDepth 8192 in
theorem win1 : (V m c main_v13 : S64x256.Idx → Ideal .bf16) = fuseW 1 (by decide) (m ((c : Thread nD τ).loc main_arg2)) (m ((c : Thread nD τ).loc main_arg4)) := by
  dsimp only [V, hostOps0]
  after_results
  exact fuse_slice1 1 (by decide) _ _ _ _ _

set_option maxHeartbeats 4000000 in
set_option maxRecDepth 8192 in
theorem win2 : (V m c main_v15 : S1x256.Idx → Ideal .f32) = fuseB (by decide) ((m ((c : Thread nD τ).loc main_arg1)) ix0) (m ((c : Thread nD τ).loc main_arg2)) (m ((c : Thread nD τ).loc main_arg4)) (m ((c : Thread nD τ).loc main_arg3)) (m ((c : Thread nD τ).loc main_arg5)) := by
  dsimp only [V, hostOps0]
  after_results
  exact fuse_bias (by decide) _ _ _ _ _ _ _ _ _ _

end Cert.KernelIdeal.WinValue

end
-- ==== Proof.KerWinB.lean ====
/-
  The kernel's weight blocks as the region finds them, II: the second and third layers' fused weight blocks and fused bias rows, as functions of the original weights.
-/
import proofs.«150659_j90297392431134_2_alg».proof.Proof.KerWin0
import proofs.«150659_j90297392431134_2_alg».proof.Proof.KerHostOps
import proofs.«150659_j90297392431134_2_alg».proof.Proof.KerRow

noncomputable section

namespace Cert.KernelIdeal.WinValue

open Cert.KernelIdeal Cert.KernelIdeal.Gen Idealize.ShloMosaic Idealize.ShloMosaic.TcCoe Idealize.SL.Sem Idealize.ShloMosaic.StableHlo
open Idealize.ShloMosaic.ValueIdx Cert.PolySpec Cert.PolyOps Cert.KernelIdeal.PayValue

variable (m : (ℓ : Loc nD τ sig) → Buf (Elt Ideal) ℓ) (c : Dev nD)

set_option maxHeartbeats 4000000 in
set_option maxRecDepth 8192 in
theorem win3 : (V m c main_v33 : S128x256.Idx → Ideal .bf16) = fuseW (J := 128) 1 (by decide) (m ((c : Thread nD τ).loc main_arg6)) (m ((c : Thread nD τ).loc main_arg8)) := by
  have hs : (hostOps0 : List (HloOp τ sig (Elt Ideal))) = hostOps0.take 16 ++ hostOps0.drop 16 := (List.take_append_drop 16 _).symm
  show after hostOps0 (fun b => m (c, b)) (Proc.devRef .tc main_v33) = _
  rw [hs, after_app]
  have h6 := pre_arg m c 16 main_arg6 nw6
  have h8 := pre_arg m c 16 main_arg8 nw8
  generalize after (hostOps0.take 16) (fun b => m (c, b)) = W at h6 h8 ⊢
  simp only [hostOps0, List.drop_succ_cons, List.drop_zero]
  after_results
  rw [h6, h8]
  exact fuse_slice2 1 0 (by decide) _ _ _ (by decide) (by decide) _ _ _

set_option maxHeartbeats 4000000 in
set_option maxRecDepth 8192 in
theorem win4 : (V m c main_v35 : S16384x256.Idx → Ideal .bf16) = fuseW (J := 16384) 129 (by decide) (m ((c : Thread nD τ).loc main_arg6)) (m ((c : Thread nD τ).loc main_arg8)) := by
  have hs : (hostOps0 : List (HloOp τ sig (Elt Ideal))) = hostOps0.take 16 ++ hostOps0.drop 16 := (List.take_append_drop 16 _).symm
  show after hostOps0 (fun b => m (c, b)) (Proc.devRef .tc main_v35) = _
  rw [hs, after_app]
  have h6 := pre_arg m c 16 main_arg6 nw6
  have h8 := pre_arg m c 16 main_arg8 nw8
  generalize after (hostOps0.take 16) (fun b => m (c, b)) = W at h6 h8 ⊢
  simp only [hostOps0, List.drop_succ_cons, List.drop_zero]
  after_results
  rw [h6, h8]
  exact fuse_slice2 1 128 (by decide) _ _ _ (by decide) (by decide) _ _ _

set_option maxHeartbeats 4000000 in
set_option maxRecDepth 8192 in
theorem win5 : (V m c main_v37 : S1x256.Idx → Ideal .f32) = fuseB (by decide) ((m ((c : Thread nD τ).loc main_arg1)) ix0) (m ((c : Thread nD τ).loc main_arg6)) (m ((c : Thread nD τ).loc main_arg8)) (m ((c : Thread nD τ).loc main_arg7)) (m ((c : Thread nD τ).loc main_arg9)) := by
  have hs : (hostOps0 : List (HloOp τ sig (Elt Ideal))) = hostOps0.take 16 ++ hostOps0.drop 16 := (List.take_append_drop 16 _).symm
  show after hostOps0 (fun b => m (c, b)) (Proc.devRef .tc main_v37) = _
  rw [hs, after_app]
  have h1 := pre_arg m c 16 main_arg1 nw1
  have h6 := pre_arg m c 16 main_arg6 nw6
  have h7 := pre_arg m c 16 main_arg7 nw7
  have h8 := pre_arg m c 16 main_arg8 nw8
  have h9 := pre_arg m c 16 main_arg9 nw9
  generalize after (hostOps0.take 16) (fun b => m (c, b)) = W at h1 h6 h7 h8 h9 ⊢
  simp only [hostOps0, List.drop_succ_cons, List.drop_zero]
  after_results
  rw [h1, h6, h7, h8, h9]
  exact fuse_bias (by decide) _ _ _ _ _ _ _ _ _ _

set_option maxHeartbeats 4000000 in
set_option maxRecDepth 8192 in
theorem win6 : (V m c main_v57 : S128x256.Idx → Ideal .bf16) = fuseW (J := 128) 1 (by decide) (m ((c : Thread nD τ).loc main_arg10)) (m ((c : Thread nD τ).loc main_arg12)) := by
  have hs : (hostOps0 : List (HloOp τ sig (Elt Ideal))) = hostOps0.take 38 ++ hostOps0.drop 38 := (List.take_append_drop 38 _).symm
  show after hostOps0 (fun b => m (c, b)) (Proc.devRef .tc main_v57) = _
  rw [hs, after_app]
  have h10 := pre_arg m c 38 main_arg10 nw10
  have h12 := pre_arg m c 38 main_arg12 nw12
  generalize after (hostOps0.take 38) (fun b => m (c, b)) = W at h10 h12 ⊢
  simp only [hostOps0, List.drop_succ_cons, List.drop_zero]
  after_results
  rw [h10, h12]
  exact fuse_slice2 1 0 (by decide) _ _ _ (by decide) (by decide) _ _ _

set_option maxHeartbeats 4000000 in
set_option maxRecDepth 8192 in
theorem win7 : (V m c main_v59 : S128x256.Idx → Ideal .bf16) = fuseW (J := 128) 129 (by decide) (m ((c : Thread nD τ).loc main_arg10)) (m ((c : Thread nD τ).loc main_arg12)) := by
  have hs : (hostOps0 : List (HloOp τ sig (Elt Ideal))) = hostOps0.take 38 ++ hostOps0.drop 38 := (List.take_append_drop 38 _).symm
  show after hostOps0 (fun b => m (c, b)) (Proc.devRef .tc main_v59) = _
  rw [hs, after_app]
  have h10 := pre_arg m c 38 main_arg10 nw10
  have h12 := pre_arg m c 38 main_arg12 nw12
  generalize after (hostOps0.take 38) (fun b => m (c, b)) = W at h10 h12 ⊢
  simp only [hostOps0, List.drop_succ_cons, List.drop_zero]
  after_results
  rw [h10, h12]
  exact fuse_slice2 1 128 (by decide) _ _ _ (by decide) (by decide) _ _ _

set_option maxHeartbeats 4000000 in
set_option maxRecDepth 8192 in
theorem win8 : (V m c main_v61 : S16384x256.Idx → Ideal .bf16) = fuseW (J := 16384) 257 (by decide) (m ((c : Thread nD τ).loc main_arg10)) (m ((c : Thread nD τ).loc main_arg12)) := by
  have hs : (hostOps0 : List (HloOp τ sig (Elt Ideal))) = hostOps0.take 38 ++ hostOps0.drop 38 := (List.take_append_drop 38 _).symm
  show after hostOps0 (fun b => m (c, b)) (Proc.devRef .tc main_v61) = _
  rw [hs, after_app]
  have h10 := pre_arg m c 38 main_arg10 nw10
  have h12 := pre_arg m c 38 main_arg12 nw12
  generalize after (hostOps0.take 38) (fun b => m (c, b)) = W at h10 h12 ⊢
  simp only [hostOps0, List.drop_succ_cons, List.drop_zero]
  after_results
  rw [h10, h12]
  exact fuse_slice2 1 256 (by decide) _ _ _ (by decide) (by decide) _ _ _

set_option maxHeartbeats 4000000 in
set_option maxRecDepth 8192 in
theorem win9 : (V m c main_v63 : S1x256.Idx → Ideal .f32) = fuseB (by decide) ((m ((c : Thread nD τ).loc main_arg1)) ix0) (m ((c : Thread nD τ).loc main_arg10)) (m ((c : Thread nD τ).loc main_arg12)) (m ((c : Thread nD τ).loc main_arg11)) (m ((c : Thread nD τ).loc main_arg13)) := by
  have hs : (hostOps0 : List (HloOp τ sig (Elt Ideal))) = hostOps0.take 38 ++ hostOps0.drop 38 := (List.take_append_drop 38 _).symm
  show after hostOps0 (fun b => m (c, b)) (Proc.devRef .tc main_v63) = _
  rw [hs, after_app]
  have h1 := pre_arg m c 38 main_arg1 nw1
  have h10 := pre_arg m c 38 main_arg10 nw10
  have h11 := pre_arg m c 38 main_arg11 nw11
  have h12 := pre_arg m c 38 main_arg12 nw12
  have h13 := pre_arg m c 38 main_arg13 nw13
  generalize after (hostOps0.take 38) (fun b => m (c, b)) = W at h1 h10 h11 h12 h13 ⊢
  simp only [hostOps0, List.drop_succ_cons, List.drop_zero]
  after_results
  rw [h1, h10, h11, h12, h13]
  exact fuse_bias (by decide) _ _ _ _ _ _ _ _ _ _

end Cert.KernelIdeal.WinValue

end
-- ==== Proof.KerWinC.lean ====
/-
  The kernel's weight blocks as the region finds them, III: the projection's weights and its folded bias, as functions of the original weights.
-/
import proofs.«150659_j90297392431134_2_alg».proof.Proof.KerWin0
import proofs.«150659_j90297392431134_2_alg».proof.Proof.KerHostOps
import proofs.«150659_j90297392431134_2_alg».proof.Proof.KerRow

noncomputable section

namespace Cert.KernelIdeal.WinValue

open Cert.KernelIdeal Cert.KernelIdeal.Gen Idealize.ShloMosaic Idealize.ShloMosaic.TcCoe Idealize.SL.Sem Idealize.ShloMosaic.StableHlo
open Idealize.ShloMosaic.ValueIdx Cert.PolySpec Cert.PolyOps Cert.KernelIdeal.PayValue

variable (m : (ℓ : Loc nD τ sig) → Buf (Elt Ideal) ℓ) (c : Dev nD)

/-- The projection's weights with row 0 cut off are the block the projection reads. -/
theorem wfc_slice (W : FVec Ideal S769x1 .f32) :
    (truncf .bf16 (extractStridedSlice S768x1 ![1, 0] W slices_S769x1_S768x1_1_0) bitsLt_bf16_f32 : FVec Ideal S768x1 .bf16) = wfcBlock W := by
  funext i
  obtain ⟨k, u, rfl⟩ : ∃ (k : Fin 768) (u : Fin 1), i = ix2 k u := ⟨i 0, i 1, eq_ix2 i⟩
  rw [truncf_apply, Cert.LibSlice2.slice2_apply 1 0 W _ k u (by have := k.isLt; omega) (by have := u.isLt; omega)]
  unfold wfcBlock
  exact congrArg W (congrArg₂ ix2 rfl (Fin.ext (Nat.zero_add _)))

/-- The projection's bias with the bias input times entry (0, 0) of its weights, as a one-entry block. -/
theorem bfc_fold (b0v : FVec Ideal S_ .f32) (W : FVec Ideal S769x1 .f32) (b : FVec Ideal S1 .f32) :
    shapeCast S1x1 (addf b (mulf (broadcastInDim S1 ![] bcast_S_S1 b0v) (shapeCast S1 (extractStridedSlice S1x1 ![0, 0] W slices_S769x1_S1x1_0_0) shapeCasts_S1x1_S1))) shapeCasts_S1_S1x1
      = bfcBlock (b0v ix0) W b := by
  funext i
  obtain ⟨u, v, rfl⟩ : ∃ (u : Fin 1) (v : Fin 1), i = ix2 u v := ⟨i 0, i 1, eq_ix2 i⟩
  have hu : u = 0 := Subsingleton.elim _ _
  have hv : v = 0 := Subsingleton.elim _ _
  subst hu hv
  rw [shapeCast_a_1a_apply, addf_apply, mulf_apply, shapeCast_1a_a_apply,
    Cert.LibSlice2.slice2_apply 0 0 W _ (0 : Fin 1) (0 : Fin 1) (by decide) (by decide),
    broadcastInDim_apply ![] bcast_S_S1 b0v (ix1 (0 : Fin 1)) ix0 (fun a => a.elim0)]
  rfl

set_option maxHeartbeats 4000000 in
set_option maxRecDepth 8192 in
theorem win10 : (V m c main_v65 : S768x1.Idx → Ideal .bf16) = wfcBlock (m ((c : Thread nD τ).loc main_arg14)) := by
  have hs : (hostOps0 : List (HloOp τ sig (Elt Ideal))) = hostOps0.take 64 ++ hostOps0.drop 64 := (List.take_append_drop 64 _).symm
  show after hostOps0 (fun b => m (c, b)) (Proc.devRef .tc main_v65) = _
  rw [hs, after_app]
  have h14 := pre_arg m c 64 main_arg14 nw14
  generalize after (hostOps0.take 64) (fun b => m (c, b)) = W at h14 ⊢
  simp only [hostOps0, List.drop_succ_cons, List.drop_zero]
  after_results
  rw [h14]
  exact wfc_slice _

set_option maxHeartbeats 4000000 in
set_option maxRecDepth 8192 in
theorem win11 : (V m c main_v71 : S1x1.Idx → Ideal .f32) = bfcBlock ((m ((c : Thread nD τ).loc main_arg1)) ix0) (m ((c : Thread nD τ).loc main_arg14)) (m ((c : Thread nD τ).loc main_arg15)) := by
  have hs : (hostOps0 : List (HloOp τ sig (Elt Ideal))) = hostOps0.take 64 ++ hostOps0.drop 64 := (List.take_append_drop 64 _).symm
  show after hostOps0 (fun b => m (c, b)) (Proc.devRef .tc main_v71) = _
  rw [hs, after_app]
  have h1 := pre_arg m c 64 main_arg1 nw1
  have h14 := pre_arg m c 64 main_arg14 nw14
  have h15 := pre_arg m c 64 main_arg15 nw15
  generalize after (hostOps0.take 64) (fun b => m (c, b)) = W at h1 h14 h15 ⊢
  simp only [hostOps0, List.drop_succ_cons, List.drop_zero]
  after_results
  rw [h1, h14, h15]
  exact bfc_fold _ _ _

end Cert.KernelIdeal.WinValue

end
-- ==== Proof.SpecArr.lean ====
/-
  The forward pass for the whole batch: entry (r, 0) of the result is the forward pass of row `r` of the input.
-/
import proofs.«150659_j90297392431134_2_alg».proof.Proof.Spec

noncomputable section

namespace Cert.PolySpec

open Idealize.ShloMosaic Idealize.ShloMosaic.ValueIdx

/-- The [8192, 1] result as one function of the sixteen argument arrays. -/
def outArr (x : Mat 8192 64) (b0 : (⟨0, ![]⟩ : Shape).Idx → EReal) (Wf1 : Mat 65 128) (bf1 : Vct 128) (Wg1 : Mat 65 128) (bg1 : Vct 128)
    (Wf2 : Mat 16513 128) (bf2 : Vct 128) (Wg2 : Mat 16513 128) (bg2 : Vct 128)
    (Wf3 : Mat 16641 128) (bf3 : Vct 128) (Wg3 : Mat 16641 128) (bg3 : Vct 128)
    (Wfc : Mat 769 1) (bfc : Vct 1) : Mat 8192 1 := fun i =>
  out (b0 ix0) Wf1 bf1 Wg1 bg1 Wf2 bf2 Wg2 bg2 Wf3 bf3 Wg3 bg3 Wfc bfc (fun d : Fin 64 => x (ix2 ⟨(i 0).val, idx2_lt0 i⟩ d))

end Cert.PolySpec

end
-- ==== Proof.KerValue.lean ====
/-
  From blocks to the array. The grid has 32 points; point t reads rows 256·t … 256·t+255 of the input and every weight
  block whole, and writes rows 256·t … 256·t+255 of the [8192, 1] result. Each written row is the forward pass of the
  input row it came from, and the 32 blocks cover the result, so the result array is the forward pass of the batch.
-/
import proofs.«150659_j90297392431134_2_alg».proof.Proof.Gen.KernelIdeal.Value
import proofs.«150659_j90297392431134_2_alg».proof.Proof.KerWinA
import proofs.«150659_j90297392431134_2_alg».proof.Proof.KerWinB
import proofs.«150659_j90297392431134_2_alg».proof.Proof.KerWinC
import proofs.«150659_j90297392431134_2_alg».proof.Proof.SpecArr
import Idealize.ShloMosaic.Lib.Pipeline.Value

set_option maxRecDepth 16384

noncomputable section

namespace Cert.KernelIdeal.ArrValue

open Cert.KernelIdeal Cert.KernelIdeal.Gen Idealize.ShloMosaic Idealize.ShloMosaic.TcCoe Idealize.SL.Sem
open Idealize.ShloMosaic.Pipeline (Dat)
open Idealize.ShloMosaic.ValueIdx Cert.PolySpec Cert.PolyOps Cert.KernelIdeal.PayValue Cert.KernelIdeal.WinValue

variable (m : (ℓ : Loc nD τ sig) → Buf (Elt Ideal) ℓ) (ρ : Dev nD → PrngReg) (c : Dev nD)

theorem hz : (![0, 0] : Fin 2 → Nat) = fun _ => 0 := funext fun a => by fin_cases a <;> rfl

/-- The printed index maps, decided over the 32 grid points: the input and the result move one block of rows per point,
    every weight block stays at the origin. -/
theorem idx_facts : ∀ t : Fin cfg0.N, win0_0.index t (0 : Fin 2) = t.val ∧ win0_0.index t (1 : Fin 2) = 0
    ∧ win0_12.index t (0 : Fin 2) = t.val ∧ win0_12.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

/-- Window 1 stages its whole array at every point: its block is the fused block. -/
theorem iblk1 (t : Fin cfg0.N) : iblk m c 1 t = fuseW 1 (by decide) (m ((c : Thread nD τ).loc main_arg2)) (m ((c : Thread nD τ).loc main_arg4)) := by
  have hI := (idx_facts t).2.2.2.2
  funext y
  refine (show iblk m c 1 t y = V m c main_v13 (((cfg0.win 1).blk t).view.emb y) from rfl).trans ?_
  refine (congrFun (win1 m c) _).trans (congrArg _ (funext fun a => Fin.ext ?_))
  match a with
  | ⟨0, _⟩ =>
    show win0_1.index t (0 : Fin 2) * 64 + 1 * (y 0).val = (y 0).val
    have e := hI.1
    rw [e]; omega
  | ⟨1, _⟩ =>
    show win0_1.index t (1 : Fin 2) * 256 + 1 * (y 1).val = (y 1).val
    have e := hI.2.1
    rw [e]; omega

/-- Window 2 stages its whole array at every point: its block is the fused block. -/
theorem iblk2 (t : Fin cfg0.N) : iblk m c 2 t = fuseB (by decide) ((m ((c : Thread nD τ).loc main_arg1)) ix0) (m ((c : Thread nD τ).loc main_arg2)) (m ((c : Thread nD τ).loc main_arg4)) (m ((c : Thread nD τ).loc main_arg3)) (m ((c : Thread nD τ).loc main_arg5)) := by
  have hI := (idx_facts t).2.2.2.2
  funext y
  refine (show iblk m c 2 t y = V m c main_v15 (((cfg0.win 2).blk t).view.emb y) from rfl).trans ?_
  refine (congrFun (win2 m c) _).trans (congrArg _ (funext fun a => Fin.ext ?_))
  match a with
  | ⟨0, _⟩ =>
    show win0_2.index t (0 : Fin 2) * 1 + 1 * (y 0).val = (y 0).val
    have e := hI.2.2.1
    rw [e]; omega
  | ⟨1, _⟩ =>
    show win0_2.index t (1 : Fin 2) * 256 + 1 * (y 1).val = (y 1).val
    have e := hI.2.2.2.1
    rw [e]; omega

/-- Window 3 stages its whole array at every point: its block is the fused block. -/
theorem iblk3 (t : Fin cfg0.N) : iblk m c 3 t = fuseW (J := 128) 1 (by decide) (m ((c : Thread nD τ).loc main_arg6)) (m ((c : Thread nD τ).loc main_arg8)) := by
  have hI := (idx_facts t).2.2.2.2
  funext y
  refine (show iblk m c 3 t y = V m c main_v33 (((cfg0.win 3).blk t).view.emb y) from rfl).trans ?_
  refine (congrFun (win3 m c) _).trans (congrArg _ (funext fun a => Fin.ext ?_))
  match a with
  | ⟨0, _⟩ =>
    show win0_3.index t (0 : Fin 2) * 128 + 1 * (y 0).val = (y 0).val
    have e := hI.2.2.2.2.1
    rw [e]; omega
  | ⟨1, _⟩ =>
    show win0_3.index t (1 : Fin 2) * 256 + 1 * (y 1).val = (y 1).val
    have e := hI.2.2.2.2.2.1
    rw [e]; omega

/-- Window 4 stages its whole array at every point: its block is the fused block. -/
theorem iblk4 (t : Fin cfg0.N) : iblk m c 4 t = fuseW (J := 16384) 129 (by decide) (m ((c : Thread nD τ).loc main_arg6)) (m ((c : Thread nD τ).loc main_arg8)) := by
  have hI := (idx_facts t).2.2.2.2
  funext y
  refine (show iblk m c 4 t y = V m c main_v35 (((cfg0.win 4).blk t).view.emb y) from rfl).trans ?_
  refine (congrFun (win4 m c) _).trans (congrArg _ (funext fun a => Fin.ext ?_))
  match a with
  | ⟨0, _⟩ =>
    show win0_4.index t (0 : Fin 2) * 16384 + 1 * (y 0).val = (y 0).val
    have e := hI.2.2.2.2.2.2.1
    rw [e]; omega
  | ⟨1, _⟩ =>
    show win0_4.index t (1 : Fin 2) * 256 + 1 * (y 1).val = (y 1).val
    have e := hI.2.2.2.2.2.2.2.1
    rw [e]; omega

/-- Window 5 stages its whole array at every point: its block is the fused block. -/
theorem iblk5 (t : Fin cfg0.N) : iblk m c 5 t = fuseB (by decide) ((m ((c : Thread nD τ).loc main_arg1)) ix0) (m ((c : Thread nD τ).loc main_arg6)) (m ((c : Thread nD τ).loc main_arg8)) (m ((c : Thread nD τ).loc main_arg7)) (m ((c : Thread nD τ).loc main_arg9)) := by
  have hI := (idx_facts t).2.2.2.2
  funext y
  refine (show iblk m c 5 t y = V m c main_v37 (((cfg0.win 5).blk t).view.emb y) from rfl).trans ?_
  refine (congrFun (win5 m c) _).trans (congrArg _ (funext fun a => Fin.ext ?_))
  match a with
  | ⟨0, _⟩ =>
    show win0_5.index t (0 : Fin 2) * 1 + 1 * (y 0).val = (y 0).val
    have e := hI.2.2.2.2.2.2.2.2.1
    rw [e]; omega
  | ⟨1, _⟩ =>
    show win0_5.index t (1 : Fin 2) * 256 + 1 * (y 1).val = (y 1).val
    have e := hI.2.2.2.2.2.2.2.2.2.1
    rw [e]; omega

/-- Window 6 stages its whole array at every point: its block is the fused block. -/
theorem iblk6 (t : Fin cfg0.N) : iblk m c 6 t = fuseW (J := 128) 1 (by decide) (m ((c : Thread nD τ).loc main_arg10)) (m ((c : Thread nD τ).loc main_arg12)) := by
  have hI := (idx_facts t).2.2.2.2
  funext y
  refine (show iblk m c 6 t y = V m c main_v57 (((cfg0.win 6).blk t).view.emb y) from rfl).trans ?_
  refine (congrFun (win6 m c) _).trans (congrArg _ (funext fun a => Fin.ext ?_))
  match a with
  | ⟨0, _⟩ =>
    show win0_6.index t (0 : Fin 2) * 128 + 1 * (y 0).val = (y 0).val
    have e := hI.2.2.2.2.2.2.2.2.2.2.1
    rw [e]; omega
  | ⟨1, _⟩ =>
    show win0_6.index t (1 : Fin 2) * 256 + 1 * (y 1).val = (y 1).val
    have e := hI.2.2.2.2.2.2.2.2.2.2.2.1
    rw [e]; omega

/-- Window 7 stages its whole array at every point: its block is the fused block. -/
theorem iblk7 (t : Fin cfg0.N) : iblk m c 7 t = fuseW (J := 128) 129 (by decide) (m ((c : Thread nD τ).loc main_arg10)) (m ((c : Thread nD τ).loc main_arg12)) := by
  have hI := (idx_facts t).2.2.2.2
  funext y
  refine (show iblk m c 7 t y = V m c main_v59 (((cfg0.win 7).blk t).view.emb y) from rfl).trans ?_
  refine (congrFun (win7 m c) _).trans (congrArg _ (funext fun a => Fin.ext ?_))
  match a with
  | ⟨0, _⟩ =>
    show win0_7.index t (0 : Fin 2) * 128 + 1 * (y 0).val = (y 0).val
    have e := hI.2.2.2.2.2.2.2.2.2.2.2.2.1
    rw [e]; omega
  | ⟨1, _⟩ =>
    show win0_7.index t (1 : Fin 2) * 256 + 1 * (y 1).val = (y 1).val
    have e := hI.2.2.2.2.2.2.2.2.2.2.2.2.2.1
    rw [e]; omega

/-- Window 8 stages its whole array at every point: its block is the fused block. -/
theorem iblk8 (t : Fin cfg0.N) : iblk m c 8 t = fuseW (J := 16384) 257 (by decide) (m ((c : Thread nD τ).loc main_arg10)) (m ((c : Thread nD τ).loc main_arg12)) := by
  have hI := (idx_facts t).2.2.2.2
  funext y
  refine (show iblk m c 8 t y = V m c main_v61 (((cfg0.win 8).blk t).view.emb y) from rfl).trans ?_
  refine (congrFun (win8 m c) _).trans (congrArg _ (funext fun a => Fin.ext ?_))
  match a with
  | ⟨0, _⟩ =>
    show win0_8.index t (0 : Fin 2) * 16384 + 1 * (y 0).val = (y 0).val
    have e := hI.2.2.2.2.2.2.2.2.2.2.2.2.2.2.1
    rw [e]; omega
  | ⟨1, _⟩ =>
    show win0_8.index t (1 : Fin 2) * 256 + 1 * (y 1).val = (y 1).val
    have e := hI.2.2.2.2.2.2.2.2.2.2.2.2.2.2.2.1
    rw [e]; omega

/-- Window 9 stages its whole array at every point: its block is the fused block. -/
theorem iblk9 (t : Fin cfg0.N) : iblk m c 9 t = fuseB (by decide) ((m ((c : Thread nD τ).loc main_arg1)) ix0) (m ((c : Thread nD τ).loc main_arg10)) (m ((c : Thread nD τ).loc main_arg12)) (m ((c : Thread nD τ).loc main_arg11)) (m ((c : Thread nD τ).loc main_arg13)) := by
  have hI := (idx_facts t).2.2.2.2
  funext y
  refine (show iblk m c 9 t y = V m c main_v63 (((cfg0.win 9).blk t).view.emb y) from rfl).trans ?_
  refine (congrFun (win9 m c) _).trans (congrArg _ (funext fun a => Fin.ext ?_))
  match a with
  | ⟨0, _⟩ =>
    show win0_9.index t (0 : Fin 2) * 1 + 1 * (y 0).val = (y 0).val
    have e := hI.2.2.2.2.2.2.2.2.2.2.2.2.2.2.2.2.1
    rw [e]; omega
  | ⟨1, _⟩ =>
    show win0_9.index t (1 : Fin 2) * 256 + 1 * (y 1).val = (y 1).val
    have e := hI.2.2.2.2.2.2.2.2.2.2.2.2.2.2.2.2.2.1
    rw [e]; omega

/-- Window 10 stages its whole array at every point: its block is the fused block. -/
theorem iblk10 (t : Fin cfg0.N) : iblk m c 10 t = wfcBlock (m ((c : Thread nD τ).loc main_arg14)) := by
  have hI := (idx_facts t).2.2.2.2
  funext y
  refine (show iblk m c 10 t y = V m c main_v65 (((cfg0.win 10).blk t).view.emb y) from rfl).trans ?_
  refine (congrFun (win10 m c) _).trans (congrArg _ (funext fun a => Fin.ext ?_))
  match a with
  | ⟨0, _⟩ =>
    show win0_10.index t (0 : Fin 2) * 768 + 1 * (y 0).val = (y 0).val
    have e := hI.2.2.2.2.2.2.2.2.2.2.2.2.2.2.2.2.2.2.1
    rw [e]; omega
  | ⟨1, _⟩ =>
    show win0_10.index t (1 : Fin 2) * 1 + 1 * (y 1).val = (y 1).val
    have e := hI.2.2.2.2.2.2.2.2.2.2.2.2.2.2.2.2.2.2.2.1
    rw [e]; omega

/-- Window 11 stages its whole array at every point: its block is the fused block. -/
theorem iblk11 (t : Fin cfg0.N) : iblk m c 11 t = bfcBlock ((m ((c : Thread nD τ).loc main_arg1)) ix0) (m ((c : Thread nD τ).loc main_arg14)) (m ((c : Thread nD τ).loc main_arg15)) := by
  have hI := (idx_facts t).2.2.2.2
  funext y
  refine (show iblk m c 11 t y = V m c main_v71 (((cfg0.win 11).blk t).view.emb y) from rfl).trans ?_
  refine (congrFun (win11 m c) _).trans (congrArg _ (funext fun a => Fin.ext ?_))
  match a with
  | ⟨0, _⟩ =>
    show win0_11.index t (0 : Fin 2) * 1 + 1 * (y 0).val = (y 0).val
    have e := hI.2.2.2.2.2.2.2.2.2.2.2.2.2.2.2.2.2.2.2.2.1
    rw [e]; omega
  | ⟨1, _⟩ =>
    show win0_11.index t (1 : Fin 2) * 1 + 1 * (y 1).val = (y 1).val
    have e := hI.2.2.2.2.2.2.2.2.2.2.2.2.2.2.2.2.2.2.2.2.2
    rw [e]; omega

/-- THE ROW with the blocks as variables: once each weight block is the fused block, entry (p, 0) of the body's result
    is the forward pass of row `p` of the input block. -/
theorem out_row' (b0 : EReal) (Wf1 Wg1 : Mat 65 128) (bf1 bg1 : Vct 128) (Wf2 Wg2 : Mat 16513 128) (bf2 bg2 : Vct 128)
    (Wf3 Wg3 : Mat 16641 128) (bf3 bg3 : Vct 128) (Wfc : Mat 769 1) (bfc : Vct 1)
    (x0 : Vec Ideal S256x64 .f32) (x1 : Vec Ideal S64x256 .bf16) (x2 : Vec Ideal S1x256 .f32) (x3 : Vec Ideal S128x256 .bf16)
    (x4 : Vec Ideal S16384x256 .bf16) (x5 : Vec Ideal S1x256 .f32) (x6 : Vec Ideal S128x256 .bf16) (x7 : Vec Ideal S128x256 .bf16)
    (x8 : Vec Ideal S16384x256 .bf16) (x9 : Vec Ideal S1x256 .f32) (x10 : Vec Ideal S768x1 .bf16) (x11 : Vec Ideal S1x1 .f32)
    (h1 : x1 = fuseW 1 (by decide) Wf1 Wg1) (h2 : x2 = fuseB (by decide) b0 Wf1 Wg1 bf1 bg1)
    (h3 : x3 = fuseW (J := 128) 1 (by decide) Wf2 Wg2) (h4 : x4 = fuseW (J := 16384) 129 (by decide) Wf2 Wg2)
    (h5 : x5 = fuseB (by decide) b0 Wf2 Wg2 bf2 bg2)
    (h6 : x6 = fuseW (J := 128) 1 (by decide) Wf3 Wg3) (h7 : x7 = fuseW (J := 128) 129 (by decide) Wf3 Wg3)
    (h8 : x8 = fuseW (J := 16384) 257 (by decide) Wf3 Wg3) (h9 : x9 = fuseB (by decide) b0 Wf3 Wg3 bf3 bg3)
    (h10 : x10 = wfcBlock Wfc) (h11 : x11 = bfcBlock b0 Wfc bfc) (p : Fin 256) :
    k0_pay1 (F := Ideal) (k0_pay3 x0 x1 x2) (k0_pay4 x0 x1 x2) (k0_pay6 x0 x1 x2 x3 x4 x5) (k0_pay7 x0 x1 x2 x3 x4 x5)
        (k0_pay8 x0 x1 x2 x3 x4 x5) (k0_pay9 x6) x7 x8 x9 x10 x11 (ix2 p (0 : Fin 1))
      = out b0 Wf1 bf1 Wg1 bg1 Wf2 bf2 Wg2 bg2 Wf3 bf3 Wg3 bg3 Wfc bfc (fun d => x0 (ix2 p d)) := by
  subst h1 h2 h3 h4 h5 h6 h7 h8 h9 h10 h11
  exact out_row b0 Wf1 Wg1 bf1 bg1 Wf2 Wg2 bf2 bg2 Wf3 Wg3 bf3 bg3 Wfc bfc x0 p

/-- WHAT POINT `t` WRITES BACK is block `t` of the batch's forward pass. -/
theorem flushed_eq (t : Fin cfg0.N) :
    (dats m 0 c).flushed 12 t = ((cfg0.win 12).blk t).view.read (Elt Ideal) (outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  rw [Cert.KernelIdeal.Value.flushed12]
  unfold out0_12
  rw [View.canon_unit_zero hz]
  simp only [View.ld_unit_zero (S := S256x64) hz, View.ld_unit_zero (S := S64x256) hz, View.ld_unit_zero (S := S1x256) hz,
    View.ld_unit_zero (S := S128x256) hz, View.ld_unit_zero (S := S16384x256) hz, View.ld_unit_zero (S := S768x1) hz,
    View.ld_unit_zero (S := S1x1) hz]
  obtain ⟨e0, e1, e2, e3, -⟩ := idx_facts t
  funext y
  obtain ⟨p, u, rfl⟩ : ∃ (p : Fin 256) (u : Fin 1), y = ix2 p u := ⟨y 0, y 1, eq_ix2 y⟩
  have hu : u = 0 := Subsingleton.elim _ _
  subst hu
  refine (out_row' ((m ((c : Thread nD τ).loc main_arg1)) ix0) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg8)) (m ((c : Thread nD τ).loc main_arg7)) (m ((c : Thread nD τ).loc main_arg9)) (m ((c : Thread nD τ).loc main_arg10)) (m ((c : Thread nD τ).loc main_arg12)) (m ((c : Thread nD τ).loc main_arg11)) (m ((c : Thread nD τ).loc main_arg13)) (m ((c : Thread nD τ).loc main_arg14)) (m ((c : Thread nD τ).loc main_arg15))
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t)
    (iblk1 m c t) (iblk2 m c t) (iblk3 m c t) (iblk4 m c t) (iblk5 m c t) (iblk6 m c t) (iblk7 m c t) (iblk8 m c t)
    (iblk9 m c t) (iblk10 m c t) (iblk11 m c t) p).trans ?_
  show _ = outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (((cfg0.win 12).blk t).view.emb (ix2 p (0 : Fin 1)))
  unfold outArr
  refine congrArg (out ((m ((c : Thread nD τ).loc main_arg1)) ix0) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (funext fun d => ?_)
  refine (show iblk m c 0 t (ix2 p d) = V m c main_arg0 (((cfg0.win 0).blk t).view.emb (ix2 p d)) from rfl).trans ?_
  rw [V_main_arg0]
  refine congrArg _ (funext fun a => Fin.ext ?_)
  match a with
  | ⟨0, _⟩ =>
    show win0_0.index t (0 : Fin 2) * 256 + 1 * p.val = win0_12.index t (0 : Fin 2) * 256 + 1 * p.val
    rw [e0, e2]
  | ⟨1, _⟩ =>
    show win0_0.index t (1 : Fin 2) * 64 + 1 * d.val = d.val
    rw [e1]; omega

/-- An index of the result is in point `t`'s block iff each coordinate is in the block's range on its axis. -/
theorem mem_blk (t : Fin cfg0.N) (i : S8192x1.Idx) :
    i ∈ ((cfg0.win 12).blk t).view.set ↔ ∀ a : Fin 2, win0_12.index t a * S256x1.size a ≤ (i a).val ∧ (i a).val < win0_12.index t a * S256x1.size a + S256x1.size a := by
  show i ∈ ((View.whole main_v72).slice (win0_12.rect t)).set ↔ _
  rw [View.set_slice_whole, Rect.mem_set_unit]
  exact Iff.rfl

/-- Row `r` of the result lies in the block of point `r / 256`. -/
theorem cover (i : S8192x1.Idx) : ∃ t : Fin cfg0.N, (cfg0.win 12).flush t = true ∧ i ∈ ((cfg0.win 12).blk t).view.set := by
  have hi0 : (i 0).val < 8192 := idx2_lt0 i
  have hi1 : (i 1).val < 1 := idx2_lt1 i
  refine ⟨⟨(i 0).val / 256, by show (i 0).val / 256 < 32; omega⟩, flush0_12 _, ?_⟩
  obtain ⟨-, -, e2, e3, -⟩ := idx_facts ⟨(i 0).val / 256, by show (i 0).val / 256 < 32; omega⟩
  rw [mem_blk]
  intro a
  match a with
  | ⟨0, _⟩ =>
    show win0_12.index _ (0 : Fin 2) * 256 ≤ (i 0).val ∧ (i 0).val < win0_12.index _ (0 : Fin 2) * 256 + 256
    rw [e2]
    show (i 0).val / 256 * 256 ≤ (i 0).val ∧ (i 0).val < (i 0).val / 256 * 256 + 256
    omega
  | ⟨1, _⟩ =>
    show win0_12.index _ (1 : Fin 2) * 1 ≤ (i 1).val ∧ (i 1).val < win0_12.index _ (1 : Fin 2) * 1 + 1
    rw [e3]
    omega

/-- THE ARRAY after the run is the forward pass of the batch. -/
theorem final : (dats m 0 c).arrAt 12 cfg0.N = outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  (dats m 0 c).arrAt_eq_of_cover 12 (outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (fun t _ => flushed_eq m c t) cover

/-- THE RUN, READ: every weakly fair execution of the kernel program terminates with the result array at the forward pass
    of the batch and the arguments unchanged. -/
theorem run : θ_run defs (onTc (τ := τ) (main (F := Ideal))) ⟨m, fun _ => 0, ρ⟩ fun r => ∀ c : Dev nD,
      r.2.mem ((c : Thread nD τ).loc main_v72) = outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1.trans (final m c), (h c).2⟩) (Cert.KernelIdeal.Value.run_blocks m ρ)

end Cert.KernelIdeal.ArrValue

end
-- ==== Proof.LibHostRows.lean ====
/-
  Host operations on rank-2 arrays read at an entry, over the extended reals: a plain matrix product
  (`dot_general` M×K by K×N) as the sum over the contracted coordinate; the `broadcast_in_dim` forms of a
  keep-dimensions reduction ([b]→[1,b], [1,b]→[a,b], [a]→[a,1], [a,1]→[a,b], scalar→any); a rank-3 array cut
  along its leading axis; and a host sum along the rows of a matrix as the initial value plus the row's sum.
-/
import proofs.«150659_j90297392431134_2_alg».proof.Proof.LibPlainDot
import Idealize.ShloMosaic.Lib.Pipeline.Value
import Idealize.ShloMosaic.Lib.ValueIdx
import Idealize.ShloMosaic.PureOps.Ideal.Laws

namespace Cert.LibHostRows

open Idealize.ShloMosaic Idealize.ShloMosaic.ValueIdx

variable {α : Type}

/-- Entry `(p, q)` of the host's plain product is `∑ c, lhs (p, c) · rhs (c, q)`. -/
theorem dotGeneral_plain_apply {φ₁ φ₂ : FTy} (M K N : ℕ) (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q) = ∑ c : Fin K, lhs (ix2 p c) * rhs (ix2 c q) := by
  show FloatOps.dotGeneral (DotDims.plain M K N) prec .single lhs rhs (ix2 p q) = _
  rw [Ideal.dotGeneral_apply, ← Equiv.sum_comp (contrEquiv1 (DotDims.plain M K N) K rfl rfl).symm]
  refine Finset.sum_congr rfl fun c _ => ?_
  rw [Cert.LibPlainDot.plain_lhsIdx, Cert.LibPlainDot.plain_rhsIdx]

/-- A vector `[b]` placed as the one row of `[1, b]` reads, at `(u, c)`, the vector's entry `c`. -/
theorem broadcastInDim_b_1b_apply {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ (![1] : Fin 1 → Fin 2) h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- A row `[1, b]` repeated down `[a, b]` reads, at `(p, c)`, the row's entry `c`. -/
theorem broadcastInDim_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` placed as the one column of `[a, 1]` reads, at `(p, u)`, the vector's entry `p`. -/
theorem broadcastInDim_a_a1_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ (![0] : Fin 1 → Fin 2) h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A column `[a, 1]` repeated along `[a, b]` reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A scalar spread over any shape reads the scalar everywhere. -/
theorem broadcastInDim_scalar_apply {t : Shape} (v : (⟨0, ![]⟩ : Shape).Idx → α)
    (h : (⟨0, ![]⟩ : Shape).BroadcastsInDim t (![] : Fin 0 → Fin t.rank)) (j : t.Idx) :
    broadcastInDim t (![] : Fin 0 → Fin t.rank) h v j = v ix0 :=
  broadcastInDim_apply _ h v j ix0 fun ax => ax.elim0

/-- A rank-3 array cut along its leading axis from `o` reads, at `(j, d, e)`, the source at `(k, d, e)` with `k = o + j`. -/
theorem slice3_axis0_apply {n0 n1 n2 m : ℕ} (o : ℕ) (X : (⟨3, ![n0, n1, n2]⟩ : Shape).Idx → α)
    (h : (⟨3, ![n0, n1, n2]⟩ : Shape).Slices ![o, 0, 0] ⟨3, ![m, n1, n2]⟩)
    (j : Fin m) (d : Fin n1) (e : Fin n2) (k : Fin n0) (hk : k.val = o + j.val) :
    extractStridedSlice ⟨3, ![m, n1, n2]⟩ ![o, 0, 0] X h (ix3 j d e) = X (ix3 k d e) :=
  extractStridedSlice_apply _ _ _ _ _ (fun ax => by
    match ax with
    | ⟨0, _⟩ => exact hk
    | ⟨1, _⟩ => exact (Nat.zero_add _).symm
    | ⟨2, _⟩ => exact (Nat.zero_add _).symm)

/-- The host's sum of a matrix along its rows, read at row `p`: the initial value plus the sum of the row. -/
theorem hostReduceAdd_rows_apply {φ : FTy} {a b : ℕ} (x : FVec Ideal ⟨2, ![a, b]⟩ φ) (init : (⟨0, ![]⟩ : Shape).Idx → Ideal φ)
    (h : (⟨2, ![a, b]⟩ : Shape).ReducesTo [1] ⟨1, ![a]⟩) (hu : 0 < (⟨0, ![]⟩ : Shape).numel) (p : Fin a) :
    Host.reduceAdd (F := Ideal) x init h hu (ix1 p) = init ix0 + ∑ k : Fin b, x (ix2 p k) := by
  show Ideal.hostReduceAdd h x (init (Shape.Idx.first hu)) (ix1 p) = _
  rw [Ideal.hostReduceAdd_single h ⟨h.1, Nat.one_pos, h.2⟩ x _ (ix1 p), eq_ix0 (Shape.Idx.first hu)]
  refine congrArg (init ix0 + ·) (Finset.sum_congr rfl fun k _ => congrArg x ?_)
  funext d
  match d with
  | ⟨0, _⟩ => rfl
  | ⟨1, _⟩ => rfl

end Cert.LibHostRows
-- ==== Proof.RefA.lean ====
/-
  One row of a matrix product over the extended reals, read as stretches of the weights.

  Row `p` of `A · W`, column `n`, is the stretch `Σ_k A[p,k] · W[k,n]` from row 0 of `W`; when the row of `A` is two pieces
  side by side, the stretch is the sum of the two pieces' stretches, the second starting further down `W` by the first
  piece's width. A bias vector placed as a row and repeated down the batch reads the vector's entry; the batched outer
  product of two 128-wide rows, flattened row-major, reads entry `k / 128` of the first times entry `k % 128` of the second.
  The last lemmas reorder sums in a commutative additive monoid: nothing here uses more than that and `1 · a = a`.
-/
import proofs.«150659_j90297392431134_2_alg».proof.Proof.Spec
import proofs.«150659_j90297392431134_2_alg».proof.Proof.LibHostRows
import proofs.«150659_j90297392431134_2_alg».proof.Proof.LibKerLayout
import Idealize.ShloMosaic.Lib.Pipeline.Value
import Idealize.ShloMosaic.Lib.IdealHost

noncomputable section

namespace Cert.ReferenceIdeal.RefValue

open Idealize.ShloMosaic Idealize.ShloMosaic.ValueIdx Cert.PolySpec

/-- Row `p` of the host's plain product, column `n`, is the stretch from row 0 of the weights against row `p` of the left operand. -/
theorem dot_seg (M K N : ℕ) (prec : Option ContractPrecision)
    (A : FVec Ideal ⟨2, ![M, K]⟩ .f32) (W : FVec Ideal ⟨2, ![K, N]⟩ .f32) (p : Fin M) (n : Fin N) :
    Host.dotGeneral (F := Ideal) (DotDims.plain M K N) prec A W (ix2 p n)
      = seg 0 (by omega) W (fun k : Fin K => A (ix2 p k)) n := by
  rw [Cert.LibHostRows.dotGeneral_plain_apply]
  unfold seg
  refine Finset.sum_congr rfl fun k _ => ?_
  refine congrArg (A (ix2 p k) * ·) (congrArg W (congrArg (ix2 · n) (Fin.ext ?_)))
  exact (Nat.zero_add _).symm

/-- A stretch against a row made of two pieces side by side is the stretch of the first piece plus, further down the
    weights by the first piece's width, the stretch of the second. -/
theorem seg_concat {B b1 b2 J K N : ℕ} (A1 : (⟨2, ![B, b1]⟩ : Shape).Idx → EReal) (A2 : (⟨2, ![B, b2]⟩ : Shape).Idx → EReal)
    (h : Shape.Concatenates [⟨2, ![B, b1]⟩, ⟨2, ![B, b2]⟩] ⟨2, ![B, J]⟩ (1 : Fin 2)) (hJ' : J = b1 + b2)
    (o o' : ℕ) (ho : o' = o + b1) (hJ : o + J ≤ K) (W : Mat K N) (p : Fin B) (n : Fin N) :
    seg o hJ W (fun k : Fin J => concatenate ⟨2, ![B, J]⟩ (1 : Fin 2) [⟨⟨2, ![B, b1]⟩, A1⟩, ⟨⟨2, ![B, b2]⟩, A2⟩] h (ix2 p k)) n
      = seg o (by omega) W (fun k : Fin b1 => A1 (ix2 p k)) n + seg o' (by omega) W (fun k : Fin b2 => A2 (ix2 p k)) n := by
  subst ho
  rw [seg_split b1 b2 J hJ']
  refine congrArg₂ (· + ·) (seg_congr _ _ W (fun j => ?_) n) (seg_congr _ _ W (fun j => ?_) n)
  · exact Cert.KernelIdeal.HostValue.concat2_d1_left A1 A2 h p ⟨j.val, by have := j.isLt; omega⟩ j.isLt
  · have hlt : (b1 + j.val) - b1 < b2 := by have := j.isLt; omega
    rw [Cert.KernelIdeal.HostValue.concat2_d1_right A1 A2 h p ⟨b1 + j.val, by have := j.isLt; omega⟩ (Nat.le_add_right _ _) hlt]
    exact congrArg A2 (congrArg (ix2 p ·) (Fin.ext (by show b1 + j.val - b1 = j.val; omega)))

/-- A bias vector placed as one row and repeated down the batch reads, at `(p, n)`, the vector's entry `n`. -/
theorem bias_row {α : Type} {B N : ℕ} (b : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![B, N]⟩ (![0, 1] : Fin 2 → Fin 2)) (p : Fin B) (n : Fin N) :
    broadcastInDim ⟨2, ![B, N]⟩ (![0, 1] : Fin 2 → Fin 2) h2 (broadcastInDim ⟨2, ![1, N]⟩ (![1] : Fin 1 → Fin 2) h1 b) (ix2 p n)
      = b (ix1 n) := by
  rw [Cert.LibHostRows.broadcastInDim_1b_ab_apply, Cert.LibHostRows.broadcastInDim_b_1b_apply]

/-- The batched outer product of two 128-wide rows, flattened row-major: entry `k` of row `p` is entry `k / 128` of the
    first row times entry `k % 128` of the second. -/
theorem outer_row {B : ℕ} (a b : FVec Ideal ⟨2, ![B, 128]⟩ .f32)
    (ha1 : (⟨2, ![B, 128]⟩ : Shape).BroadcastsInDim ⟨3, ![B, 128, 1]⟩ (![0, 1] : Fin 2 → Fin 3))
    (hb1 : (⟨2, ![B, 128]⟩ : Shape).BroadcastsInDim ⟨3, ![B, 1, 128]⟩ (![0, 2] : Fin 2 → Fin 3))
    (ha2 : (⟨3, ![B, 128, 1]⟩ : Shape).BroadcastsInDim ⟨3, ![B, 128, 128]⟩ (![0, 1, 2] : Fin 3 → Fin 3))
    (hb2 : (⟨3, ![B, 1, 128]⟩ : Shape).BroadcastsInDim ⟨3, ![B, 128, 128]⟩ (![0, 1, 2] : Fin 3 → Fin 3))
    (hc : (⟨3, ![B, 128, 128]⟩ : Shape).ShapeCasts ⟨2, ![B, 16384]⟩) (p : Fin B) (k : Fin 16384) :
    shapeCast ⟨2, ![B, 16384]⟩
        (mulf (broadcastInDim ⟨3, ![B, 128, 128]⟩ (![0, 1, 2] : Fin 3 → Fin 3) ha2
                (broadcastInDim ⟨3, ![B, 128, 1]⟩ (![0, 1] : Fin 2 → Fin 3) ha1 a))
              (broadcastInDim ⟨3, ![B, 128, 128]⟩ (![0, 1, 2] : Fin 3 → Fin 3) hb2
                (broadcastInDim ⟨3, ![B, 1, 128]⟩ (![0, 2] : Fin 2 → Fin 3) hb1 b))) hc (ix2 p k)
      = outer (fun j => a (ix2 p j)) (fun j => b (ix2 p j)) k := by
  have hk := k.isLt
  have hq : k.val / 128 < 128 := by omega
  have hr : k.val % 128 < 128 := Nat.mod_lt _ (by decide)
  rw [shapeCast_apply _ hc (ix2 p k) (ix3 p ⟨k.val / 128, hq⟩ ⟨k.val % 128, hr⟩)
    (by rw [Shape.rowMajor_val_three, Shape.rowMajor_val_two]
        show (p.val * 128 + k.val / 128) * 128 + k.val % 128 = p.val * 16384 + k.val
        omega)]
  rw [mulf_apply]
  rw [broadcastInDim_apply _ ha2 _ (ix3 p ⟨k.val / 128, hq⟩ ⟨k.val % 128, hr⟩) (ix3 p ⟨k.val / 128, hq⟩ (0 : Fin 1))
    (fun ax => by
      match ax with
      | ⟨0, _⟩ =>
        show p.val = if B = 1 then 0 else p.val
        split
        · have := p.isLt; omega
        · rfl
      | ⟨1, _⟩ => show k.val / 128 = if (128 : ℕ) = 1 then 0 else k.val / 128; rw [if_neg (by decide)]
      | ⟨2, _⟩ => show 0 = if (1 : ℕ) = 1 then 0 else k.val % 128; rw [if_pos rfl])]
  rw [broadcastInDim_apply _ ha1 _ (ix3 p ⟨k.val / 128, hq⟩ (0 : Fin 1)) (ix2 p ⟨k.val / 128, hq⟩)
    (fun ax => by
      match ax with
      | ⟨0, _⟩ =>
        show p.val = if B = 1 then 0 else p.val
        split
        · have := p.isLt; omega
        · rfl
      | ⟨1, _⟩ => show k.val / 128 = if (128 : ℕ) = 1 then 0 else k.val / 128; rw [if_neg (by decide)])]
  rw [broadcastInDim_apply _ hb2 _ (ix3 p ⟨k.val / 128, hq⟩ ⟨k.val % 128, hr⟩) (ix3 p (0 : Fin 1) ⟨k.val % 128, hr⟩)
    (fun ax => by
      match ax with
      | ⟨0, _⟩ =>
        show p.val = if B = 1 then 0 else p.val
        split
        · have := p.isLt; omega
        · rfl
      | ⟨1, _⟩ => show 0 = if (1 : ℕ) = 1 then 0 else k.val / 128; rw [if_pos rfl]
      | ⟨2, _⟩ => show k.val % 128 = if (128 : ℕ) = 1 then 0 else k.val % 128; rw [if_neg (by decide)])]
  rw [broadcastInDim_apply _ hb1 _ (ix3 p (0 : Fin 1) ⟨k.val % 128, hr⟩) (ix2 p ⟨k.val % 128, hr⟩)
    (fun ax => by
      match ax with
      | ⟨0, _⟩ =>
        show p.val = if B = 1 then 0 else p.val
        split
        · have := p.isLt; omega
        · rfl
      | ⟨1, _⟩ => show k.val % 128 = if (128 : ℕ) = 1 then 0 else k.val % 128; rw [if_neg (by decide)])]
  rfl

/-! ## Reordering sums -/

section Reorder
variable {M : Type*} [AddCommMonoid M]

/-- The bias column's term moves from the front of the product to the folded bias: one stretch. -/
theorem reorder1 (c s b : M) : (c + s) + b = s + (b + c) := by
  rw [add_comm c s, add_assoc, add_comm c b]

/-- … two stretches. -/
theorem reorder2 (c s₁ s₂ b : M) : ((c + s₁) + s₂) + b = (s₁ + s₂) + (b + c) := by
  rw [add_comm c s₁, add_assoc s₁ c s₂, add_comm c s₂, ← add_assoc s₁ s₂ c, add_assoc (s₁ + s₂) c b, add_comm c b]

/-- … three stretches. -/
theorem reorder3 (c s₁ s₂ s₃ b : M) : (((c + s₁) + s₂) + s₃) + b = ((s₁ + s₂) + s₃) + (b + c) := by
  rw [add_comm c s₁, add_assoc s₁ c s₂, add_comm c s₂, ← add_assoc s₁ s₂ c, add_assoc (s₁ + s₂) c s₃, add_comm c s₃,
    ← add_assoc (s₁ + s₂) s₃ c, add_assoc ((s₁ + s₂) + s₃) c b, add_comm c b]

/-- … three stretches followed by a block `g` that stays in place. -/
theorem reorder3g (c s₁ s₂ s₃ g b : M) : ((((c + s₁) + s₂) + s₃) + g) + b = (((s₁ + s₂) + s₃) + g) + (b + c) := by
  rw [add_comm c s₁, add_assoc s₁ c s₂, add_comm c s₂, ← add_assoc s₁ s₂ c, add_assoc (s₁ + s₂) c s₃, add_comm c s₃,
    ← add_assoc (s₁ + s₂) s₃ c, add_assoc ((s₁ + s₂) + s₃) c g, add_comm c g, ← add_assoc ((s₁ + s₂) + s₃) g c,
    add_assoc (((s₁ + s₂) + s₃) + g) c b, add_comm c b]

end Reorder

end Cert.ReferenceIdeal.RefValue

end
-- ==== Proof.RefB.lean ====
/-
  The reference's first two layers, one batch row at a time.

  Row `p` of the program: the bias column is `1 · b0 = b0`; the first layer's input row is `[b0, x_p]`, so its product
  with a weight matrix is `b0 · W[0,n]` plus the stretch of `x_p` from row 1, and adding the bias gives the specification's
  first layer. The second layer's input row is `[b0, f1, f1 ⊗ f1]`: the bias term, the stretch of `f1` from row 1, and the
  stretch of the flattened outer product from row 129.
-/
import proofs.«150659_j90297392431134_2_alg».proof.Proof.RefRead
import proofs.«150659_j90297392431134_2_alg».proof.Proof.RefA

noncomputable section

namespace Cert.ReferenceIdeal.RefValue

open Cert.ReferenceIdeal Cert.ReferenceIdeal.Read Idealize.ShloMosaic Idealize.ShloMosaic.ValueIdx Cert.PolySpec

variable (x0 : (⟨S8192x64, .f32⟩ : BufTy).Contents (Elt Ideal)) (x1 : (⟨S_, .f32⟩ : BufTy).Contents (Elt Ideal))
  (x2 : (⟨S65x128, .f32⟩ : BufTy).Contents (Elt Ideal)) (x3 : (⟨S128, .f32⟩ : BufTy).Contents (Elt Ideal)) (x4 : (⟨S65x128, .f32⟩ : BufTy).Contents (Elt Ideal)) (x5 : (⟨S128, .f32⟩ : BufTy).Contents (Elt Ideal))
  (x6 : (⟨S16513x128, .f32⟩ : BufTy).Contents (Elt Ideal)) (x7 : (⟨S128, .f32⟩ : BufTy).Contents (Elt Ideal)) (x8 : (⟨S16513x128, .f32⟩ : BufTy).Contents (Elt Ideal)) (x9 : (⟨S128, .f32⟩ : BufTy).Contents (Elt Ideal))
  (x10 : (⟨S16641x128, .f32⟩ : BufTy).Contents (Elt Ideal)) (x11 : (⟨S128, .f32⟩ : BufTy).Contents (Elt Ideal)) (x12 : (⟨S16641x128, .f32⟩ : BufTy).Contents (Elt Ideal)) (x13 : (⟨S128, .f32⟩ : BufTy).Contents (Elt Ideal))
  (x14 : (⟨S769x1, .f32⟩ : BufTy).Contents (Elt Ideal)) (x15 : (⟨S1, .f32⟩ : BufTy).Contents (Elt Ideal))

/-! ## The bias column -/

/-- The bias column holds `1 · b0 = b0` in every row. -/
theorem v2_at (p : Fin 8192) (j : Fin 1) : val_main_v2 (F := Ideal) x1 (ix2 p j) = x1 ix0 := by
  rw [val_main_v2_apply, val_main_v0_apply, val_main_v1_apply, val_main_cst_apply]
  show Ideal.ofBits .f32 0x3F800000#32 * x1 ix0 = x1 ix0
  rw [Ideal.ofBits_one_f32, one_mul]

/-! ## First layer -/

/-- A stretch against the first layer's input row `[b0, x_p]`. -/
theorem seg_v3 {K N : ℕ} (o o' : ℕ) (ho : o' = o + 1) (hJ : o + 65 ≤ K) (W : Mat K N) (p : Fin 8192) (n : Fin N) :
    seg o hJ W (fun k : Fin 65 => val_main_v3 (F := Ideal) x0 x1 (ix2 p k)) n
      = x1 ix0 * W (ix2 ⟨o, by omega⟩ n) + seg o' (by omega) W (fun d : Fin 64 => x0 (ix2 p d)) n := by
  refine (seg_concat (val_main_v2 (F := Ideal) x1) x0 _ rfl o o' ho hJ W p n).trans ?_
  rw [seg_one, v2_at]

/-- The first layer's nonvanishing branch is the specification's. -/
theorem v11_at (p : Fin 8192) (n : Fin 128) :
    val_main_v11 (F := Ideal) x0 x1 x2 x3 (ix2 p n) = lay1 (x1 ix0) x2 x3 (fun d : Fin 64 => x0 (ix2 p d)) n := by
  have hd : val_main_v8 (F := Ideal) x0 x1 x2 (ix2 p n)
      = seg 0 (by omega) x2 (fun k : Fin 65 => val_main_v3 (F := Ideal) x0 x1 (ix2 p k)) n :=
    dot_seg 8192 65 128 none (val_main_v3 (F := Ideal) x0 x1) x2 p n
  have hb : val_main_v10 (F := Ideal) x3 (ix2 p n) = x3 (ix1 n) := bias_row x3 _ _ p n
  rw [val_main_v11_apply]
  show val_main_v8 (F := Ideal) x0 x1 x2 (ix2 p n) + val_main_v10 (F := Ideal) x3 (ix2 p n) = _
  rw [hd, hb, seg_v3 x0 x1 0 1 rfl]
  exact reorder1 _ _ _

/-- The first layer's vanishing branch is the specification's. -/
theorem v7_at (p : Fin 8192) (n : Fin 128) :
    val_main_v7 (F := Ideal) x0 x1 x4 x5 (ix2 p n) = lay1 (x1 ix0) x4 x5 (fun d : Fin 64 => x0 (ix2 p d)) n := by
  have hd : val_main_v4 (F := Ideal) x0 x1 x4 (ix2 p n)
      = seg 0 (by omega) x4 (fun k : Fin 65 => val_main_v3 (F := Ideal) x0 x1 (ix2 p k)) n :=
    dot_seg 8192 65 128 none (val_main_v3 (F := Ideal) x0 x1) x4 p n
  have hb : val_main_v6 (F := Ideal) x5 (ix2 p n) = x5 (ix1 n) := bias_row x5 _ _ p n
  rw [val_main_v7_apply]
  show val_main_v4 (F := Ideal) x0 x1 x4 (ix2 p n) + val_main_v6 (F := Ideal) x5 (ix2 p n) = _
  rw [hd, hb, seg_v3 x0 x1 0 1 rfl]
  exact reorder1 _ _ _

/-! ## Second layer -/

/-- A stretch against the row `[b0, f1]`. -/
theorem seg_v12 {K N : ℕ} (o o' : ℕ) (ho : o' = o + 1) (hJ : o + 129 ≤ K) (W : Mat K N) (p : Fin 8192) (n : Fin N) :
    seg o hJ W (fun k : Fin 129 => val_main_v12 (F := Ideal) x0 x1 x2 x3 (ix2 p k)) n
      = x1 ix0 * W (ix2 ⟨o, by omega⟩ n)
        + seg o' (by omega) W (lay1 (x1 ix0) x2 x3 (fun d : Fin 64 => x0 (ix2 p d))) n := by
  refine (seg_concat (val_main_v2 (F := Ideal) x1) (val_main_v11 (F := Ideal) x0 x1 x2 x3) _ rfl o o' ho hJ W p n).trans ?_
  rw [seg_one, v2_at]
  exact congrArg (_ + ·) (seg_congr _ _ W (fun j => v11_at x0 x1 x2 x3 p j) n)

/-- The flattened outer product of the first layer's features with themselves. -/
theorem v18_at (p : Fin 8192) (k : Fin 16384) :
    val_main_v18 (F := Ideal) x0 x1 x2 x3 (ix2 p k)
      = outer (lay1 (x1 ix0) x2 x3 (fun d : Fin 64 => x0 (ix2 p d))) (lay1 (x1 ix0) x2 x3 (fun d : Fin 64 => x0 (ix2 p d))) k := by
  refine (outer_row (val_main_v11 (F := Ideal) x0 x1 x2 x3) (val_main_v11 (F := Ideal) x0 x1 x2 x3) _ _ _ _ _ p k).trans ?_
  rw [show (fun j : Fin 128 => val_main_v11 (F := Ideal) x0 x1 x2 x3 (ix2 p j))
      = lay1 (x1 ix0) x2 x3 (fun d : Fin 64 => x0 (ix2 p d)) from funext fun j => v11_at x0 x1 x2 x3 p j]

/-- A stretch against the second layer's input row `[b0, f1, f1 ⊗ f1]`. -/
theorem seg_v19 {K N : ℕ} (o o₁ o₂ : ℕ) (ho₁ : o₁ = o + 1) (ho₂ : o₂ = o + 129) (hJ : o + 16513 ≤ K) (W : Mat K N)
    (p : Fin 8192) (n : Fin N) :
    seg o hJ W (fun k : Fin 16513 => val_main_v19 (F := Ideal) x0 x1 x2 x3 (ix2 p k)) n
      = (x1 ix0 * W (ix2 ⟨o, by omega⟩ n)
          + seg o₁ (by omega) W (lay1 (x1 ix0) x2 x3 (fun d : Fin 64 => x0 (ix2 p d))) n)
        + seg o₂ (by omega) W (outer (lay1 (x1 ix0) x2 x3 (fun d : Fin 64 => x0 (ix2 p d)))
            (lay1 (x1 ix0) x2 x3 (fun d : Fin 64 => x0 (ix2 p d)))) n := by
  refine (seg_concat (val_main_v12 (F := Ideal) x0 x1 x2 x3) (val_main_v18 (F := Ideal) x0 x1 x2 x3) _ rfl o o₂ ho₂ hJ W p n).trans ?_
  rw [seg_v12 x0 x1 x2 x3 o o₁ ho₁]
  refine congrArg₂ (· + ·) rfl ?_
  exact seg_congr o₂ _ W (fun k : Fin 16384 => v18_at x0 x1 x2 x3 p k) n

/-- The second layer's nonvanishing branch is the specification's. -/
theorem v23_at (p : Fin 8192) (n : Fin 128) :
    val_main_v23 (F := Ideal) x0 x1 x2 x3 x6 x7 (ix2 p n)
      = lay2 (x1 ix0) x6 x7 (lay1 (x1 ix0) x2 x3 (fun d : Fin 64 => x0 (ix2 p d))) n := by
  have hd : val_main_v20 (F := Ideal) x0 x1 x2 x3 x6 (ix2 p n)
      = seg 0 (by omega) x6 (fun k : Fin 16513 => val_main_v19 (F := Ideal) x0 x1 x2 x3 (ix2 p k)) n :=
    dot_seg 8192 16513 128 none (val_main_v19 (F := Ideal) x0 x1 x2 x3) x6 p n
  have hb : val_main_v22 (F := Ideal) x7 (ix2 p n) = x7 (ix1 n) := bias_row x7 _ _ p n
  rw [val_main_v23_apply]
  show val_main_v20 (F := Ideal) x0 x1 x2 x3 x6 (ix2 p n) + val_main_v22 (F := Ideal) x7 (ix2 p n) = _
  rw [hd, hb, seg_v19 x0 x1 x2 x3 0 1 129 rfl rfl]
  exact reorder2 _ _ _ _

/-- The second layer's vanishing branch is the specification's. -/
theorem v27_at (p : Fin 8192) (n : Fin 128) :
    val_main_v27 (F := Ideal) x0 x1 x2 x3 x8 x9 (ix2 p n)
      = lay2 (x1 ix0) x8 x9 (lay1 (x1 ix0) x2 x3 (fun d : Fin 64 => x0 (ix2 p d))) n := by
  have hd : val_main_v24 (F := Ideal) x0 x1 x2 x3 x8 (ix2 p n)
      = seg 0 (by omega) x8 (fun k : Fin 16513 => val_main_v19 (F := Ideal) x0 x1 x2 x3 (ix2 p k)) n :=
    dot_seg 8192 16513 128 none (val_main_v19 (F := Ideal) x0 x1 x2 x3) x8 p n
  have hb : val_main_v26 (F := Ideal) x9 (ix2 p n) = x9 (ix1 n) := bias_row x9 _ _ p n
  rw [val_main_v27_apply]
  show val_main_v24 (F := Ideal) x0 x1 x2 x3 x8 (ix2 p n) + val_main_v26 (F := Ideal) x9 (ix2 p n) = _
  rw [hd, hb, seg_v19 x0 x1 x2 x3 0 1 129 rfl rfl]
  exact reorder2 _ _ _ _

end Cert.ReferenceIdeal.RefValue

end
-- ==== Proof.RefC.lean ====
/-
  The reference's third layer and its projection, one batch row at a time.

  With `f1`, `f2` the first two layers' features of row `p`, the third layer's input row is `[b0, f1, f2, f1 ⊗ f2]`: the bias
  term and the stretches from rows 1, 129 and 257. The projection reads the row `[b0, f1, f2, f3, g1, g2, g3]` against the one
  column of the last weights: the bias term and the stretches from rows 1, 129, 257, 385, 513 and 641. In each case the
  bias term joins the layer's bias, which is the specification's folded bias.
-/
import proofs.«150659_j90297392431134_2_alg».proof.Proof.RefB

noncomputable section

namespace Cert.ReferenceIdeal.RefValue

open Cert.ReferenceIdeal Cert.ReferenceIdeal.Read Idealize.ShloMosaic Idealize.ShloMosaic.ValueIdx Cert.PolySpec

variable (x0 : (⟨S8192x64, .f32⟩ : BufTy).Contents (Elt Ideal)) (x1 : (⟨S_, .f32⟩ : BufTy).Contents (Elt Ideal))
  (x2 : (⟨S65x128, .f32⟩ : BufTy).Contents (Elt Ideal)) (x3 : (⟨S128, .f32⟩ : BufTy).Contents (Elt Ideal)) (x4 : (⟨S65x128, .f32⟩ : BufTy).Contents (Elt Ideal)) (x5 : (⟨S128, .f32⟩ : BufTy).Contents (Elt Ideal))
  (x6 : (⟨S16513x128, .f32⟩ : BufTy).Contents (Elt Ideal)) (x7 : (⟨S128, .f32⟩ : BufTy).Contents (Elt Ideal)) (x8 : (⟨S16513x128, .f32⟩ : BufTy).Contents (Elt Ideal)) (x9 : (⟨S128, .f32⟩ : BufTy).Contents (Elt Ideal))
  (x10 : (⟨S16641x128, .f32⟩ : BufTy).Contents (Elt Ideal)) (x11 : (⟨S128, .f32⟩ : BufTy).Contents (Elt Ideal)) (x12 : (⟨S16641x128, .f32⟩ : BufTy).Contents (Elt Ideal)) (x13 : (⟨S128, .f32⟩ : BufTy).Contents (Elt Ideal))
  (x14 : (⟨S769x1, .f32⟩ : BufTy).Contents (Elt Ideal)) (x15 : (⟨S1, .f32⟩ : BufTy).Contents (Elt Ideal))

/-! ## Third layer -/

/-- A stretch against the row `[b0, f1, f2]`. -/
theorem seg_v28 {K N : ℕ} (o o₁ o₂ : ℕ) (ho₁ : o₁ = o + 1) (ho₂ : o₂ = o + 129) (hJ : o + 257 ≤ K) (W : Mat K N)
    (p : Fin 8192) (n : Fin N) :
    seg o hJ W (fun k : Fin 257 => val_main_v28 (F := Ideal) x0 x1 x2 x3 x6 x7 (ix2 p k)) n
      = (x1 ix0 * W (ix2 ⟨o, by omega⟩ n) + seg o₁ (by omega) W (lay1 (x1 ix0) x2 x3 (fun d : Fin 64 => x0 (ix2 p d))) n)
        + seg o₂ (by omega) W (lay2 (x1 ix0) x6 x7 (lay1 (x1 ix0) x2 x3 (fun d : Fin 64 => x0 (ix2 p d)))) n := by
  refine (seg_concat (val_main_v12 (F := Ideal) x0 x1 x2 x3) (val_main_v23 (F := Ideal) x0 x1 x2 x3 x6 x7) _ rfl o o₂ ho₂ hJ W p n).trans ?_
  rw [seg_v12 x0 x1 x2 x3 o o₁ ho₁]
  refine congrArg₂ (· + ·) rfl ?_
  exact seg_congr o₂ _ W (fun j : Fin 128 => v23_at x0 x1 x2 x3 x6 x7 p j) n

/-- A stretch against the row `[g1, g2]`. -/
theorem seg_v29 {K N : ℕ} (o o₂ : ℕ) (ho₂ : o₂ = o + 128) (hJ : o + 256 ≤ K) (W : Mat K N) (p : Fin 8192) (n : Fin N) :
    seg o hJ W (fun k : Fin 256 => val_main_v29 (F := Ideal) x0 x1 x2 x3 x4 x5 x8 x9 (ix2 p k)) n
      = seg o (by omega) W (lay1 (x1 ix0) x4 x5 (fun d : Fin 64 => x0 (ix2 p d))) n + seg o₂ (by omega) W (lay2 (x1 ix0) x8 x9 (lay1 (x1 ix0) x2 x3 (fun d : Fin 64 => x0 (ix2 p d)))) n := by
  refine (seg_concat (val_main_v7 (F := Ideal) x0 x1 x4 x5) (val_main_v27 (F := Ideal) x0 x1 x2 x3 x8 x9) _ rfl o o₂ ho₂ hJ W p n).trans ?_
  exact congrArg₂ (· + ·) (seg_congr o _ W (fun j : Fin 128 => v7_at x0 x1 x4 x5 p j) n)
    (seg_congr o₂ _ W (fun j : Fin 128 => v27_at x0 x1 x2 x3 x8 x9 p j) n)

/-- The flattened outer product of the first layer's features with the second's. -/
theorem v35_at (p : Fin 8192) (k : Fin 16384) :
    val_main_v35 (F := Ideal) x0 x1 x2 x3 x6 x7 (ix2 p k) = outer (lay1 (x1 ix0) x2 x3 (fun d : Fin 64 => x0 (ix2 p d))) (lay2 (x1 ix0) x6 x7 (lay1 (x1 ix0) x2 x3 (fun d : Fin 64 => x0 (ix2 p d)))) k := by
  refine (outer_row (val_main_v11 (F := Ideal) x0 x1 x2 x3) (val_main_v23 (F := Ideal) x0 x1 x2 x3 x6 x7) _ _ _ _ _ p k).trans ?_
  rw [show (fun j : Fin 128 => val_main_v11 (F := Ideal) x0 x1 x2 x3 (ix2 p j)) = (lay1 (x1 ix0) x2 x3 (fun d : Fin 64 => x0 (ix2 p d))) from
        funext fun j => v11_at x0 x1 x2 x3 p j,
    show (fun j : Fin 128 => val_main_v23 (F := Ideal) x0 x1 x2 x3 x6 x7 (ix2 p j)) = (lay2 (x1 ix0) x6 x7 (lay1 (x1 ix0) x2 x3 (fun d : Fin 64 => x0 (ix2 p d)))) from
        funext fun j => v23_at x0 x1 x2 x3 x6 x7 p j]

/-- A stretch against the third layer's input row `[b0, f1, f2, f1 ⊗ f2]`. -/
theorem seg_v36 {K N : ℕ} (o o₁ o₂ o₃ : ℕ) (ho₁ : o₁ = o + 1) (ho₂ : o₂ = o + 129) (ho₃ : o₃ = o + 257)
    (hJ : o + 16641 ≤ K) (W : Mat K N) (p : Fin 8192) (n : Fin N) :
    seg o hJ W (fun k : Fin 16641 => val_main_v36 (F := Ideal) x0 x1 x2 x3 x6 x7 (ix2 p k)) n
      = ((x1 ix0 * W (ix2 ⟨o, by omega⟩ n) + seg o₁ (by omega) W (lay1 (x1 ix0) x2 x3 (fun d : Fin 64 => x0 (ix2 p d))) n)
          + seg o₂ (by omega) W (lay2 (x1 ix0) x6 x7 (lay1 (x1 ix0) x2 x3 (fun d : Fin 64 => x0 (ix2 p d)))) n)
        + seg o₃ (by omega) W (outer (lay1 (x1 ix0) x2 x3 (fun d : Fin 64 => x0 (ix2 p d))) (lay2 (x1 ix0) x6 x7 (lay1 (x1 ix0) x2 x3 (fun d : Fin 64 => x0 (ix2 p d))))) n := by
  refine (seg_concat (val_main_v28 (F := Ideal) x0 x1 x2 x3 x6 x7) (val_main_v35 (F := Ideal) x0 x1 x2 x3 x6 x7) _ rfl o o₃ ho₃ hJ W p n).trans ?_
  rw [seg_v28 x0 x1 x2 x3 x6 x7 o o₁ o₂ ho₁ ho₂]
  refine congrArg₂ (· + ·) rfl ?_
  exact seg_congr o₃ _ W (fun k : Fin 16384 => v35_at x0 x1 x2 x3 x6 x7 p k) n

/-- The third layer's nonvanishing branch is the specification's. -/
theorem v40_at (p : Fin 8192) (n : Fin 128) :
    val_main_v40 (F := Ideal) x0 x1 x2 x3 x6 x7 x10 x11 (ix2 p n) = lay3 (x1 ix0) x10 x11 (lay1 (x1 ix0) x2 x3 (fun d : Fin 64 => x0 (ix2 p d))) (lay2 (x1 ix0) x6 x7 (lay1 (x1 ix0) x2 x3 (fun d : Fin 64 => x0 (ix2 p d)))) n := by
  have hd : val_main_v37 (F := Ideal) x0 x1 x2 x3 x6 x7 x10 (ix2 p n)
      = seg 0 (by omega) x10 (fun k : Fin 16641 => val_main_v36 (F := Ideal) x0 x1 x2 x3 x6 x7 (ix2 p k)) n :=
    dot_seg 8192 16641 128 none (val_main_v36 (F := Ideal) x0 x1 x2 x3 x6 x7) x10 p n
  have hb : val_main_v39 (F := Ideal) x11 (ix2 p n) = x11 (ix1 n) := bias_row x11 _ _ p n
  rw [val_main_v40_apply]
  show val_main_v37 (F := Ideal) x0 x1 x2 x3 x6 x7 x10 (ix2 p n) + val_main_v39 (F := Ideal) x11 (ix2 p n) = _
  rw [hd, hb, seg_v36 x0 x1 x2 x3 x6 x7 0 1 129 257 rfl rfl rfl]
  exact reorder3 _ _ _ _ _

/-- The third layer's vanishing branch is the specification's. -/
theorem v44_at (p : Fin 8192) (n : Fin 128) :
    val_main_v44 (F := Ideal) x0 x1 x2 x3 x6 x7 x12 x13 (ix2 p n) = lay3 (x1 ix0) x12 x13 (lay1 (x1 ix0) x2 x3 (fun d : Fin 64 => x0 (ix2 p d))) (lay2 (x1 ix0) x6 x7 (lay1 (x1 ix0) x2 x3 (fun d : Fin 64 => x0 (ix2 p d)))) n := by
  have hd : val_main_v41 (F := Ideal) x0 x1 x2 x3 x6 x7 x12 (ix2 p n)
      = seg 0 (by omega) x12 (fun k : Fin 16641 => val_main_v36 (F := Ideal) x0 x1 x2 x3 x6 x7 (ix2 p k)) n :=
    dot_seg 8192 16641 128 none (val_main_v36 (F := Ideal) x0 x1 x2 x3 x6 x7) x12 p n
  have hb : val_main_v43 (F := Ideal) x13 (ix2 p n) = x13 (ix1 n) := bias_row x13 _ _ p n
  rw [val_main_v44_apply]
  show val_main_v41 (F := Ideal) x0 x1 x2 x3 x6 x7 x12 (ix2 p n) + val_main_v43 (F := Ideal) x13 (ix2 p n) = _
  rw [hd, hb, seg_v36 x0 x1 x2 x3 x6 x7 0 1 129 257 rfl rfl rfl]
  exact reorder3 _ _ _ _ _

/-! ## The projection -/

/-- A stretch against the row `[b0, f1, f2, f3]`. -/
theorem seg_v45 {K N : ℕ} (o o₁ o₂ o₃ : ℕ) (ho₁ : o₁ = o + 1) (ho₂ : o₂ = o + 129) (ho₃ : o₃ = o + 257)
    (hJ : o + 385 ≤ K) (W : Mat K N) (p : Fin 8192) (n : Fin N) :
    seg o hJ W (fun k : Fin 385 => val_main_v45 (F := Ideal) x0 x1 x2 x3 x6 x7 x10 x11 (ix2 p k)) n
      = ((x1 ix0 * W (ix2 ⟨o, by omega⟩ n) + seg o₁ (by omega) W (lay1 (x1 ix0) x2 x3 (fun d : Fin 64 => x0 (ix2 p d))) n)
          + seg o₂ (by omega) W (lay2 (x1 ix0) x6 x7 (lay1 (x1 ix0) x2 x3 (fun d : Fin 64 => x0 (ix2 p d)))) n)
        + seg o₃ (by omega) W (lay3 (x1 ix0) x10 x11 (lay1 (x1 ix0) x2 x3 (fun d : Fin 64 => x0 (ix2 p d))) (lay2 (x1 ix0) x6 x7 (lay1 (x1 ix0) x2 x3 (fun d : Fin 64 => x0 (ix2 p d))))) n := by
  refine (seg_concat (val_main_v28 (F := Ideal) x0 x1 x2 x3 x6 x7) (val_main_v40 (F := Ideal) x0 x1 x2 x3 x6 x7 x10 x11) _ rfl o o₃ ho₃ hJ W p n).trans ?_
  rw [seg_v28 x0 x1 x2 x3 x6 x7 o o₁ o₂ ho₁ ho₂]
  refine congrArg₂ (· + ·) rfl ?_
  exact seg_congr o₃ _ W (fun j : Fin 128 => v40_at x0 x1 x2 x3 x6 x7 x10 x11 p j) n

/-- A stretch against the row `[g1, g2, g3]`. -/
theorem seg_v46 {K N : ℕ} (o o₂ o₃ : ℕ) (ho₂ : o₂ = o + 128) (ho₃ : o₃ = o + 256) (hJ : o + 384 ≤ K) (W : Mat K N)
    (p : Fin 8192) (n : Fin N) :
    seg o hJ W (fun k : Fin 384 => val_main_v46 (F := Ideal) x0 x1 x2 x3 x4 x5 x6 x7 x8 x9 x12 x13 (ix2 p k)) n
      = (seg o (by omega) W (lay1 (x1 ix0) x4 x5 (fun d : Fin 64 => x0 (ix2 p d))) n + seg o₂ (by omega) W (lay2 (x1 ix0) x8 x9 (lay1 (x1 ix0) x2 x3 (fun d : Fin 64 => x0 (ix2 p d)))) n)
        + seg o₃ (by omega) W (lay3 (x1 ix0) x12 x13 (lay1 (x1 ix0) x2 x3 (fun d : Fin 64 => x0 (ix2 p d))) (lay2 (x1 ix0) x6 x7 (lay1 (x1 ix0) x2 x3 (fun d : Fin 64 => x0 (ix2 p d))))) n := by
  refine (seg_concat (val_main_v29 (F := Ideal) x0 x1 x2 x3 x4 x5 x8 x9) (val_main_v44 (F := Ideal) x0 x1 x2 x3 x6 x7 x12 x13) _ rfl o o₃ ho₃ hJ W p n).trans ?_
  rw [seg_v29 x0 x1 x2 x3 x4 x5 x8 x9 o o₂ ho₂]
  refine congrArg₂ (· + ·) rfl ?_
  exact seg_congr o₃ _ W (fun j : Fin 128 => v44_at x0 x1 x2 x3 x6 x7 x12 x13 p j) n

/-- A stretch, from row 0, against the whole feature row `[b0, f1, f2, f3, g1, g2, g3]`. -/
theorem seg_v47 {K N : ℕ} (hJ : 0 + 769 ≤ K) (W : Mat K N) (p : Fin 8192) (n : Fin N) :
    seg 0 hJ W (fun k : Fin 769 => val_main_v47 (F := Ideal) x0 x1 x2 x3 x4 x5 x6 x7 x8 x9 x10 x11 x12 x13 (ix2 p k)) n
      = (((x1 ix0 * W (ix2 ⟨0, by omega⟩ n) + seg 1 (by omega) W (lay1 (x1 ix0) x2 x3 (fun d : Fin 64 => x0 (ix2 p d))) n)
            + seg 129 (by omega) W (lay2 (x1 ix0) x6 x7 (lay1 (x1 ix0) x2 x3 (fun d : Fin 64 => x0 (ix2 p d)))) n)
          + seg 257 (by omega) W (lay3 (x1 ix0) x10 x11 (lay1 (x1 ix0) x2 x3 (fun d : Fin 64 => x0 (ix2 p d))) (lay2 (x1 ix0) x6 x7 (lay1 (x1 ix0) x2 x3 (fun d : Fin 64 => x0 (ix2 p d))))) n)
        + ((seg 385 (by omega) W (lay1 (x1 ix0) x4 x5 (fun d : Fin 64 => x0 (ix2 p d))) n + seg 513 (by omega) W (lay2 (x1 ix0) x8 x9 (lay1 (x1 ix0) x2 x3 (fun d : Fin 64 => x0 (ix2 p d)))) n)
          + seg 641 (by omega) W (lay3 (x1 ix0) x12 x13 (lay1 (x1 ix0) x2 x3 (fun d : Fin 64 => x0 (ix2 p d))) (lay2 (x1 ix0) x6 x7 (lay1 (x1 ix0) x2 x3 (fun d : Fin 64 => x0 (ix2 p d))))) n) := by
  refine (seg_concat (val_main_v45 (F := Ideal) x0 x1 x2 x3 x6 x7 x10 x11)
    (val_main_v46 (F := Ideal) x0 x1 x2 x3 x4 x5 x6 x7 x8 x9 x12 x13) _ rfl 0 385 rfl hJ W p n).trans ?_
  rw [seg_v45 x0 x1 x2 x3 x6 x7 x10 x11 0 1 129 257 rfl rfl rfl,
    seg_v46 x0 x1 x2 x3 x4 x5 x6 x7 x8 x9 x12 x13 385 513 641 rfl rfl]

/-- The reference's result for batch row `p` is the specification's forward pass of that row. -/
theorem ref_eq (p : Fin 8192) :
    Cert.ReferenceIdeal.Read.val_main_v51 (F := Ideal) x0 x1 x2 x3 x4 x5 x6 x7 x8 x9 x10 x11 x12 x13 x14 x15 (ValueIdx.ix2 p (0 : Fin 1))
      = Cert.PolySpec.out (x1 (fun a => a.elim0)) x2 x3 x4 x5 x6 x7 x8 x9 x10 x11 x12 x13 x14 x15 (fun d : Fin 64 => x0 (ValueIdx.ix2 p d)) := by
  have hd : val_main_v48 (F := Ideal) x0 x1 x2 x3 x4 x5 x6 x7 x8 x9 x10 x11 x12 x13 x14 (ix2 p (0 : Fin 1))
      = seg 0 (by omega) x14 (fun k : Fin 769 => val_main_v47 (F := Ideal) x0 x1 x2 x3 x4 x5 x6 x7 x8 x9 x10 x11 x12 x13 (ix2 p k)) (0 : Fin 1) :=
    dot_seg 8192 769 1 none (val_main_v47 (F := Ideal) x0 x1 x2 x3 x4 x5 x6 x7 x8 x9 x10 x11 x12 x13) x14 p (0 : Fin 1)
  have hb : val_main_v50 (F := Ideal) x15 (ix2 p (0 : Fin 1)) = x15 (ix1 (0 : Fin 1)) := bias_row x15 _ _ p (0 : Fin 1)
  rw [val_main_v51_apply]
  show val_main_v48 (F := Ideal) x0 x1 x2 x3 x4 x5 x6 x7 x8 x9 x10 x11 x12 x13 x14 (ix2 p (0 : Fin 1))
      + val_main_v50 (F := Ideal) x15 (ix2 p (0 : Fin 1)) = _
  rw [hd, hb, seg_v47]
  exact reorder3g _ _ _ _ _ _

end Cert.ReferenceIdeal.RefValue

end
-- ==== Proof.RefSide.lean ====
/-
  The reference side of the value proof: for every batch row, the reference program's result is the common
  specification's forward pass of that row (`Cert.ReferenceIdeal.RefValue.ref_eq`). The row lemmas are in RefA (one row of
  a product as stretches of the weights), the layers in RefB (first and second) and RefC (third layer and projection).
-/
import proofs.«150659_j90297392431134_2_alg».proof.Proof.RefC
-- ==== Proof.RefArr.lean ====
/-
  The reference's result array is the forward pass of the batch: its entry (r, 0) is the forward pass of row `r`.
-/
import proofs.«150659_j90297392431134_2_alg».proof.Proof.RefSide
import proofs.«150659_j90297392431134_2_alg».proof.Proof.SpecArr

noncomputable section

namespace Cert.ReferenceIdeal.RefValue

open Cert.ReferenceIdeal Idealize.ShloMosaic Idealize.ShloMosaic.ValueIdx Cert.PolySpec

/-- The last stage of the reference, as an array, is `outArr` of the sixteen arguments. -/
theorem ref_arr (x0 : (⟨S8192x64, .f32⟩ : BufTy).Contents (Elt Ideal)) (x1 : (⟨S_, .f32⟩ : BufTy).Contents (Elt Ideal))
    (x2 : (⟨S65x128, .f32⟩ : BufTy).Contents (Elt Ideal)) (x3 : (⟨S128, .f32⟩ : BufTy).Contents (Elt Ideal))
    (x4 : (⟨S65x128, .f32⟩ : BufTy).Contents (Elt Ideal)) (x5 : (⟨S128, .f32⟩ : BufTy).Contents (Elt Ideal))
    (x6 : (⟨S16513x128, .f32⟩ : BufTy).Contents (Elt Ideal)) (x7 : (⟨S128, .f32⟩ : BufTy).Contents (Elt Ideal))
    (x8 : (⟨S16513x128, .f32⟩ : BufTy).Contents (Elt Ideal)) (x9 : (⟨S128, .f32⟩ : BufTy).Contents (Elt Ideal))
    (x10 : (⟨S16641x128, .f32⟩ : BufTy).Contents (Elt Ideal)) (x11 : (⟨S128, .f32⟩ : BufTy).Contents (Elt Ideal))
    (x12 : (⟨S16641x128, .f32⟩ : BufTy).Contents (Elt Ideal)) (x13 : (⟨S128, .f32⟩ : BufTy).Contents (Elt Ideal))
    (x14 : (⟨S769x1, .f32⟩ : BufTy).Contents (Elt Ideal)) (x15 : (⟨S1, .f32⟩ : BufTy).Contents (Elt Ideal)) :
    Cert.ReferenceIdeal.Read.val_main_v51 (F := Ideal) x0 x1 x2 x3 x4 x5 x6 x7 x8 x9 x10 x11 x12 x13 x14 x15 = outArr x0 x1 x2 x3 x4 x5 x6 x7 x8 x9 x10 x11 x12 x13 x14 x15 := by
  funext i
  obtain ⟨p, u, rfl⟩ : ∃ (p : Fin 8192) (u : Fin 1), i = ix2 p u := ⟨i 0, i 1, eq_ix2 i⟩
  have hu : u = 0 := Subsingleton.elim _ _
  subst hu
  exact ref_eq x0 x1 x2 x3 x4 x5 x6 x7 x8 x9 x10 x11 x12 x13 x14 x15 p

end Cert.ReferenceIdeal.RefValue

end
-- ==== Proof.RefRun.lean ====
/- The run of the reference program `ReferenceIdeal`, whose @main is a straight line of 53 host operations on the
   buffers `main_cst`, `main_v0` … `main_v51` from the arguments `main_arg0` … `main_arg15`.
   `run`: on every device, for any float values, from any memory with zero counters, every weakly fair execution of
   @main terminates with the result buffer `main_v51` at `Read.val_main_v51` of the sixteen arguments' launch contents
   and with the arguments unchanged. `Read.val_main_vN` is the N-th stage as a function of the arguments: the N-th
   operation applied to the earlier stages' values, so a stage that several operations read is shared by name.
   The contents after a line of operations is the fold `after` of the operations' results over the contents before
   it, and the contents after two lines in turn is the second's fold from the first's (`after_append'`). The line is cut
   into four stretches, at points where few buffers are still to be read: after the first `main_v2`, `main_v7`,
   `main_v11`; after the second `main_v12`, `main_v23`, `main_v27`, `main_v7`, `main_v11`; after the third `main_v28`,
   `main_v29`, `main_v40`, `main_v44`; and the arguments not yet read. For each stretch (`after_ops1` … `after_ops4`): from
   ANY contents `W` that hold the earlier stages' values at the buffers still to be read, the contents after the
   stretch hold the next stages' values there. In such a statement an earlier stage is the one term `W ↑main_vN` however
   many operations read it, so each conjunct is the stretch's own operations composed over those terms, equal to the
   stage's definition by unfolding it. `after_ops_main_v51` chains the four from any contents, and `run` takes it at
   the launch contents. -/
import proofs.«150659_j90297392431134_2_alg».proof.Proof.Gen.ReferenceIdeal
import proofs.«150659_j90297392431134_2_alg».proof.Proof.RefRead
import Idealize.ShloMosaic.Lib.StableHlo.Run

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

/-- @main's 53 operations, in order. -/
abbrev ops : List (HloOp τ sig (Elt F)) :=
  [ nullary main_cst (constant S_ .f32 0x3F800000#32),
    unary main_cst main_v0 (broadcastInDim S8192x1 ![] bcast_S_S8192x1 : (⟨S_, .f32⟩ : BufTy).Contents (Elt F) → (⟨S8192x1, .f32⟩ : BufTy).Contents (Elt F)),
    unary main_arg1 main_v1 (broadcastInDim S8192x1 ![] bcast_S_S8192x1 : (⟨S_, .f32⟩ : BufTy).Contents (Elt F) → (⟨S8192x1, .f32⟩ : BufTy).Contents (Elt F)),
    binary main_v0 main_v1 main_v2 (mulf : (⟨S8192x1, .f32⟩ : BufTy).Contents (Elt F) → (⟨S8192x1, .f32⟩ : BufTy).Contents (Elt F) → (⟨S8192x1, .f32⟩ : BufTy).Contents (Elt F)),
    binary main_v2 main_arg0 main_v3 ((fun a b => concatenate S8192x65 1 [⟨S8192x1, a⟩, ⟨S8192x64, b⟩] concatenates_S8192x1_S8192x64_S8192x65_d1) : (⟨S8192x1, .f32⟩ : BufTy).Contents (Elt F) → (⟨S8192x64, .f32⟩ : BufTy).Contents (Elt F) → (⟨S8192x65, .f32⟩ : BufTy).Contents (Elt F)),
    binary main_v3 main_arg4 main_v4 ((fun l r => Host.dotGeneral dot_S8192x65_S65x128_S8192x128_1_0_0_1_n_n none l r) : (⟨S8192x65, .f32⟩ : BufTy).Contents (Elt F) → (⟨S65x128, .f32⟩ : BufTy).Contents (Elt F) → (⟨S8192x128, .f32⟩ : BufTy).Contents (Elt F)),
    unary main_arg5 main_v5 (broadcastInDim S1x128 ![1] bcast_S128_S1x128_1 : (⟨S128, .f32⟩ : BufTy).Contents (Elt F) → (⟨S1x128, .f32⟩ : BufTy).Contents (Elt F)),
    unary main_v5 main_v6 (broadcastInDim S8192x128 ![0, 1] bcast_S1x128_S8192x128_0_1 : (⟨S1x128, .f32⟩ : BufTy).Contents (Elt F) → (⟨S8192x128, .f32⟩ : BufTy).Contents (Elt F)),
    binary main_v4 main_v6 main_v7 (addf : (⟨S8192x128, .f32⟩ : BufTy).Contents (Elt F) → (⟨S8192x128, .f32⟩ : BufTy).Contents (Elt F) → (⟨S8192x128, .f32⟩ : BufTy).Contents (Elt F)),
    binary main_v3 main_arg2 main_v8 ((fun l r => Host.dotGeneral dot_S8192x65_S65x128_S8192x128_1_0_0_1_n_n none l r) : (⟨S8192x65, .f32⟩ : BufTy).Contents (Elt F) → (⟨S65x128, .f32⟩ : BufTy).Contents (Elt F) → (⟨S8192x128, .f32⟩ : BufTy).Contents (Elt F)),
    unary main_arg3 main_v9 (broadcastInDim S1x128 ![1] bcast_S128_S1x128_1 : (⟨S128, .f32⟩ : BufTy).Contents (Elt F) → (⟨S1x128, .f32⟩ : BufTy).Contents (Elt F)),
    unary main_v9 main_v10 (broadcastInDim S8192x128 ![0, 1] bcast_S1x128_S8192x128_0_1 : (⟨S1x128, .f32⟩ : BufTy).Contents (Elt F) → (⟨S8192x128, .f32⟩ : BufTy).Contents (Elt F)),
    binary main_v8 main_v10 main_v11 (addf : (⟨S8192x128, .f32⟩ : BufTy).Contents (Elt F) → (⟨S8192x128, .f32⟩ : BufTy).Contents (Elt F) → (⟨S8192x128, .f32⟩ : BufTy).Contents (Elt F)),
    binary main_v2 main_v11 main_v12 ((fun a b => concatenate S8192x129 1 [⟨S8192x1, a⟩, ⟨S8192x128, b⟩] concatenates_S8192x1_S8192x128_S8192x129_d1) : (⟨S8192x1, .f32⟩ : BufTy).Contents (Elt F) → (⟨S8192x128, .f32⟩ : BufTy).Contents (Elt F) → (⟨S8192x129, .f32⟩ : BufTy).Contents (Elt F)),
    unary main_v11 main_v13 (broadcastInDim S8192x128x1 ![0, 1] bcast_S8192x128_S8192x128x1_0_1 : (⟨S8192x128, .f32⟩ : BufTy).Contents (Elt F) → (⟨S8192x128x1, .f32⟩ : BufTy).Contents (Elt F)),
    unary main_v11 main_v14 (broadcastInDim S8192x1x128 ![0, 2] bcast_S8192x128_S8192x1x128_0_2 : (⟨S8192x128, .f32⟩ : BufTy).Contents (Elt F) → (⟨S8192x1x128, .f32⟩ : BufTy).Contents (Elt F)),
    unary main_v13 main_v15 (broadcastInDim S8192x128x128 ![0, 1, 2] bcast_S8192x128x1_S8192x128x128_0_1_2 : (⟨S8192x128x1, .f32⟩ : BufTy).Contents (Elt F) → (⟨S8192x128x128, .f32⟩ : BufTy).Contents (Elt F)),
    unary main_v14 main_v16 (broadcastInDim S8192x128x128 ![0, 1, 2] bcast_S8192x1x128_S8192x128x128_0_1_2 : (⟨S8192x1x128, .f32⟩ : BufTy).Contents (Elt F) → (⟨S8192x128x128, .f32⟩ : BufTy).Contents (Elt F)),
    binary main_v15 main_v16 main_v17 (mulf : (⟨S8192x128x128, .f32⟩ : BufTy).Contents (Elt F) → (⟨S8192x128x128, .f32⟩ : BufTy).Contents (Elt F) → (⟨S8192x128x128, .f32⟩ : BufTy).Contents (Elt F)),
    reshape main_v17 main_v18 rfl shapeCasts_S8192x128x128_S8192x16384,
    binary main_v12 main_v18 main_v19 ((fun a b => concatenate S8192x16513 1 [⟨S8192x129, a⟩, ⟨S8192x16384, b⟩] concatenates_S8192x129_S8192x16384_S8192x16513_d1) : (⟨S8192x129, .f32⟩ : BufTy).Contents (Elt F) → (⟨S8192x16384, .f32⟩ : BufTy).Contents (Elt F) → (⟨S8192x16513, .f32⟩ : BufTy).Contents (Elt F)),
    binary main_v19 main_arg6 main_v20 ((fun l r => Host.dotGeneral dot_S8192x16513_S16513x128_S8192x128_1_0_0_1_n_n none l r) : (⟨S8192x16513, .f32⟩ : BufTy).Contents (Elt F) → (⟨S16513x128, .f32⟩ : BufTy).Contents (Elt F) → (⟨S8192x128, .f32⟩ : BufTy).Contents (Elt F)),
    unary main_arg7 main_v21 (broadcastInDim S1x128 ![1] bcast_S128_S1x128_1 : (⟨S128, .f32⟩ : BufTy).Contents (Elt F) → (⟨S1x128, .f32⟩ : BufTy).Contents (Elt F)),
    unary main_v21 main_v22 (broadcastInDim S8192x128 ![0, 1] bcast_S1x128_S8192x128_0_1 : (⟨S1x128, .f32⟩ : BufTy).Contents (Elt F) → (⟨S8192x128, .f32⟩ : BufTy).Contents (Elt F)),
    binary main_v20 main_v22 main_v23 (addf : (⟨S8192x128, .f32⟩ : BufTy).Contents (Elt F) → (⟨S8192x128, .f32⟩ : BufTy).Contents (Elt F) → (⟨S8192x128, .f32⟩ : BufTy).Contents (Elt F)),
    binary main_v19 main_arg8 main_v24 ((fun l r => Host.dotGeneral dot_S8192x16513_S16513x128_S8192x128_1_0_0_1_n_n none l r) : (⟨S8192x16513, .f32⟩ : BufTy).Contents (Elt F) → (⟨S16513x128, .f32⟩ : BufTy).Contents (Elt F) → (⟨S8192x128, .f32⟩ : BufTy).Contents (Elt F)),
    unary main_arg9 main_v25 (broadcastInDim S1x128 ![1] bcast_S128_S1x128_1 : (⟨S128, .f32⟩ : BufTy).Contents (Elt F) → (⟨S1x128, .f32⟩ : BufTy).Contents (Elt F)),
    unary main_v25 main_v26 (broadcastInDim S8192x128 ![0, 1] bcast_S1x128_S8192x128_0_1 : (⟨S1x128, .f32⟩ : BufTy).Contents (Elt F) → (⟨S8192x128, .f32⟩ : BufTy).Contents (Elt F)),
    binary main_v24 main_v26 main_v27 (addf : (⟨S8192x128, .f32⟩ : BufTy).Contents (Elt F) → (⟨S8192x128, .f32⟩ : BufTy).Contents (Elt F) → (⟨S8192x128, .f32⟩ : BufTy).Contents (Elt F)),
    binary main_v12 main_v23 main_v28 ((fun a b => concatenate S8192x257 1 [⟨S8192x129, a⟩, ⟨S8192x128, b⟩] concatenates_S8192x129_S8192x128_S8192x257_d1) : (⟨S8192x129, .f32⟩ : BufTy).Contents (Elt F) → (⟨S8192x128, .f32⟩ : BufTy).Contents (Elt F) → (⟨S8192x257, .f32⟩ : BufTy).Contents (Elt F)),
    binary main_v7 main_v27 main_v29 ((fun a b => concatenate S8192x256 1 [⟨S8192x128, a⟩, ⟨S8192x128, b⟩] concatenates_S8192x128_S8192x128_S8192x256_d1) : (⟨S8192x128, .f32⟩ : BufTy).Contents (Elt F) → (⟨S8192x128, .f32⟩ : BufTy).Contents (Elt F) → (⟨S8192x256, .f32⟩ : BufTy).Contents (Elt F)),
    unary main_v11 main_v30 (broadcastInDim S8192x128x1 ![0, 1] bcast_S8192x128_S8192x128x1_0_1 : (⟨S8192x128, .f32⟩ : BufTy).Contents (Elt F) → (⟨S8192x128x1, .f32⟩ : BufTy).Contents (Elt F)),
    unary main_v23 main_v31 (broadcastInDim S8192x1x128 ![0, 2] bcast_S8192x128_S8192x1x128_0_2 : (⟨S8192x128, .f32⟩ : BufTy).Contents (Elt F) → (⟨S8192x1x128, .f32⟩ : BufTy).Contents (Elt F)),
    unary main_v30 main_v32 (broadcastInDim S8192x128x128 ![0, 1, 2] bcast_S8192x128x1_S8192x128x128_0_1_2 : (⟨S8192x128x1, .f32⟩ : BufTy).Contents (Elt F) → (⟨S8192x128x128, .f32⟩ : BufTy).Contents (Elt F)),
    unary main_v31 main_v33 (broadcastInDim S8192x128x128 ![0, 1, 2] bcast_S8192x1x128_S8192x128x128_0_1_2 : (⟨S8192x1x128, .f32⟩ : BufTy).Contents (Elt F) → (⟨S8192x128x128, .f32⟩ : BufTy).Contents (Elt F)),
    binary main_v32 main_v33 main_v34 (mulf : (⟨S8192x128x128, .f32⟩ : BufTy).Contents (Elt F) → (⟨S8192x128x128, .f32⟩ : BufTy).Contents (Elt F) → (⟨S8192x128x128, .f32⟩ : BufTy).Contents (Elt F)),
    reshape main_v34 main_v35 rfl shapeCasts_S8192x128x128_S8192x16384,
    binary main_v28 main_v35 main_v36 ((fun a b => concatenate S8192x16641 1 [⟨S8192x257, a⟩, ⟨S8192x16384, b⟩] concatenates_S8192x257_S8192x16384_S8192x16641_d1) : (⟨S8192x257, .f32⟩ : BufTy).Contents (Elt F) → (⟨S8192x16384, .f32⟩ : BufTy).Contents (Elt F) → (⟨S8192x16641, .f32⟩ : BufTy).Contents (Elt F)),
    binary main_v36 main_arg10 main_v37 ((fun l r => Host.dotGeneral dot_S8192x16641_S16641x128_S8192x128_1_0_0_1_n_n none l r) : (⟨S8192x16641, .f32⟩ : BufTy).Contents (Elt F) → (⟨S16641x128, .f32⟩ : BufTy).Contents (Elt F) → (⟨S8192x128, .f32⟩ : BufTy).Contents (Elt F)),
    unary main_arg11 main_v38 (broadcastInDim S1x128 ![1] bcast_S128_S1x128_1 : (⟨S128, .f32⟩ : BufTy).Contents (Elt F) → (⟨S1x128, .f32⟩ : BufTy).Contents (Elt F)),
    unary main_v38 main_v39 (broadcastInDim S8192x128 ![0, 1] bcast_S1x128_S8192x128_0_1 : (⟨S1x128, .f32⟩ : BufTy).Contents (Elt F) → (⟨S8192x128, .f32⟩ : BufTy).Contents (Elt F)),
    binary main_v37 main_v39 main_v40 (addf : (⟨S8192x128, .f32⟩ : BufTy).Contents (Elt F) → (⟨S8192x128, .f32⟩ : BufTy).Contents (Elt F) → (⟨S8192x128, .f32⟩ : BufTy).Contents (Elt F)),
    binary main_v36 main_arg12 main_v41 ((fun l r => Host.dotGeneral dot_S8192x16641_S16641x128_S8192x128_1_0_0_1_n_n none l r) : (⟨S8192x16641, .f32⟩ : BufTy).Contents (Elt F) → (⟨S16641x128, .f32⟩ : BufTy).Contents (Elt F) → (⟨S8192x128, .f32⟩ : BufTy).Contents (Elt F)),
    unary main_arg13 main_v42 (broadcastInDim S1x128 ![1] bcast_S128_S1x128_1 : (⟨S128, .f32⟩ : BufTy).Contents (Elt F) → (⟨S1x128, .f32⟩ : BufTy).Contents (Elt F)),
    unary main_v42 main_v43 (broadcastInDim S8192x128 ![0, 1] bcast_S1x128_S8192x128_0_1 : (⟨S1x128, .f32⟩ : BufTy).Contents (Elt F) → (⟨S8192x128, .f32⟩ : BufTy).Contents (Elt F)),
    binary main_v41 main_v43 main_v44 (addf : (⟨S8192x128, .f32⟩ : BufTy).Contents (Elt F) → (⟨S8192x128, .f32⟩ : BufTy).Contents (Elt F) → (⟨S8192x128, .f32⟩ : BufTy).Contents (Elt F)),
    binary main_v28 main_v40 main_v45 ((fun a b => concatenate S8192x385 1 [⟨S8192x257, a⟩, ⟨S8192x128, b⟩] concatenates_S8192x257_S8192x128_S8192x385_d1) : (⟨S8192x257, .f32⟩ : BufTy).Contents (Elt F) → (⟨S8192x128, .f32⟩ : BufTy).Contents (Elt F) → (⟨S8192x385, .f32⟩ : BufTy).Contents (Elt F)),
    binary main_v29 main_v44 main_v46 ((fun a b => concatenate S8192x384 1 [⟨S8192x256, a⟩, ⟨S8192x128, b⟩] concatenates_S8192x256_S8192x128_S8192x384_d1) : (⟨S8192x256, .f32⟩ : BufTy).Contents (Elt F) → (⟨S8192x128, .f32⟩ : BufTy).Contents (Elt F) → (⟨S8192x384, .f32⟩ : BufTy).Contents (Elt F)),
    binary main_v45 main_v46 main_v47 ((fun a b => concatenate S8192x769 1 [⟨S8192x385, a⟩, ⟨S8192x384, b⟩] concatenates_S8192x385_S8192x384_S8192x769_d1) : (⟨S8192x385, .f32⟩ : BufTy).Contents (Elt F) → (⟨S8192x384, .f32⟩ : BufTy).Contents (Elt F) → (⟨S8192x769, .f32⟩ : BufTy).Contents (Elt F)),
    binary main_v47 main_arg14 main_v48 ((fun l r => Host.dotGeneral dot_S8192x769_S769x1_S8192x1_1_0_0_1_n_n none l r) : (⟨S8192x769, .f32⟩ : BufTy).Contents (Elt F) → (⟨S769x1, .f32⟩ : BufTy).Contents (Elt F) → (⟨S8192x1, .f32⟩ : BufTy).Contents (Elt F)),
    unary main_arg15 main_v49 (broadcastInDim S1x1 ![1] bcast_S1_S1x1_1 : (⟨S1, .f32⟩ : BufTy).Contents (Elt F) → (⟨S1x1, .f32⟩ : BufTy).Contents (Elt F)),
    unary main_v49 main_v50 (broadcastInDim S8192x1 ![0, 1] bcast_S1x1_S8192x1_0_1 : (⟨S1x1, .f32⟩ : BufTy).Contents (Elt F) → (⟨S8192x1, .f32⟩ : BufTy).Contents (Elt F)),
    binary main_v48 main_v50 main_v51 (addf : (⟨S8192x1, .f32⟩ : BufTy).Contents (Elt F) → (⟨S8192x1, .f32⟩ : BufTy).Contents (Elt F) → (⟨S8192x1, .f32⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., unary_bufs_sub .., binary_bufs_sub .., binary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., unary_bufs_sub .., unary_bufs_sub .., binary_bufs_sub .., reshape_bufs_sub .., binary_bufs_sub .., binary_bufs_sub .., unary_bufs_sub .., unary_bufs_sub .., binary_bufs_sub .., binary_bufs_sub .., unary_bufs_sub .., unary_bufs_sub .., binary_bufs_sub .., binary_bufs_sub .., binary_bufs_sub .., unary_bufs_sub .., unary_bufs_sub .., unary_bufs_sub .., unary_bufs_sub .., binary_bufs_sub .., reshape_bufs_sub .., binary_bufs_sub .., binary_bufs_sub .., unary_bufs_sub .., unary_bufs_sub .., binary_bufs_sub .., binary_bufs_sub .., unary_bufs_sub .., unary_bufs_sub .., binary_bufs_sub .., binary_bufs_sub .., binary_bufs_sub .., binary_bufs_sub .., binary_bufs_sub .., unary_bufs_sub .., unary_bufs_sub .., binary_bufs_sub ..⟩

/-- Operations 0 to 12 of @main (its first stretch). -/
abbrev ops1 : List (HloOp τ sig (Elt F)) :=
  [ nullary main_cst (constant S_ .f32 0x3F800000#32),
    unary main_cst main_v0 (broadcastInDim S8192x1 ![] bcast_S_S8192x1 : (⟨S_, .f32⟩ : BufTy).Contents (Elt F) → (⟨S8192x1, .f32⟩ : BufTy).Contents (Elt F)),
    unary main_arg1 main_v1 (broadcastInDim S8192x1 ![] bcast_S_S8192x1 : (⟨S_, .f32⟩ : BufTy).Contents (Elt F) → (⟨S8192x1, .f32⟩ : BufTy).Contents (Elt F)),
    binary main_v0 main_v1 main_v2 (mulf : (⟨S8192x1, .f32⟩ : BufTy).Contents (Elt F) → (⟨S8192x1, .f32⟩ : BufTy).Contents (Elt F) → (⟨S8192x1, .f32⟩ : BufTy).Contents (Elt F)),
    binary main_v2 main_arg0 main_v3 ((fun a b => concatenate S8192x65 1 [⟨S8192x1, a⟩, ⟨S8192x64, b⟩] concatenates_S8192x1_S8192x64_S8192x65_d1) : (⟨S8192x1, .f32⟩ : BufTy).Contents (Elt F) → (⟨S8192x64, .f32⟩ : BufTy).Contents (Elt F) → (⟨S8192x65, .f32⟩ : BufTy).Contents (Elt F)),
    binary main_v3 main_arg4 main_v4 ((fun l r => Host.dotGeneral dot_S8192x65_S65x128_S8192x128_1_0_0_1_n_n none l r) : (⟨S8192x65, .f32⟩ : BufTy).Contents (Elt F) → (⟨S65x128, .f32⟩ : BufTy).Contents (Elt F) → (⟨S8192x128, .f32⟩ : BufTy).Contents (Elt F)),
    unary main_arg5 main_v5 (broadcastInDim S1x128 ![1] bcast_S128_S1x128_1 : (⟨S128, .f32⟩ : BufTy).Contents (Elt F) → (⟨S1x128, .f32⟩ : BufTy).Contents (Elt F)),
    unary main_v5 main_v6 (broadcastInDim S8192x128 ![0, 1] bcast_S1x128_S8192x128_0_1 : (⟨S1x128, .f32⟩ : BufTy).Contents (Elt F) → (⟨S8192x128, .f32⟩ : BufTy).Contents (Elt F)),
    binary main_v4 main_v6 main_v7 (addf : (⟨S8192x128, .f32⟩ : BufTy).Contents (Elt F) → (⟨S8192x128, .f32⟩ : BufTy).Contents (Elt F) → (⟨S8192x128, .f32⟩ : BufTy).Contents (Elt F)),
    binary main_v3 main_arg2 main_v8 ((fun l r => Host.dotGeneral dot_S8192x65_S65x128_S8192x128_1_0_0_1_n_n none l r) : (⟨S8192x65, .f32⟩ : BufTy).Contents (Elt F) → (⟨S65x128, .f32⟩ : BufTy).Contents (Elt F) → (⟨S8192x128, .f32⟩ : BufTy).Contents (Elt F)),
    unary main_arg3 main_v9 (broadcastInDim S1x128 ![1] bcast_S128_S1x128_1 : (⟨S128, .f32⟩ : BufTy).Contents (Elt F) → (⟨S1x128, .f32⟩ : BufTy).Contents (Elt F)),
    unary main_v9 main_v10 (broadcastInDim S8192x128 ![0, 1] bcast_S1x128_S8192x128_0_1 : (⟨S1x128, .f32⟩ : BufTy).Contents (Elt F) → (⟨S8192x128, .f32⟩ : BufTy).Contents (Elt F)),
    binary main_v8 main_v10 main_v11 (addf : (⟨S8192x128, .f32⟩ : BufTy).Contents (Elt F) → (⟨S8192x128, .f32⟩ : BufTy).Contents (Elt F) → (⟨S8192x128, .f32⟩ : BufTy).Contents (Elt F)) ]

/-- Operations 13 to 28 of @main (its second stretch). -/
abbrev ops2 : List (HloOp τ sig (Elt F)) :=
  [ binary main_v2 main_v11 main_v12 ((fun a b => concatenate S8192x129 1 [⟨S8192x1, a⟩, ⟨S8192x128, b⟩] concatenates_S8192x1_S8192x128_S8192x129_d1) : (⟨S8192x1, .f32⟩ : BufTy).Contents (Elt F) → (⟨S8192x128, .f32⟩ : BufTy).Contents (Elt F) → (⟨S8192x129, .f32⟩ : BufTy).Contents (Elt F)),
    unary main_v11 main_v13 (broadcastInDim S8192x128x1 ![0, 1] bcast_S8192x128_S8192x128x1_0_1 : (⟨S8192x128, .f32⟩ : BufTy).Contents (Elt F) → (⟨S8192x128x1, .f32⟩ : BufTy).Contents (Elt F)),
    unary main_v11 main_v14 (broadcastInDim S8192x1x128 ![0, 2] bcast_S8192x128_S8192x1x128_0_2 : (⟨S8192x128, .f32⟩ : BufTy).Contents (Elt F) → (⟨S8192x1x128, .f32⟩ : BufTy).Contents (Elt F)),
    unary main_v13 main_v15 (broadcastInDim S8192x128x128 ![0, 1, 2] bcast_S8192x128x1_S8192x128x128_0_1_2 : (⟨S8192x128x1, .f32⟩ : BufTy).Contents (Elt F) → (⟨S8192x128x128, .f32⟩ : BufTy).Contents (Elt F)),
    unary main_v14 main_v16 (broadcastInDim S8192x128x128 ![0, 1, 2] bcast_S8192x1x128_S8192x128x128_0_1_2 : (⟨S8192x1x128, .f32⟩ : BufTy).Contents (Elt F) → (⟨S8192x128x128, .f32⟩ : BufTy).Contents (Elt F)),
    binary main_v15 main_v16 main_v17 (mulf : (⟨S8192x128x128, .f32⟩ : BufTy).Contents (Elt F) → (⟨S8192x128x128, .f32⟩ : BufTy).Contents (Elt F) → (⟨S8192x128x128, .f32⟩ : BufTy).Contents (Elt F)),
    reshape main_v17 main_v18 rfl shapeCasts_S8192x128x128_S8192x16384,
    binary main_v12 main_v18 main_v19 ((fun a b => concatenate S8192x16513 1 [⟨S8192x129, a⟩, ⟨S8192x16384, b⟩] concatenates_S8192x129_S8192x16384_S8192x16513_d1) : (⟨S8192x129, .f32⟩ : BufTy).Contents (Elt F) → (⟨S8192x16384, .f32⟩ : BufTy).Contents (Elt F) → (⟨S8192x16513, .f32⟩ : BufTy).Contents (Elt F)),
    binary main_v19 main_arg6 main_v20 ((fun l r => Host.dotGeneral dot_S8192x16513_S16513x128_S8192x128_1_0_0_1_n_n none l r) : (⟨S8192x16513, .f32⟩ : BufTy).Contents (Elt F) → (⟨S16513x128, .f32⟩ : BufTy).Contents (Elt F) → (⟨S8192x128, .f32⟩ : BufTy).Contents (Elt F)),
    unary main_arg7 main_v21 (broadcastInDim S1x128 ![1] bcast_S128_S1x128_1 : (⟨S128, .f32⟩ : BufTy).Contents (Elt F) → (⟨S1x128, .f32⟩ : BufTy).Contents (Elt F)),
    unary main_v21 main_v22 (broadcastInDim S8192x128 ![0, 1] bcast_S1x128_S8192x128_0_1 : (⟨S1x128, .f32⟩ : BufTy).Contents (Elt F) → (⟨S8192x128, .f32⟩ : BufTy).Contents (Elt F)),
    binary main_v20 main_v22 main_v23 (addf : (⟨S8192x128, .f32⟩ : BufTy).Contents (Elt F) → (⟨S8192x128, .f32⟩ : BufTy).Contents (Elt F) → (⟨S8192x128, .f32⟩ : BufTy).Contents (Elt F)),
    binary main_v19 main_arg8 main_v24 ((fun l r => Host.dotGeneral dot_S8192x16513_S16513x128_S8192x128_1_0_0_1_n_n none l r) : (⟨S8192x16513, .f32⟩ : BufTy).Contents (Elt F) → (⟨S16513x128, .f32⟩ : BufTy).Contents (Elt F) → (⟨S8192x128, .f32⟩ : BufTy).Contents (Elt F)),
    unary main_arg9 main_v25 (broadcastInDim S1x128 ![1] bcast_S128_S1x128_1 : (⟨S128, .f32⟩ : BufTy).Contents (Elt F) → (⟨S1x128, .f32⟩ : BufTy).Contents (Elt F)),
    unary main_v25 main_v26 (broadcastInDim S8192x128 ![0, 1] bcast_S1x128_S8192x128_0_1 : (⟨S1x128, .f32⟩ : BufTy).Contents (Elt F) → (⟨S8192x128, .f32⟩ : BufTy).Contents (Elt F)),
    binary main_v24 main_v26 main_v27 (addf : (⟨S8192x128, .f32⟩ : BufTy).Contents (Elt F) → (⟨S8192x128, .f32⟩ : BufTy).Contents (Elt F) → (⟨S8192x128, .f32⟩ : BufTy).Contents (Elt F)) ]

/-- Operations 29 to 45 of @main (its third stretch). -/
abbrev ops3 : List (HloOp τ sig (Elt F)) :=
  [ binary main_v12 main_v23 main_v28 ((fun a b => concatenate S8192x257 1 [⟨S8192x129, a⟩, ⟨S8192x128, b⟩] concatenates_S8192x129_S8192x128_S8192x257_d1) : (⟨S8192x129, .f32⟩ : BufTy).Contents (Elt F) → (⟨S8192x128, .f32⟩ : BufTy).Contents (Elt F) → (⟨S8192x257, .f32⟩ : BufTy).Contents (Elt F)),
    binary main_v7 main_v27 main_v29 ((fun a b => concatenate S8192x256 1 [⟨S8192x128, a⟩, ⟨S8192x128, b⟩] concatenates_S8192x128_S8192x128_S8192x256_d1) : (⟨S8192x128, .f32⟩ : BufTy).Contents (Elt F) → (⟨S8192x128, .f32⟩ : BufTy).Contents (Elt F) → (⟨S8192x256, .f32⟩ : BufTy).Contents (Elt F)),
    unary main_v11 main_v30 (broadcastInDim S8192x128x1 ![0, 1] bcast_S8192x128_S8192x128x1_0_1 : (⟨S8192x128, .f32⟩ : BufTy).Contents (Elt F) → (⟨S8192x128x1, .f32⟩ : BufTy).Contents (Elt F)),
    unary main_v23 main_v31 (broadcastInDim S8192x1x128 ![0, 2] bcast_S8192x128_S8192x1x128_0_2 : (⟨S8192x128, .f32⟩ : BufTy).Contents (Elt F) → (⟨S8192x1x128, .f32⟩ : BufTy).Contents (Elt F)),
    unary main_v30 main_v32 (broadcastInDim S8192x128x128 ![0, 1, 2] bcast_S8192x128x1_S8192x128x128_0_1_2 : (⟨S8192x128x1, .f32⟩ : BufTy).Contents (Elt F) → (⟨S8192x128x128, .f32⟩ : BufTy).Contents (Elt F)),
    unary main_v31 main_v33 (broadcastInDim S8192x128x128 ![0, 1, 2] bcast_S8192x1x128_S8192x128x128_0_1_2 : (⟨S8192x1x128, .f32⟩ : BufTy).Contents (Elt F) → (⟨S8192x128x128, .f32⟩ : BufTy).Contents (Elt F)),
    binary main_v32 main_v33 main_v34 (mulf : (⟨S8192x128x128, .f32⟩ : BufTy).Contents (Elt F) → (⟨S8192x128x128, .f32⟩ : BufTy).Contents (Elt F) → (⟨S8192x128x128, .f32⟩ : BufTy).Contents (Elt F)),
    reshape main_v34 main_v35 rfl shapeCasts_S8192x128x128_S8192x16384,
    binary main_v28 main_v35 main_v36 ((fun a b => concatenate S8192x16641 1 [⟨S8192x257, a⟩, ⟨S8192x16384, b⟩] concatenates_S8192x257_S8192x16384_S8192x16641_d1) : (⟨S8192x257, .f32⟩ : BufTy).Contents (Elt F) → (⟨S8192x16384, .f32⟩ : BufTy).Contents (Elt F) → (⟨S8192x16641, .f32⟩ : BufTy).Contents (Elt F)),
    binary main_v36 main_arg10 main_v37 ((fun l r => Host.dotGeneral dot_S8192x16641_S16641x128_S8192x128_1_0_0_1_n_n none l r) : (⟨S8192x16641, .f32⟩ : BufTy).Contents (Elt F) → (⟨S16641x128, .f32⟩ : BufTy).Contents (Elt F) → (⟨S8192x128, .f32⟩ : BufTy).Contents (Elt F)),
    unary main_arg11 main_v38 (broadcastInDim S1x128 ![1] bcast_S128_S1x128_1 : (⟨S128, .f32⟩ : BufTy).Contents (Elt F) → (⟨S1x128, .f32⟩ : BufTy).Contents (Elt F)),
    unary main_v38 main_v39 (broadcastInDim S8192x128 ![0, 1] bcast_S1x128_S8192x128_0_1 : (⟨S1x128, .f32⟩ : BufTy).Contents (Elt F) → (⟨S8192x128, .f32⟩ : BufTy).Contents (Elt F)),
    binary main_v37 main_v39 main_v40 (addf : (⟨S8192x128, .f32⟩ : BufTy).Contents (Elt F) → (⟨S8192x128, .f32⟩ : BufTy).Contents (Elt F) → (⟨S8192x128, .f32⟩ : BufTy).Contents (Elt F)),
    binary main_v36 main_arg12 main_v41 ((fun l r => Host.dotGeneral dot_S8192x16641_S16641x128_S8192x128_1_0_0_1_n_n none l r) : (⟨S8192x16641, .f32⟩ : BufTy).Contents (Elt F) → (⟨S16641x128, .f32⟩ : BufTy).Contents (Elt F) → (⟨S8192x128, .f32⟩ : BufTy).Contents (Elt F)),
    unary main_arg13 main_v42 (broadcastInDim S1x128 ![1] bcast_S128_S1x128_1 : (⟨S128, .f32⟩ : BufTy).Contents (Elt F) → (⟨S1x128, .f32⟩ : BufTy).Contents (Elt F)),
    unary main_v42 main_v43 (broadcastInDim S8192x128 ![0, 1] bcast_S1x128_S8192x128_0_1 : (⟨S1x128, .f32⟩ : BufTy).Contents (Elt F) → (⟨S8192x128, .f32⟩ : BufTy).Contents (Elt F)),
    binary main_v41 main_v43 main_v44 (addf : (⟨S8192x128, .f32⟩ : BufTy).Contents (Elt F) → (⟨S8192x128, .f32⟩ : BufTy).Contents (Elt F) → (⟨S8192x128, .f32⟩ : BufTy).Contents (Elt F)) ]

/-- Operations 46 to 52 of @main (its fourth stretch). -/
abbrev ops4 : List (HloOp τ sig (Elt F)) :=
  [ binary main_v28 main_v40 main_v45 ((fun a b => concatenate S8192x385 1 [⟨S8192x257, a⟩, ⟨S8192x128, b⟩] concatenates_S8192x257_S8192x128_S8192x385_d1) : (⟨S8192x257, .f32⟩ : BufTy).Contents (Elt F) → (⟨S8192x128, .f32⟩ : BufTy).Contents (Elt F) → (⟨S8192x385, .f32⟩ : BufTy).Contents (Elt F)),
    binary main_v29 main_v44 main_v46 ((fun a b => concatenate S8192x384 1 [⟨S8192x256, a⟩, ⟨S8192x128, b⟩] concatenates_S8192x256_S8192x128_S8192x384_d1) : (⟨S8192x256, .f32⟩ : BufTy).Contents (Elt F) → (⟨S8192x128, .f32⟩ : BufTy).Contents (Elt F) → (⟨S8192x384, .f32⟩ : BufTy).Contents (Elt F)),
    binary main_v45 main_v46 main_v47 ((fun a b => concatenate S8192x769 1 [⟨S8192x385, a⟩, ⟨S8192x384, b⟩] concatenates_S8192x385_S8192x384_S8192x769_d1) : (⟨S8192x385, .f32⟩ : BufTy).Contents (Elt F) → (⟨S8192x384, .f32⟩ : BufTy).Contents (Elt F) → (⟨S8192x769, .f32⟩ : BufTy).Contents (Elt F)),
    binary main_v47 main_arg14 main_v48 ((fun l r => Host.dotGeneral dot_S8192x769_S769x1_S8192x1_1_0_0_1_n_n none l r) : (⟨S8192x769, .f32⟩ : BufTy).Contents (Elt F) → (⟨S769x1, .f32⟩ : BufTy).Contents (Elt F) → (⟨S8192x1, .f32⟩ : BufTy).Contents (Elt F)),
    unary main_arg15 main_v49 (broadcastInDim S1x1 ![1] bcast_S1_S1x1_1 : (⟨S1, .f32⟩ : BufTy).Contents (Elt F) → (⟨S1x1, .f32⟩ : BufTy).Contents (Elt F)),
    unary main_v49 main_v50 (broadcastInDim S8192x1 ![0, 1] bcast_S1x1_S8192x1_0_1 : (⟨S1x1, .f32⟩ : BufTy).Contents (Elt F) → (⟨S8192x1, .f32⟩ : BufTy).Contents (Elt F)),
    binary main_v48 main_v50 main_v51 (addf : (⟨S8192x1, .f32⟩ : BufTy).Contents (Elt F) → (⟨S8192x1, .f32⟩ : BufTy).Contents (Elt F) → (⟨S8192x1, .f32⟩ : BufTy).Contents (Elt F)) ]

set_option maxRecDepth 8192 in
/-- @main's operations are the four stretches, one after the other. -/
theorem ops_split : (ops : List (HloOp τ sig (Elt F))) = ops1 ++ (ops2 ++ (ops3 ++ ops4)) := rfl

/-- The contents after two lines run in turn: after the second, from the contents after the first. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-- After the operations of `ops1`, from any contents `W` that hold the earlier stages' values (and the arguments) at the
    buffers these and the later operations read: the stages computed here, and the buffers still to be read, hold
    their values. -/
theorem after_ops1 (W : Valuation τ sig (Elt F)) (x0 : (⟨S8192x64, .f32⟩ : BufTy).Contents (Elt F)) (x1 : (⟨S_, .f32⟩ : BufTy).Contents (Elt F)) (x2 : (⟨S65x128, .f32⟩ : BufTy).Contents (Elt F)) (x3 : (⟨S128, .f32⟩ : BufTy).Contents (Elt F)) (x4 : (⟨S65x128, .f32⟩ : BufTy).Contents (Elt F)) (x5 : (⟨S128, .f32⟩ : BufTy).Contents (Elt F)) (x6 : (⟨S16513x128, .f32⟩ : BufTy).Contents (Elt F)) (x7 : (⟨S128, .f32⟩ : BufTy).Contents (Elt F)) (x8 : (⟨S16513x128, .f32⟩ : BufTy).Contents (Elt F)) (x9 : (⟨S128, .f32⟩ : BufTy).Contents (Elt F)) (x10 : (⟨S16641x128, .f32⟩ : BufTy).Contents (Elt F)) (x11 : (⟨S128, .f32⟩ : BufTy).Contents (Elt F)) (x12 : (⟨S16641x128, .f32⟩ : BufTy).Contents (Elt F)) (x13 : (⟨S128, .f32⟩ : BufTy).Contents (Elt F)) (x14 : (⟨S769x1, .f32⟩ : BufTy).Contents (Elt F)) (x15 : (⟨S1, .f32⟩ : BufTy).Contents (Elt F))
    (h_arg0 : W (Proc.devRef .tc main_arg0) = x0)
    (h_arg1 : W (Proc.devRef .tc main_arg1) = x1)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5)
    (h_arg6 : W (Proc.devRef .tc main_arg6) = x6)
    (h_arg7 : W (Proc.devRef .tc main_arg7) = x7)
    (h_arg8 : W (Proc.devRef .tc main_arg8) = x8)
    (h_arg9 : W (Proc.devRef .tc main_arg9) = x9)
    (h_arg10 : W (Proc.devRef .tc main_arg10) = x10)
    (h_arg11 : W (Proc.devRef .tc main_arg11) = x11)
    (h_arg12 : W (Proc.devRef .tc main_arg12) = x12)
    (h_arg13 : W (Proc.devRef .tc main_arg13) = x13)
    (h_arg14 : W (Proc.devRef .tc main_arg14) = x14)
    (h_arg15 : W (Proc.devRef .tc main_arg15) = x15) :
    after ops1 W (Proc.devRef .tc main_v2) = Read.val_main_v2 (F := F) x1
      ∧ after ops1 W (Proc.devRef .tc main_v7) = Read.val_main_v7 (F := F) x0 x1 x4 x5
      ∧ after ops1 W (Proc.devRef .tc main_v11) = Read.val_main_v11 (F := F) x0 x1 x2 x3
      ∧ after ops1 W (Proc.devRef .tc main_arg6) = x6
      ∧ after ops1 W (Proc.devRef .tc main_arg7) = x7
      ∧ after ops1 W (Proc.devRef .tc main_arg8) = x8
      ∧ after ops1 W (Proc.devRef .tc main_arg9) = x9
      ∧ after ops1 W (Proc.devRef .tc main_arg10) = x10
      ∧ after ops1 W (Proc.devRef .tc main_arg11) = x11
      ∧ after ops1 W (Proc.devRef .tc main_arg12) = x12
      ∧ after ops1 W (Proc.devRef .tc main_arg13) = x13
      ∧ after ops1 W (Proc.devRef .tc main_arg14) = x14
      ∧ after ops1 W (Proc.devRef .tc main_arg15) = x15 :=
  ⟨by
      after_results
      rw [h_arg1]
      rfl,
   by
      after_results
      rw [h_arg1, h_arg0, h_arg4, h_arg5]
      rfl,
   by
      after_results
      rw [h_arg1, h_arg0, h_arg2, h_arg3]
      rfl,
   (by after_results_simp : after (ops1 (F := F)) W (Proc.devRef .tc main_arg6) = W (Proc.devRef .tc main_arg6)).trans h_arg6,
   (by after_results_simp : after (ops1 (F := F)) W (Proc.devRef .tc main_arg7) = W (Proc.devRef .tc main_arg7)).trans h_arg7,
   (by after_results_simp : after (ops1 (F := F)) W (Proc.devRef .tc main_arg8) = W (Proc.devRef .tc main_arg8)).trans h_arg8,
   (by after_results_simp : after (ops1 (F := F)) W (Proc.devRef .tc main_arg9) = W (Proc.devRef .tc main_arg9)).trans h_arg9,
   (by after_results_simp : after (ops1 (F := F)) W (Proc.devRef .tc main_arg10) = W (Proc.devRef .tc main_arg10)).trans h_arg10,
   (by after_results_simp : after (ops1 (F := F)) W (Proc.devRef .tc main_arg11) = W (Proc.devRef .tc main_arg11)).trans h_arg11,
   (by after_results_simp : after (ops1 (F := F)) W (Proc.devRef .tc main_arg12) = W (Proc.devRef .tc main_arg12)).trans h_arg12,
   (by after_results_simp : after (ops1 (F := F)) W (Proc.devRef .tc main_arg13) = W (Proc.devRef .tc main_arg13)).trans h_arg13,
   (by after_results_simp : after (ops1 (F := F)) W (Proc.devRef .tc main_arg14) = W (Proc.devRef .tc main_arg14)).trans h_arg14,
   (by after_results_simp : after (ops1 (F := F)) W (Proc.devRef .tc main_arg15) = W (Proc.devRef .tc main_arg15)).trans h_arg15⟩

/-- After the operations of `ops2`, from any contents `W` that hold the earlier stages' values (and the arguments) at the
    buffers these and the later operations read: the stages computed here, and the buffers still to be read, hold
    their values. -/
theorem after_ops2 (W : Valuation τ sig (Elt F)) (x0 : (⟨S8192x64, .f32⟩ : BufTy).Contents (Elt F)) (x1 : (⟨S_, .f32⟩ : BufTy).Contents (Elt F)) (x2 : (⟨S65x128, .f32⟩ : BufTy).Contents (Elt F)) (x3 : (⟨S128, .f32⟩ : BufTy).Contents (Elt F)) (x4 : (⟨S65x128, .f32⟩ : BufTy).Contents (Elt F)) (x5 : (⟨S128, .f32⟩ : BufTy).Contents (Elt F)) (x6 : (⟨S16513x128, .f32⟩ : BufTy).Contents (Elt F)) (x7 : (⟨S128, .f32⟩ : BufTy).Contents (Elt F)) (x8 : (⟨S16513x128, .f32⟩ : BufTy).Contents (Elt F)) (x9 : (⟨S128, .f32⟩ : BufTy).Contents (Elt F)) (x10 : (⟨S16641x128, .f32⟩ : BufTy).Contents (Elt F)) (x11 : (⟨S128, .f32⟩ : BufTy).Contents (Elt F)) (x12 : (⟨S16641x128, .f32⟩ : BufTy).Contents (Elt F)) (x13 : (⟨S128, .f32⟩ : BufTy).Contents (Elt F)) (x14 : (⟨S769x1, .f32⟩ : BufTy).Contents (Elt F)) (x15 : (⟨S1, .f32⟩ : BufTy).Contents (Elt F))
    (h_v2 : W (Proc.devRef .tc main_v2) = Read.val_main_v2 (F := F) x1)
    (h_v7 : W (Proc.devRef .tc main_v7) = Read.val_main_v7 (F := F) x0 x1 x4 x5)
    (h_v11 : W (Proc.devRef .tc main_v11) = Read.val_main_v11 (F := F) x0 x1 x2 x3)
    (h_arg6 : W (Proc.devRef .tc main_arg6) = x6)
    (h_arg7 : W (Proc.devRef .tc main_arg7) = x7)
    (h_arg8 : W (Proc.devRef .tc main_arg8) = x8)
    (h_arg9 : W (Proc.devRef .tc main_arg9) = x9)
    (h_arg10 : W (Proc.devRef .tc main_arg10) = x10)
    (h_arg11 : W (Proc.devRef .tc main_arg11) = x11)
    (h_arg12 : W (Proc.devRef .tc main_arg12) = x12)
    (h_arg13 : W (Proc.devRef .tc main_arg13) = x13)
    (h_arg14 : W (Proc.devRef .tc main_arg14) = x14)
    (h_arg15 : W (Proc.devRef .tc main_arg15) = x15) :
    after ops2 W (Proc.devRef .tc main_v12) = Read.val_main_v12 (F := F) x0 x1 x2 x3
      ∧ after ops2 W (Proc.devRef .tc main_v23) = Read.val_main_v23 (F := F) x0 x1 x2 x3 x6 x7
      ∧ after ops2 W (Proc.devRef .tc main_v27) = Read.val_main_v27 (F := F) x0 x1 x2 x3 x8 x9
      ∧ after ops2 W (Proc.devRef .tc main_v7) = Read.val_main_v7 (F := F) x0 x1 x4 x5
      ∧ after ops2 W (Proc.devRef .tc main_v11) = Read.val_main_v11 (F := F) x0 x1 x2 x3
      ∧ after ops2 W (Proc.devRef .tc main_arg10) = x10
      ∧ after ops2 W (Proc.devRef .tc main_arg11) = x11
      ∧ after ops2 W (Proc.devRef .tc main_arg12) = x12
      ∧ after ops2 W (Proc.devRef .tc main_arg13) = x13
      ∧ after ops2 W (Proc.devRef .tc main_arg14) = x14
      ∧ after ops2 W (Proc.devRef .tc main_arg15) = x15 :=
  ⟨by
      after_results
      rw [h_v2, h_v11]
      rfl,
   by
      after_results
      rw [h_v2, h_v11, h_arg6, h_arg7]
      rfl,
   by
      after_results
      rw [h_v2, h_v11, h_arg8, h_arg9]
      rfl,
   (by after_results_simp : after (ops2 (F := F)) W (Proc.devRef .tc main_v7) = W (Proc.devRef .tc main_v7)).trans h_v7,
   (by after_results_simp : after (ops2 (F := F)) W (Proc.devRef .tc main_v11) = W (Proc.devRef .tc main_v11)).trans h_v11,
   (by after_results_simp : after (ops2 (F := F)) W (Proc.devRef .tc main_arg10) = W (Proc.devRef .tc main_arg10)).trans h_arg10,
   (by after_results_simp : after (ops2 (F := F)) W (Proc.devRef .tc main_arg11) = W (Proc.devRef .tc main_arg11)).trans h_arg11,
   (by after_results_simp : after (ops2 (F := F)) W (Proc.devRef .tc main_arg12) = W (Proc.devRef .tc main_arg12)).trans h_arg12,
   (by after_results_simp : after (ops2 (F := F)) W (Proc.devRef .tc main_arg13) = W (Proc.devRef .tc main_arg13)).trans h_arg13,
   (by after_results_simp : after (ops2 (F := F)) W (Proc.devRef .tc main_arg14) = W (Proc.devRef .tc main_arg14)).trans h_arg14,
   (by after_results_simp : after (ops2 (F := F)) W (Proc.devRef .tc main_arg15) = W (Proc.devRef .tc main_arg15)).trans h_arg15⟩

/-- After the operations of `ops3`, from any contents `W` that hold the earlier stages' values (and the arguments) at the
    buffers these and the later operations read: the stages computed here, and the buffers still to be read, hold
    their values. -/
theorem after_ops3 (W : Valuation τ sig (Elt F)) (x0 : (⟨S8192x64, .f32⟩ : BufTy).Contents (Elt F)) (x1 : (⟨S_, .f32⟩ : BufTy).Contents (Elt F)) (x2 : (⟨S65x128, .f32⟩ : BufTy).Contents (Elt F)) (x3 : (⟨S128, .f32⟩ : BufTy).Contents (Elt F)) (x4 : (⟨S65x128, .f32⟩ : BufTy).Contents (Elt F)) (x5 : (⟨S128, .f32⟩ : BufTy).Contents (Elt F)) (x6 : (⟨S16513x128, .f32⟩ : BufTy).Contents (Elt F)) (x7 : (⟨S128, .f32⟩ : BufTy).Contents (Elt F)) (x8 : (⟨S16513x128, .f32⟩ : BufTy).Contents (Elt F)) (x9 : (⟨S128, .f32⟩ : BufTy).Contents (Elt F)) (x10 : (⟨S16641x128, .f32⟩ : BufTy).Contents (Elt F)) (x11 : (⟨S128, .f32⟩ : BufTy).Contents (Elt F)) (x12 : (⟨S16641x128, .f32⟩ : BufTy).Contents (Elt F)) (x13 : (⟨S128, .f32⟩ : BufTy).Contents (Elt F)) (x14 : (⟨S769x1, .f32⟩ : BufTy).Contents (Elt F)) (x15 : (⟨S1, .f32⟩ : BufTy).Contents (Elt F))
    (h_v12 : W (Proc.devRef .tc main_v12) = Read.val_main_v12 (F := F) x0 x1 x2 x3)
    (h_v23 : W (Proc.devRef .tc main_v23) = Read.val_main_v23 (F := F) x0 x1 x2 x3 x6 x7)
    (h_v27 : W (Proc.devRef .tc main_v27) = Read.val_main_v27 (F := F) x0 x1 x2 x3 x8 x9)
    (h_v7 : W (Proc.devRef .tc main_v7) = Read.val_main_v7 (F := F) x0 x1 x4 x5)
    (h_v11 : W (Proc.devRef .tc main_v11) = Read.val_main_v11 (F := F) x0 x1 x2 x3)
    (h_arg10 : W (Proc.devRef .tc main_arg10) = x10)
    (h_arg11 : W (Proc.devRef .tc main_arg11) = x11)
    (h_arg12 : W (Proc.devRef .tc main_arg12) = x12)
    (h_arg13 : W (Proc.devRef .tc main_arg13) = x13)
    (h_arg14 : W (Proc.devRef .tc main_arg14) = x14)
    (h_arg15 : W (Proc.devRef .tc main_arg15) = x15) :
    after ops3 W (Proc.devRef .tc main_v28) = Read.val_main_v28 (F := F) x0 x1 x2 x3 x6 x7
      ∧ after ops3 W (Proc.devRef .tc main_v29) = Read.val_main_v29 (F := F) x0 x1 x2 x3 x4 x5 x8 x9
      ∧ after ops3 W (Proc.devRef .tc main_v40) = Read.val_main_v40 (F := F) x0 x1 x2 x3 x6 x7 x10 x11
      ∧ after ops3 W (Proc.devRef .tc main_v44) = Read.val_main_v44 (F := F) x0 x1 x2 x3 x6 x7 x12 x13
      ∧ after ops3 W (Proc.devRef .tc main_arg14) = x14
      ∧ after ops3 W (Proc.devRef .tc main_arg15) = x15 :=
  ⟨by
      after_results
      rw [h_v12, h_v23]
      rfl,
   by
      after_results
      rw [h_v7, h_v27]
      rfl,
   by
      after_results
      rw [h_v12, h_v23, h_v11, h_arg10, h_arg11]
      rfl,
   by
      after_results
      rw [h_v12, h_v23, h_v11, h_arg12, h_arg13]
      rfl,
   (by after_results_simp : after (ops3 (F := F)) W (Proc.devRef .tc main_arg14) = W (Proc.devRef .tc main_arg14)).trans h_arg14,
   (by after_results_simp : after (ops3 (F := F)) W (Proc.devRef .tc main_arg15) = W (Proc.devRef .tc main_arg15)).trans h_arg15⟩

/-- After the operations of `ops4`, from any contents `W` that hold the earlier stages' values (and the arguments) at the
    buffers these and the later operations read: the stages computed here, and the buffers still to be read, hold
    their values. -/
theorem after_ops4 (W : Valuation τ sig (Elt F)) (x0 : (⟨S8192x64, .f32⟩ : BufTy).Contents (Elt F)) (x1 : (⟨S_, .f32⟩ : BufTy).Contents (Elt F)) (x2 : (⟨S65x128, .f32⟩ : BufTy).Contents (Elt F)) (x3 : (⟨S128, .f32⟩ : BufTy).Contents (Elt F)) (x4 : (⟨S65x128, .f32⟩ : BufTy).Contents (Elt F)) (x5 : (⟨S128, .f32⟩ : BufTy).Contents (Elt F)) (x6 : (⟨S16513x128, .f32⟩ : BufTy).Contents (Elt F)) (x7 : (⟨S128, .f32⟩ : BufTy).Contents (Elt F)) (x8 : (⟨S16513x128, .f32⟩ : BufTy).Contents (Elt F)) (x9 : (⟨S128, .f32⟩ : BufTy).Contents (Elt F)) (x10 : (⟨S16641x128, .f32⟩ : BufTy).Contents (Elt F)) (x11 : (⟨S128, .f32⟩ : BufTy).Contents (Elt F)) (x12 : (⟨S16641x128, .f32⟩ : BufTy).Contents (Elt F)) (x13 : (⟨S128, .f32⟩ : BufTy).Contents (Elt F)) (x14 : (⟨S769x1, .f32⟩ : BufTy).Contents (Elt F)) (x15 : (⟨S1, .f32⟩ : BufTy).Contents (Elt F))
    (h_v28 : W (Proc.devRef .tc main_v28) = Read.val_main_v28 (F := F) x0 x1 x2 x3 x6 x7)
    (h_v29 : W (Proc.devRef .tc main_v29) = Read.val_main_v29 (F := F) x0 x1 x2 x3 x4 x5 x8 x9)
    (h_v40 : W (Proc.devRef .tc main_v40) = Read.val_main_v40 (F := F) x0 x1 x2 x3 x6 x7 x10 x11)
    (h_v44 : W (Proc.devRef .tc main_v44) = Read.val_main_v44 (F := F) x0 x1 x2 x3 x6 x7 x12 x13)
    (h_arg14 : W (Proc.devRef .tc main_arg14) = x14)
    (h_arg15 : W (Proc.devRef .tc main_arg15) = x15) :
    after ops4 W (Proc.devRef .tc main_v51) = Read.val_main_v51 (F := F) x0 x1 x2 x3 x4 x5 x6 x7 x8 x9 x10 x11 x12 x13 x14 x15 :=
  by
      after_results
      rw [h_v28, h_v40, h_v29, h_v44, h_arg14, h_arg15]
      rfl

/-- @main's result buffer after all its operations, from any contents `V`: the last stage's value at the
    sixteen arguments' contents in `V` (the four stretches' lemmas, each from the contents the one before leaves). -/
theorem after_ops_main_v51 (V : Valuation τ sig (Elt F)) :
    after ops V (Proc.devRef .tc main_v51)
      = Read.val_main_v51 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  rw [ops_split, after_append', after_append', after_append']
  obtain ⟨h_v2, h_v7, h_v11, h_arg6, h_arg7, h_arg8, h_arg9, h_arg10, h_arg11, h_arg12, h_arg13, h_arg14, h_arg15⟩ :=
    after_ops1 V (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15))
      rfl rfl rfl rfl rfl rfl rfl rfl rfl rfl rfl rfl rfl rfl rfl rfl
  obtain ⟨h_v12, h_v23, h_v27, h_v7, h_v11, h_arg10, h_arg11, h_arg12, h_arg13, h_arg14, h_arg15⟩ :=
    after_ops2 (after ops1 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15))
      h_v2 h_v7 h_v11 h_arg6 h_arg7 h_arg8 h_arg9 h_arg10 h_arg11 h_arg12 h_arg13 h_arg14 h_arg15
  obtain ⟨h_v28, h_v29, h_v40, h_v44, h_arg14, h_arg15⟩ :=
    after_ops3 (after ops2 (after ops1 V)) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15))
      h_v12 h_v23 h_v27 h_v7 h_v11 h_arg10 h_arg11 h_arg12 h_arg13 h_arg14 h_arg15
  exact after_ops4 (after ops3 (after ops2 (after ops1 V))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15))
      h_v28 h_v29 h_v40 h_v44 h_arg14 h_arg15

set_option maxRecDepth 8192 in
set_option maxHeartbeats 2000000 in
/-- On every device, for any float values, from any memory with zero counters: every weakly fair execution of
    @main terminates with the result buffer at the last stage's value of the sixteen arguments' launch contents,
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51) = Cert.ReferenceIdeal.Read.val_main_v51 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v51).trans (after_ops_main_v51 (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl),
      (h c main_arg15).trans (by after_results_simp <;> rfl)⟩)
    (run_seq scopedRefs_eq scopedSems_eq defs main (fun _ => ops) main_eq (fun _ => ops_sub) m ρ)

end Cert.ReferenceIdeal.RunValue

end
-- ==== Proof.lean ====
/-
  The certificate of the fused polynomial-network kernel against its reference program.

  Both programs compute, for each of the 8192 batch rows x and the scalar bias input b0,
      f1 = [b0, x]·Wf1 + bf1,  g1 = [b0, x]·Wg1 + bg1,
      f2 = [b0, f1, f1 ⊗ f1]·Wf2 + bf2,  g2 likewise with Wg2, bg2,
      f3 = [b0, f1, f2, f1 ⊗ f2]·Wf3 + bf3,  g3 likewise,
      result = [b0, f1, f2, f3, g1, g2, g3]·Wfc + bfc,
  the outer products flattened row-major. The reference forms the concatenated rows and multiplies once per layer; the
  kernel works on blocks of 256 rows, keeps the f- and g-branch of a layer side by side in one product of 256 columns,
  multiplies each stretch of a concatenated row separately, and has the bias column's weight (row 0 of each weight
  matrix, times b0) folded into the bias beforehand on the host. Over the extended reals the two agree entry by entry:
  a sum over a concatenated row is the sum of the sums over its stretches, and the rest is commutativity and
  associativity of addition and 1 · b0 = b0 — no distributivity and no cancellation, so the inputs' finiteness is never
  used. The common value of one row is `Cert.PolySpec.out` (Spec.lean); the kernel's side is KerOps / KerPay / KerRow
  (the body at a row), KerHostOps / KerWinA–C (the weight blocks the host prepares) and KerValue (blocks to the array);
  the reference's side is RefA–C / RefSide / RefArr (its stages at a row) over RefRead and RefRun (its run).
  The idealization rewrote nothing, so `preserves` is trivial.
-/
import proofs.«150659_j90297392431134_2_alg».proof.Defs
import proofs.«150659_j90297392431134_2_alg».proof.Proof.Gen.Kernel
import proofs.«150659_j90297392431134_2_alg».proof.Proof.Gen.Kernel.Skeleton
import proofs.«150659_j90297392431134_2_alg».proof.Proof.Gen.Kernel.Launch
import proofs.«150659_j90297392431134_2_alg».proof.Proof.Gen.Kernel.Points
import proofs.«150659_j90297392431134_2_alg».proof.Proof.Gen.Kernel.Frame
import proofs.«150659_j90297392431134_2_alg».proof.Proof.Gen.KernelIdeal
import proofs.«150659_j90297392431134_2_alg».proof.Proof.Gen.KernelIdeal.Skeleton
import proofs.«150659_j90297392431134_2_alg».proof.Proof.Gen.KernelIdeal.Launch
import proofs.«150659_j90297392431134_2_alg».proof.Proof.Gen.KernelIdeal.Points
import proofs.«150659_j90297392431134_2_alg».proof.Proof.Gen.KernelIdeal.Frame
import proofs.«150659_j90297392431134_2_alg».proof.Proof.Gen.KernelIdeal.Value
import proofs.«150659_j90297392431134_2_alg».proof.Proof.Gen.ReferenceIdeal
import proofs.«150659_j90297392431134_2_alg».proof.Proof.Gen.Pre_finite_inputs
import proofs.«150659_j90297392431134_2_alg».proof.Proof.KerValue
import proofs.«150659_j90297392431134_2_alg».proof.Proof.RefArr
import proofs.«150659_j90297392431134_2_alg».proof.Proof.RefRun
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Gen.frame m ρ

theorem frame_pi : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RunValue.run (F := Ideal) m ρ)

theorem preserves : Cert.preserves_Kernel_KernelIdeal := trivial

/-- Both runs end with the result array at the forward pass of the batch (`Cert.PolySpec.outArr`) of the arguments, which agree. -/
theorem algebraic : Cert.algebraic_KernelIdeal_ReferenceIdeal := by
  intro m ρ m' ρ' _ hagree
  refine ⟨_, Cert.KernelIdeal.ArrValue.run m ρ, ?_⟩
  refine (θ_run Cert.ReferenceIdeal.defs _ _).mono (fun _ h c => ⟨(h c).1.trans ?_, (h c).2⟩)
    (Cert.ReferenceIdeal.RunValue.run (F := Ideal) m' ρ')
  obtain ⟨a0, a1, a2, a3, a4, a5, a6, a7, a8, a9, a10, a11, a12, a13, a14, a15⟩ := hagree c
  rw [a0, a1, a2, a3, a4, a5, a6, a7, a8, a9, a10, a11, a12, a13, a14, a15]
  exact Cert.ReferenceIdeal.RefValue.ref_arr _ _ _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
